-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x16x28x28 : Shape := ⟨5, ![8, 256, 16, 28, 28]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S8x16 : Shape := ⟨2, ![8, 16]⟩
abbrev S8x1 : Shape := ⟨2, ![8, 1]⟩
abbrev S16x8 : Shape := ⟨2, ![16, 8]⟩
abbrev S16x1 : Shape := ⟨2, ![16, 1]⟩
abbrev S_ : Shape := ⟨0, ![]⟩

class Facts : Prop where
  bcast_S_S8x256x16x28x28 : S_.BroadcastsInDim S8x256x16x28x28 (![] : Fin 0 → Fin S8x256x16x28x28.rank)
  reducesTo_S8x256x16x28x28_S_d0_1_2_3_4 : S8x256x16x28x28.ReducesTo [0, 1, 2, 3, 4] S_
  h_S_ : 0 < S_.numel
  bcast_S_S256x16 : S_.BroadcastsInDim S256x16 (![] : Fin 0 → Fin S256x16.rank)
  reducesTo_S256x16_S_d0_1 : S256x16.ReducesTo [0, 1] S_
  bcast_S_S1x16 : S_.BroadcastsInDim S1x16 (![] : Fin 0 → Fin S1x16.rank)
  reducesTo_S1x16_S_d0_1 : S1x16.ReducesTo [0, 1] S_
  bcast_S_S16x256 : S_.BroadcastsInDim S16x256 (![] : Fin 0 → Fin S16x256.rank)
  reducesTo_S16x256_S_d0_1 : S16x256.ReducesTo [0, 1] S_
  bcast_S_S1x256 : S_.BroadcastsInDim S1x256 (![] : Fin 0 → Fin S1x256.rank)
  reducesTo_S1x256_S_d0_1 : S1x256.ReducesTo [0, 1] S_
  bcast_S_S8x16 : S_.BroadcastsInDim S8x16 (![] : Fin 0 → Fin S8x16.rank)
  reducesTo_S8x16_S_d0_1 : S8x16.ReducesTo [0, 1] S_
  bcast_S_S8x1 : S_.BroadcastsInDim S8x1 (![] : Fin 0 → Fin S8x1.rank)
  reducesTo_S8x1_S_d0_1 : S8x1.ReducesTo [0, 1] S_
  bcast_S_S16x8 : S_.BroadcastsInDim S16x8 (![] : Fin 0 → Fin S16x8.rank)
  reducesTo_S16x8_S_d0_1 : S16x8.ReducesTo [0, 1] S_
  bcast_S_S16x1 : S_.BroadcastsInDim S16x1 (![] : Fin 0 → Fin S16x1.rank)
  reducesTo_S16x1_S_d0_1 : S16x1.ReducesTo [0, 1] S_

variable [Facts]

def fn_part2 {F : FTy → Type} [FloatOps F] (main_arg7 : FVec F S16x8 .f32) (main_arg8 : FVec F S16x1 .f32) (main_v33 : IVec S_ 1) : IVec S_ 1 :=
  let main_v34 : FVec F S16x8 .f32 := Host.absf main_arg7
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S16x1 .f32 := Host.absf main_arg8
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  main_v43

def fn_part1 {F : FTy → Type} [FloatOps F] (main_arg4 : FVec F S1x256 .f32) (main_arg5 : FVec F S8x16 .f32) (main_arg6 : FVec F S8x1 .f32) (main_arg7 : FVec F S16x8 .f32) (main_arg8 : FVec F S16x1 .f32) (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S8x16 .f32 := Host.absf main_arg5
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8x1 .f32 := Host.absf main_arg6
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  fn_part2 (F := F) main_arg7 main_arg8 main_v33

def fn {F : FTy → Type} [FloatOps F] (main_arg0 : FVec F S8x256x16x28x28 .f32) (main_arg1 : FVec F S256x16 .f32) (main_arg2 : FVec F S1x16 .f32) (main_arg3 : FVec F S16x256 .f32) (main_arg4 : FVec F S1x256 .f32) (main_arg5 : FVec F S8x16 .f32) (main_arg6 : FVec F S8x1 .f32) (main_arg7 : FVec F S16x8 .f32) (main_arg8 : FVec F S16x1 .f32) : IVec S_ 1 :=
  let main_v0 : FVec F S8x256x16x28x28 .f32 := Host.absf main_arg0
  let main_cst : FVec F S_ .f32 := constant S_ .f32 0x7F800000#32
  let main_v1 : FVec F S8x256x16x28x28 .f32 := broadcastInDim S8x256x16x28x28 ![] bcast_S_S8x256x16x28x28 main_cst
  let main_v2 : IVec S8x256x16x28x28 1 := cmpf .olt main_v0 main_v1
  let main_c : IVec S_ 1 := constantI S_ 1 1#1
  let main_v3 : IVec S_ 1 := (fun x v => Host.reduce IntOp.andi x v reducesTo_S8x256x16x28x28_S_d0_1_2_3_4 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_arg4 main_arg5 main_arg6 main_arg7 main_arg8 main_v13 main_v16
-- ==== Kernel.lean ====
abbrev S8x256x16x28x28 : Shape := ⟨5, ![8, 256, 16, 28, 28]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S8x16 : Shape := ⟨2, ![8, 16]⟩
abbrev S8x1 : Shape := ⟨2, ![8, 1]⟩
abbrev S16x8 : Shape := ⟨2, ![16, 8]⟩
abbrev S16x1 : Shape := ⟨2, ![16, 1]⟩
abbrev S8x28x28x16x256 : Shape := ⟨5, ![8, 28, 28, 16, 256]⟩
abbrev S8x784x16x256 : Shape := ⟨4, ![8, 784, 16, 256]⟩
abbrev S1x8 : Shape := ⟨2, ![1, 8]⟩
abbrev S8x1x16 : Shape := ⟨3, ![8, 1, 16]⟩
abbrev S1x784x16x256 : Shape := ⟨4, ![1, 784, 16, 256]⟩
abbrev S1x1x16 : Shape := ⟨3, ![1, 1, 16]⟩
abbrev S1x16x16x256 : Shape := ⟨4, ![1, 16, 16, 256]⟩
abbrev S16x16x256 : Shape := ⟨3, ![16, 16, 256]⟩
abbrev S256 : Shape := ⟨1, ![256]⟩
abbrev S16 : Shape := ⟨1, ![16]⟩

abbrev nBuf : Space → Nat
  | .hbm => 17
  | .vmem => 12
  | .smem => 0
  | _ => 0

abbrev bufTy : (tb : Table) → Fin (tcTables nBuf tb) → BufTy
  | .hbm, ⟨0, _⟩ => ⟨S8x256x16x28x28, .f32⟩
  | .hbm, ⟨1, _⟩ => ⟨S256x16, .f32⟩
  | .hbm, ⟨2, _⟩ => ⟨S1x16, .f32⟩
  | .hbm, ⟨3, _⟩ => ⟨S16x256, .f32⟩
  | .hbm, ⟨4, _⟩ => ⟨S1x256, .f32⟩
  | .hbm, ⟨5, _⟩ => ⟨S8x16, .f32⟩
  | .hbm, ⟨6, _⟩ => ⟨S8x1, .f32⟩
  | .hbm, ⟨7, _⟩ => ⟨S16x8, .f32⟩
  | .hbm, ⟨8, _⟩ => ⟨S16x1, .f32⟩
  | .hbm, ⟨9, _⟩ => ⟨S8x28x28x16x256, .f32⟩
  | .hbm, ⟨10, _⟩ => ⟨S8x784x16x256, .f32⟩
  | .hbm, ⟨11, _⟩ => ⟨S16x256, .f32⟩
  | .hbm, ⟨12, _⟩ => ⟨S1x8, .f32⟩
  | .hbm, ⟨13, _⟩ => ⟨S8x16, .f32⟩
  | .hbm, ⟨14, _⟩ => ⟨S1x16, .f32⟩
  | .hbm, ⟨15, _⟩ => ⟨S8x1x16, .f32⟩
  | .hbm, ⟨16, _⟩ => ⟨S8x16, .f32⟩
  | .local _ .vmem, ⟨0, _⟩ => ⟨S1x784x16x256, .f32⟩
  | .local _ .vmem, ⟨1, _⟩ => ⟨S1x784x16x256, .f32⟩
  | .local _ .vmem, ⟨2, _⟩ => ⟨S16x256, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S8x16, .f32⟩
  | .local _ .vmem, ⟨7, _⟩ => ⟨S1x8, .f32⟩
  | .local _ .vmem, ⟨8, _⟩ => ⟨S8x16, .f32⟩
  | .local _ .vmem, ⟨9, _⟩ => ⟨S1x16, .f32⟩
  | .local _ .vmem, ⟨10, _⟩ => ⟨S1x1x16, .f32⟩
  | .local _ .vmem, ⟨11, _⟩ => ⟨S1x1x16, .f32⟩
  | _, _ => ⟨S8x256x16x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x784x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S8x256x16x28x28_S8x28x28x16x256_0_3_4_2_1 : S8x256x16x28x28.Transposes [0, 3, 4, 2, 1] S8x28x28x16x256
  shapeCasts_S8x28x28x16x256_S8x784x16x256 : S8x28x28x16x256.ShapeCasts S8x784x16x256
  transposes_S256x16_S16x256_1_0 : S256x16.Transposes [1, 0] S16x256
  transposes_S8x1_S1x8_1_0 : S8x1.Transposes [1, 0] S1x8
  transposes_S16x8_S8x16_1_0 : S16x8.Transposes [1, 0] S8x16
  transposes_S16x1_S1x16_1_0 : S16x1.Transposes [1, 0] S1x16
  inb_S1x784x16x256_S1x16x16x256_0_0_0_0 : ∀ a, (![0, 0, 0, 0] : Fin 4 → Nat) a + S1x16x16x256.size a ≤ S1x784x16x256.size a
  h_S1x16x16x256 : 0 < S1x16x16x256.numel
  shapeCasts_S1x16x16x256_S16x16x256 : S1x16x16x256.ShapeCasts S16x16x256
  reduces_S16x16x256_S16x256 : S16x16x256.Reduces [0] S16x256
  inb_S1x784x16x256_S1x16x16x256_0_16_0_0 : ∀ a, (![0, 16, 0, 0] : Fin 4 → Nat) a + S1x16x16x256.size a ≤ S1x784x16x256.size a
  inb_S1x784x16x256_S1x16x16x256_0_32_0_0 : ∀ a, (![0, 32, 0, 0] : Fin 4 → Nat) a + S1x16x16x256.size a ≤ S1x784x16x256.size a
  inb_S1x784x16x256_S1x16x16x256_0_48_0_0 : ∀ a, (![0, 48, 0, 0] : Fin 4 → Nat) a + S1x16x16x256.size a ≤ S1x784x16x256.size a
  inb_S1x784x16x256_S1x16x16x256_0_64_0_0 : ∀ a, (![0, 64, 0, 0] : Fin 4 → Nat) a + S1x16x16x256.size a ≤ S1x784x16x256.size a
  inb_S1x784x16x256_S1x16x16x256_0_80_0_0 : ∀ a, (![0, 80, 0, 0] : Fin 4 → Nat) a + S1x16x16x256.size a ≤ S1x784x16x256.size a
  inb_S1x784x16x256_S1x16x16x256_0_96_0_0 : ∀ a, (![0, 96, 0, 0] : Fin 4 → Nat) a + S1x16x16x256.size a ≤ S1x784x16x256.size a
  inb_S1x784x16x256_S1x16x16x256_0_112_0_0 : ∀ a, (![0, 112, 0, 0] : Fin 4 → Nat) a + S1x16x16x256.size a ≤ S1x784x16x256.size a
  inb_S1x784x16x256_S1x16x16x256_0_128_0_0 : ∀ a, (![0, 128, 0, 0] : Fin 4 → Nat) a + S1x16x16x256.size a ≤ S1x784x16x256.size a
  inb_S1x784x16x256_S1x16x16x256_0_144_0_0 : ∀ a, (![0, 144, 0, 0] : Fin 4 → Nat) a + S1x16x16x256.size a ≤ S1x784x16x256.size a
  inb_S1x784x16x256_S1x16x16x256_0_160_0_0 : ∀ a, (![0, 160, 0, 0] : Fin 4 → Nat) a + S1x16x16x256.size a ≤ S1x784x16x256.size a
  inb_S1x784x16x256_S1x16x16x256_0_176_0_0 : ∀ a, (![0, 176, 0, 0] : Fin 4 → Nat) a + S1x16x16x256.size a ≤ S1x784x16x256.size a
  inb_S1x784x16x256_S1x16x16x256_0_192_0_0 : ∀ a, (![0, 192, 0, 0] : Fin 4 → Nat) a + S1x16x16x256.size a ≤ S1x784x16x256.size a
  inb_S1x784x16x256_S1x16x16x256_0_208_0_0 : ∀ a, (![0, 208, 0, 0] : Fin 4 → Nat) a + S1x16x16x256.size a ≤ S1x784x16x256.size a
  inb_S1x784x16x256_S1x16x16x256_0_224_0_0 : ∀ a, (![0, 224, 0, 0] : Fin 4 → Nat) a + S1x16x16x256.size a ≤ S1x784x16x256.size a
  inb_S1x784x16x256_S1x16x16x256_0_240_0_0 : ∀ a, (![0, 240, 0, 0] : Fin 4 → Nat) a + S1x16x16x256.size a ≤ S1x784x16x256.size a
  inb_S1x784x16x256_S1x16x16x256_0_256_0_0 : ∀ a, (![0, 256, 0, 0] : Fin 4 → Nat) a + S1x16x16x256.size a ≤ S1x784x16x256.size a
  inb_S1x784x16x256_S1x16x16x256_0_272_0_0 : ∀ a, (![0, 272, 0, 0] : Fin 4 → Nat) a + S1x16x16x256.size a ≤ S1x784x16x256.size a
  inb_S1x784x16x256_S1x16x16x256_0_288_0_0 : ∀ a, (![0, 288, 0, 0] : Fin 4 → Nat) a + S1x16x16x256.size a ≤ S1x784x16x256.size a
  inb_S1x784x16x256_S1x16x16x256_0_304_0_0 : ∀ a, (![0, 304, 0, 0] : Fin 4 → Nat) a + S1x16x16x256.size a ≤ S1x784x16x256.size a
  inb_S1x784x16x256_S1x16x16x256_0_320_0_0 : ∀ a, (![0, 320, 0, 0] : Fin 4 → Nat) a + S1x16x16x256.size a ≤ S1x784x16x256.size a
  inb_S1x784x16x256_S1x16x16x256_0_336_0_0 : ∀ a, (![0, 336, 0, 0] : Fin 4 → Nat) a + S1x16x16x256.size a ≤ S1x784x16x256.size a
  inb_S1x784x16x256_S1x16x16x256_0_352_0_0 : ∀ a, (![0, 352, 0, 0] : Fin 4 → Nat) a + S1x16x16x256.size a ≤ S1x784x16x256.size a
  inb_S1x784x16x256_S1x16x16x256_0_368_0_0 : ∀ a, (![0, 368, 0, 0] : Fin 4 → Nat) a + S1x16x16x256.size a ≤ S1x784x16x256.size a
  inb_S1x784x16x256_S1x16x16x256_0_384_0_0 : ∀ a, (![0, 384, 0, 0] : Fin 4 → Nat) a + S1x16x16x256.size a ≤ S1x784x16x256.size a
  inb_S1x784x16x256_S1x16x16x256_0_400_0_0 : ∀ a, (![0, 400, 0, 0] : Fin 4 → Nat) a + S1x16x16x256.size a ≤ S1x784x16x256.size a
  inb_S1x784x16x256_S1x16x16x256_0_416_0_0 : ∀ a, (![0, 416, 0, 0] : Fin 4 → Nat) a + S1x16x16x256.size a ≤ S1x784x16x256.size a
  inb_S1x784x16x256_S1x16x16x256_0_432_0_0 : ∀ a, (![0, 432, 0, 0] : Fin 4 → Nat) a + S1x16x16x256.size a ≤ S1x784x16x256.size a
  inb_S1x784x16x256_S1x16x16x256_0_448_0_0 : ∀ a, (![0, 448, 0, 0] : Fin 4 → Nat) a + S1x16x16x256.size a ≤ S1x784x16x256.size a
  inb_S1x784x16x256_S1x16x16x256_0_464_0_0 : ∀ a, (![0, 464, 0, 0] : Fin 4 → Nat) a + S1x16x16x256.size a ≤ S1x784x16x256.size a
  inb_S1x784x16x256_S1x16x16x256_0_480_0_0 : ∀ a, (![0, 480, 0, 0] : Fin 4 → Nat) a + S1x16x16x256.size a ≤ S1x784x16x256.size a
  inb_S1x784x16x256_S1x16x16x256_0_496_0_0 : ∀ a, (![0, 496, 0, 0] : Fin 4 → Nat) a + S1x16x16x256.size a ≤ S1x784x16x256.size a
  inb_S1x784x16x256_S1x16x16x256_0_512_0_0 : ∀ a, (![0, 512, 0, 0] : Fin 4 → Nat) a + S1x16x16x256.size a ≤ S1x784x16x256.size a
  inb_S1x784x16x256_S1x16x16x256_0_528_0_0 : ∀ a, (![0, 528, 0, 0] : Fin 4 → Nat) a + S1x16x16x256.size a ≤ S1x784x16x256.size a
  inb_S1x784x16x256_S1x16x16x256_0_544_0_0 : ∀ a, (![0, 544, 0, 0] : Fin 4 → Nat) a + S1x16x16x256.size a ≤ S1x784x16x256.size a
  inb_S1x784x16x256_S1x16x16x256_0_560_0_0 : ∀ a, (![0, 560, 0, 0] : Fin 4 → Nat) a + S1x16x16x256.size a ≤ S1x784x16x256.size a
  inb_S1x784x16x256_S1x16x16x256_0_576_0_0 : ∀ a, (![0, 576, 0, 0] : Fin 4 → Nat) a + S1x16x16x256.size a ≤ S1x784x16x256.size a
  inb_S1x784x16x256_S1x16x16x256_0_592_0_0 : ∀ a, (![0, 592, 0, 0] : Fin 4 → Nat) a + S1x16x16x256.size a ≤ S1x784x16x256.size a
  inb_S1x784x16x256_S1x16x16x256_0_608_0_0 : ∀ a, (![0, 608, 0, 0] : Fin 4 → Nat) a + S1x16x16x256.size a ≤ S1x784x16x256.size a
  inb_S1x784x16x256_S1x16x16x256_0_624_0_0 : ∀ a, (![0, 624, 0, 0] : Fin 4 → Nat) a + S1x16x16x256.size a ≤ S1x784x16x256.size a
  inb_S1x784x16x256_S1x16x16x256_0_640_0_0 : ∀ a, (![0, 640, 0, 0] : Fin 4 → Nat) a + S1x16x16x256.size a ≤ S1x784x16x256.size a
  inb_S1x784x16x256_S1x16x16x256_0_656_0_0 : ∀ a, (![0, 656, 0, 0] : Fin 4 → Nat) a + S1x16x16x256.size a ≤ S1x784x16x256.size a
  inb_S1x784x16x256_S1x16x16x256_0_672_0_0 : ∀ a, (![0, 672, 0, 0] : Fin 4 → Nat) a + S1x16x16x256.size a ≤ S1x784x16x256.size a
  inb_S1x784x16x256_S1x16x16x256_0_688_0_0 : ∀ a, (![0, 688, 0, 0] : Fin 4 → Nat) a + S1x16x16x256.size a ≤ S1x784x16x256.size a
  inb_S1x784x16x256_S1x16x16x256_0_704_0_0 : ∀ a, (![0, 704, 0, 0] : Fin 4 → Nat) a + S1x16x16x256.size a ≤ S1x784x16x256.size a
  inb_S1x784x16x256_S1x16x16x256_0_720_0_0 : ∀ a, (![0, 720, 0, 0] : Fin 4 → Nat) a + S1x16x16x256.size a ≤ S1x784x16x256.size a
  inb_S1x784x16x256_S1x16x16x256_0_736_0_0 : ∀ a, (![0, 736, 0, 0] : Fin 4 → Nat) a + S1x16x16x256.size a ≤ S1x784x16x256.size a
  inb_S1x784x16x256_S1x16x16x256_0_752_0_0 : ∀ a, (![0, 752, 0, 0] : Fin 4 → Nat) a + S1x16x16x256.size a ≤ S1x784x16x256.size a
  inb_S1x784x16x256_S1x16x16x256_0_768_0_0 : ∀ a, (![0, 768, 0, 0] : Fin 4 → Nat) a + S1x16x16x256.size a ≤ S1x784x16x256.size a
  reduces_S16x256_S256 : S16x256.Reduces [0] S256
  shapeCasts_S256_S1x256 : S256.ShapeCasts S1x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x16_S1x16_0_0 : ∀ a, (![0, 0] : Fin 2 → Nat) a + S1x16.size a ≤ S1x16.size a
  h_S1x16 : 0 < S1x16.numel
  inb_S1x256_S1x256_0_0 : ∀ a, (![0, 0] : Fin 2 → Nat) a + S1x256.size a ≤ S1x256.size a
  h_S1x256 : 0 < S1x256.numel
  broadcasts_S1x256_S16x256 : S1x256.Broadcasts S16x256
  reduces_S16x256_S16 : S16x256.Reduces [1] S16
  shapeCasts_S16_S16x1 : S16.ShapeCasts S16x1
  transposes_S16x1_p1_0_S1x16 : S16x1.Transposes [1, 0] S1x16
  inb_S8x16_S8x16_0_0 : ∀ a, (![0, 0] : Fin 2 → Nat) a + S8x16.size a ≤ S8x16.size a
  h_S8x16 : 0 < S8x16.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  shapeCasts_S8x16_S8x16 : S8x16.ShapeCasts S8x16
  shapeCasts_S1x16_S1x16 : S1x16.ShapeCasts S1x16
  shapeCasts_S1x16_S1x1x16 : S1x16.ShapeCasts S1x1x16
  inb_S1x1x16_S1x1x16_0_0_0 : ∀ a, (![0, 0, 0] : Fin 3 → Nat) a + S1x1x16.size a ≤ S1x1x16.size a
  h_S1x1x16 : 0 < S1x1x16.numel
  shapeCasts_S8x1x16_S8x16 : S8x1x16.ShapeCasts S8x16
  dot_S1x256_S16x256_S1x16_1_1_0_0_n_n_wf : DotDims.WF S1x256 S16x256 S1x16 [1] [1] [0] [0] [] []
  dot_S1x16_S16x256_S1x256_1_0_0_1_n_n_wf : DotDims.WF S1x16 S16x256 S1x256 [1] [0] [0] [1] [] []
  dot_S1x16_S8x16_S1x8_1_1_0_0_n_n_wf : DotDims.WF S1x16 S8x16 S1x8 [1] [1] [0] [0] [] []
  dot_S1x8_S8x16_S1x16_1_0_0_1_n_n_wf : DotDims.WF S1x8 S8x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x784x16x256.size a ≤ S8x784x16x256.size a
  hwx0_0 : ∀ i : grid0.Coords, EltTy.bits .f32 = 32 ∨ (Rect.block (s := S8x784x16x256) S1x784x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x16.size a ≤ S8x16.size a
  hwx0_5 : ∀ i : grid0.Coords, EltTy.bits .f32 = 32 ∨ (Rect.block (s := S8x16) S8x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x16.size a ≤ S8x16.size a
  hwx0_7 : ∀ i : grid0.Coords, EltTy.bits .f32 = 32 ∨ (Rect.block (s := S8x16) S8x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x16.size a ≤ S8x1x16.size a
  hwx0_9 : ∀ i : grid0.Coords, EltTy.bits .f32 = 32 ∨ (Rect.block (s := S8x1x16) S1x1x16.size (cc0_transform_9 i) (hinb0_9 i)).WholeWords (EltTy.packing .f32)

variable [Facts₀]

def dot_S1x256_S16x256_S1x16_1_1_0_0_n_n : DotDims S1x256 S16x256 S1x16 where
  lhsContracting := [1]
  rhsContracting := [1]
  lhsNonContracting := [0]
  rhsNonContracting := [0]
  lhsBatch := []
  rhsBatch := []
  wf := dot_S1x256_S16x256_S1x16_1_1_0_0_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf
def dot_S1x16_S8x16_S1x8_1_1_0_0_n_n : DotDims S1x16 S8x16 S1x8 where
  lhsContracting := [1]
  rhsContracting := [1]
  lhsNonContracting := [0]
  rhsNonContracting := [0]
  lhsBatch := []
  rhsBatch := []
  wf := dot_S1x16_S8x16_S1x8_1_1_0_0_n_n_wf
def dot_S1x8_S8x16_S1x16_1_0_0_1_n_n : DotDims S1x8 S8x16 S1x16 where
  lhsContracting := [1]
  rhsContracting := [0]
  lhsNonContracting := [0]
  rhsNonContracting := [1]
  lhsBatch := []
  rhsBatch := []
  wf := dot_S1x8_S8x16_S1x16_1_0_0_1_n_n_wf

abbrev win0_0 : Pipeline.Window sig grid0 :=
  Pipeline.Window.ofSpec (Memref.whole main_v1) S1x784x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S8x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x256x16x28x28 : Shape := ⟨5, ![8, 256, 16, 28, 28]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S8x16 : Shape := ⟨2, ![8, 16]⟩
abbrev S8x1 : Shape := ⟨2, ![8, 1]⟩
abbrev S16x8 : Shape := ⟨2, ![16, 8]⟩
abbrev S16x1 : Shape := ⟨2, ![16, 1]⟩
abbrev S32768x784 : Shape := ⟨2, ![32768, 784]⟩
abbrev S32768x1 : Shape := ⟨2, ![32768, 1]⟩
abbrev S512x784 : Shape := ⟨2, ![512, 784]⟩
abbrev S512x1 : Shape := ⟨2, ![512, 1]⟩
abbrev S512 : Shape := ⟨1, ![512]⟩
abbrev S8x256x16 : Shape := ⟨3, ![8, 256, 16]⟩
abbrev S1x8 : Shape := ⟨2, ![1, 8]⟩
abbrev S1x256x16 : Shape := ⟨3, ![1, 256, 16]⟩
abbrev S256 : Shape := ⟨1, ![256]⟩
abbrev S16x16 : Shape := ⟨2, ![16, 16]⟩
abbrev S8x256 : Shape := ⟨2, ![8, 256]⟩
abbrev S256x1 : Shape := ⟨2, ![256, 1]⟩
abbrev S16 : Shape := ⟨1, ![16]⟩

abbrev nBuf : Space → Nat
  | .hbm => 19
  | .vmem => 17
  | .smem => 0
  | _ => 0

abbrev bufTy : (tb : Table) → Fin (tcTables nBuf tb) → BufTy
  | .hbm, ⟨0, _⟩ => ⟨S8x256x16x28x28, .f32⟩
  | .hbm, ⟨1, _⟩ => ⟨S256x16, .f32⟩
  | .hbm, ⟨2, _⟩ => ⟨S1x16, .f32⟩
  | .hbm, ⟨3, _⟩ => ⟨S16x256, .f32⟩
  | .hbm, ⟨4, _⟩ => ⟨S1x256, .f32⟩
  | .hbm, ⟨5, _⟩ => ⟨S8x16, .f32⟩
  | .hbm, ⟨6, _⟩ => ⟨S8x1, .f32⟩
  | .hbm, ⟨7, _⟩ => ⟨S16x8, .f32⟩
  | .hbm, ⟨8, _⟩ => ⟨S16x1, .f32⟩
  | .hbm, ⟨9, _⟩ => ⟨S32768x784, .f32⟩
  | .hbm, ⟨10, _⟩ => ⟨S32768x1, .f32⟩
  | .hbm, ⟨11, _⟩ => ⟨S32768x1, .f32⟩
  | .hbm, ⟨12, _⟩ => ⟨S8x256x16, .f32⟩
  | .hbm, ⟨13, _⟩ => ⟨S8x256x16, .f32⟩
  | .hbm, ⟨14, _⟩ => ⟨S16x8, .f32⟩
  | .hbm, ⟨15, _⟩ => ⟨S1x8, .f32⟩
  | .hbm, ⟨16, _⟩ => ⟨S8x16, .f32⟩
  | .hbm, ⟨17, _⟩ => ⟨S1x16, .f32⟩
  | .hbm, ⟨18, _⟩ => ⟨S8x16, .f32⟩
  | .local _ .vmem, ⟨0, _⟩ => ⟨S512x784, .f32⟩
  | .local _ .vmem, ⟨1, _⟩ => ⟨S512x784, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S8x256x16, .f32⟩
  | .local _ .vmem, ⟨7, _⟩ => ⟨S8x256x16, .f32⟩
  | .local _ .vmem, ⟨8, _⟩ => ⟨S256x16, .f32⟩
  | .local _ .vmem, ⟨9, _⟩ => ⟨S1x16, .f32⟩
  | .local _ .vmem, ⟨10, _⟩ => ⟨S16x256, .f32⟩
  | .local _ .vmem, ⟨11, _⟩ => ⟨S1x256, .f32⟩
  | .local _ .vmem, ⟨12, _⟩ => ⟨S16x8, .f32⟩
  | .local _ .vmem, ⟨13, _⟩ => ⟨S1x8, .f32⟩
  | .local _ .vmem, ⟨14, _⟩ => ⟨S8x16, .f32⟩
  | .local _ .vmem, ⟨15, _⟩ => ⟨S1x16, .f32⟩
  | .local _ .vmem, ⟨16, _⟩ => ⟨S8x16, .f32⟩
  | _, _ => ⟨S8x256x16x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S8x256x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

class Facts₀ : Prop where
  shapeCasts_S8x256x16x28x28_S32768x784 : S8x256x16x28x28.ShapeCasts S32768x784
  inb_S512x784_S512x784_0_0 : ∀ a, (![0, 0] : Fin 2 → Nat) a + S512x784.size a ≤ S512x784.size a
  h_S512x784 : 0 < S512x784.numel
  shapeCasts_S512x784_S512x784 : S512x784.ShapeCasts S512x784
  reduces_S512x784_S512 : S512x784.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S32768x1_S8x256x16 : S32768x1.ShapeCasts S8x256x16
  transposes_S8x16_S16x8_1_0 : S8x16.Transposes [1, 0] S16x8
  transposes_S8x1_S1x8_1_0 : S8x1.Transposes [1, 0] S1x8
  transposes_S16x8_S8x16_1_0 : S16x8.Transposes [1, 0] S8x16
  transposes_S16x1_S1x16_1_0 : S16x1.Transposes [1, 0] S1x16
  inb_S8x256x16_S1x256x16_0_0_0 : ∀ a, (![0, 0, 0] : Fin 3 → Nat) a + S1x256x16.size a ≤ S8x256x16.size a
  h_S1x256x16 : 0 < S1x256x16.numel
  shapeCasts_S1x256x16_S256x16 : S1x256x16.ShapeCasts S256x16
  transposes_S256x16_p1_0_S16x256 : S256x16.Transposes [1, 0] S16x256
  reduces_S16x256_S256 : S16x256.Reduces [0] S256
  shapeCasts_S256_S1x256 : S256.ShapeCasts S1x256
  inb_S8x256x16_S1x256x16_1_0_0 : ∀ a, (![1, 0, 0] : Fin 3 → Nat) a + S1x256x16.size a ≤ S8x256x16.size a
  inb_S8x256x16_S1x256x16_2_0_0 : ∀ a, (![2, 0, 0] : Fin 3 → Nat) a + S1x256x16.size a ≤ S8x256x16.size a
  inb_S8x256x16_S1x256x16_3_0_0 : ∀ a, (![3, 0, 0] : Fin 3 → Nat) a + S1x256x16.size a ≤ S8x256x16.size a
  inb_S8x256x16_S1x256x16_4_0_0 : ∀ a, (![4, 0, 0] : Fin 3 → Nat) a + S1x256x16.size a ≤ S8x256x16.size a
  inb_S8x256x16_S1x256x16_5_0_0 : ∀ a, (![5, 0, 0] : Fin 3 → Nat) a + S1x256x16.size a ≤ S8x256x16.size a
  inb_S8x256x16_S1x256x16_6_0_0 : ∀ a, (![6, 0, 0] : Fin 3 → Nat) a + S1x256x16.size a ≤ S8x256x16.size a
  inb_S8x256x16_S1x256x16_7_0_0 : ∀ a, (![7, 0, 0] : Fin 3 → Nat) a + S1x256x16.size a ≤ S8x256x16.size a
  concatenates_S1x256_S1x256_S1x256_S1x256_S1x256_S1x256_S1x256_S1x256_S1x256_S1x256_S1x256_S1x256_S1x256_S1x256_S1x256_S1x256_S16x256_d0 : Shape.Concatenates [S1x256, S1x256, S1x256, S1x256, S1x256, S1x256, S1x256, S1x256, S1x256, S1x256, S1x256, S1x256, S1x256, S1x256, S1x256, S1x256] S16x256 0
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  broadcasts_S1x16_S16x16 : S1x16.Broadcasts S16x16
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  broadcasts_S1x256_S16x256 : S1x256.Broadcasts S16x256
  slices_S16x256_o0_0_S8x256 : S16x256.Slices ![0, 0] S8x256
  slices_S16x256_o8_0_S8x256 : S16x256.Slices ![8, 0] S8x256
  slices_S8x256_o0_0_S1x256 : S8x256.Slices ![0, 0] S1x256
  slices_S8x256_o1_0_S1x256 : S8x256.Slices ![1, 0] S1x256
  slices_S8x256_o2_0_S1x256 : S8x256.Slices ![2, 0] S1x256
  slices_S8x256_o3_0_S1x256 : S8x256.Slices ![3, 0] S1x256
  slices_S8x256_o4_0_S1x256 : S8x256.Slices ![4, 0] S1x256
  slices_S8x256_o5_0_S1x256 : S8x256.Slices ![5, 0] S1x256
  slices_S8x256_o6_0_S1x256 : S8x256.Slices ![6, 0] S1x256
  slices_S8x256_o7_0_S1x256 : S8x256.Slices ![7, 0] S1x256
  transposes_S1x256_p1_0_S256x1 : S1x256.Transposes [1, 0] S256x1
  broadcasts_S256x1_S256x16 : S256x1.Broadcasts S256x16
  reduces_S256x16_S16 : S256x16.Reduces [0] S16
  shapeCasts_S16_S1x16 : S16.ShapeCasts S1x16
  concatenates_S1x16_S1x16_S1x16_S1x16_S1x16_S1x16_S1x16_S1x16_S1x16_S1x16_S1x16_S1x16_S1x16_S1x16_S1x16_S1x16_S16x16_d0 : Shape.Concatenates [S1x16, S1x16, S1x16, S1x16, S1x16, S1x16, S1x16, S1x16, S1x16, S1x16, S1x16, S1x16, S1x16, S1x16, S1x16, S1x16] S16x16 0
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16x8 : S1x8.Broadcasts S16x8
  inb_S8x16_S8x16_0_0 : ∀ a, (![0, 0] : Fin 2 → Nat) a + S8x16.size a ≤ S8x16.size a
  h_S8x16 : 0 < S8x16.numel
  shapeCasts_S8x16_S8x16 : S8x16.ShapeCasts S8x16
  shapeCasts_S1x16_S1x16 : S1x16.ShapeCasts S1x16
  slices_S16x16_o0_0_S8x16 : S16x16.Slices ![0, 0] S8x16
  slices_S16x16_o8_0_S8x16 : S16x16.Slices ![8, 0] S8x16
  dot_S16x256_S256x16_S16x16_1_0_0_1_n_n_wf : DotDims.WF S16x256 S256x16 S16x16 [1] [0] [0] [1] [] []
  dot_S16x16_S16x256_S16x256_1_0_0_1_n_n_wf : DotDims.WF S16x16 S16x256 S16x256 [1] [0] [0] [1] [] []
  dot_S1x256_S256x16_S1x16_1_0_0_1_n_n_wf : DotDims.WF S1x256 S256x16 S1x16 [1] [0] [0] [1] [] []
  dot_S16x16_S16x8_S16x8_1_0_0_1_n_n_wf : DotDims.WF S16x16 S16x8 S16x8 [1] [0] [0] [1] [] []
  dot_S16x8_S8x16_S16x16_1_0_0_1_n_n_wf : DotDims.WF S16x8 S8x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S32768x784.size a
  hwx0_0 : ∀ i : grid0.Coords, EltTy.bits .f32 = 32 ∨ (Rect.block (s := S32768x784) S512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .f32 = 32 ∨ (Rect.block (s := S32768x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf
def dot_S16x8_S8x16_S16x16_1_0_0_1_n_n : DotDims S16x8 S8x16 S16x16 where
  lhsContracting := [1]
  rhsContracting := [0]
  lhsNonContracting := [0]
  rhsNonContracting := [1]
  lhsBatch := []
  rhsBatch := []
  wf := dot_S16x8_S8x16_S16x16_1_0_0_1_n_n_wf

abbrev win0_0 : Pipeline.Window sig grid0 :=
  Pipeline.Window.ofSpec (Memref.whole main_v0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_v3) false false (stage1_1 0) (sem1_1 0) (Memref.isWhole_whole _) (hstage1_1 0)

abbrev win1_2 : Pipeline.Window sig grid1 :=
  Pipeline.Window.whole (Memref.whole main_arg1) false false (stage1_2 0) (sem1_2 0) (Memref.isWhole_whole _) (hstage1_2 0)

abbrev win1_3 : Pipeline.Window sig grid1 :=
  Pipeline.Window.whole (Memref.whole main_arg2) false false (stage1_3 0) (sem1_3 0) (Memref.isWhole_whole _) (hstage1_3 0)

abbrev win1_4 : Pipeline.Window sig grid1 :=
  Pipeline.Window.whole (Memref.whole main_arg3) false false (stage1_4 0) (sem1_4 0) (Memref.isWhole_whole _) (hstage1_4 0)

abbrev win1_5 : Pipeline.Window sig grid1 :=
  Pipeline.Window.whole (Memref.whole main_arg4) false false (stage1_5 0) (sem1_5 0) (Memref.isWhole_whole _) (hstage1_5 0)

abbrev win1_6 : Pipeline.Window sig grid1 :=
  Pipeline.Window.whole (Memref.whole main_v4) false false (stage1_6 0) (sem1_6 0) (Memref.isWhole_whole _) (hstage1_6 0)

abbrev win1_7 : Pipeline.Window sig grid1 :=
  Pipeline.Window.whole (Memref.whole main_v5) false false (stage1_7 0) (sem1_7 0) (Memref.isWhole_whole _) (hstage1_7 0)

abbrev win1_8 : Pipeline.Window sig grid1 :=
  Pipeline.Window.whole (Memref.whole main_v6) false false (stage1_8 0) (sem1_8 0) (Memref.isWhole_whole _) (hstage1_8 0)

abbrev win1_9 : Pipeline.Window sig grid1 :=
  Pipeline.Window.whole (Memref.whole main_v7) false false (stage1_9 0) (sem1_9 0) (Memref.isWhole_whole _) (hstage1_9 0)

abbrev win1_10 : Pipeline.Window sig grid1 :=
  Pipeline.Window.whole (Memref.whole main_v8) true false (stage1_10 0) (sem1_10 0) (Memref.isWhole_whole _) (hstage1_10 0)

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== Proof.Gates.lean ====
/-
  The two channel gates, as one function of a batch's plane statistics.

  For one batch let `S c t` be the sum and `M c t` the maximum of the input over the 28 × 28 plane of channel `c`
  and frame `t`.  Gate 1 pools both over the frames (the mean, through the constant 1/(16·784) both programs carry
  as one binary32 word, and the maximum), sends each pooled row through the shared two-layer perceptron
  (256 → 16 → 256, a ramp in between) and squashes the sum of the two outputs: a scale per channel.  Gate 2 pools
  the scaled statistics over the channels (mean through the word for 1/(256·784), and maximum), sends each through
  the second perceptron (16 → 8 → 16) and squashes the sum: one number per frame.  Everything is read on the
  extended reals; sums are finite sums, maxima are finite suprema.
-/
import Idealize.ShloMosaic.PureOps.Ideal
import Idealize.ShloMosaic.PureOps.Ideal.Laws
import Idealize.ShloMosaic.Lib.ValueIdx

noncomputable section

namespace Cert.Gates

open Idealize.ShloMosaic Idealize.ShloMosaic.ValueIdx

/-- The binary32 word both programs multiply a sum over frames and plane by (it rounds 1/12544). -/
def invTHW : EReal := Ideal.ofBits .f32 0x38A72F05#32
/-- The binary32 word both programs multiply a sum over channels and plane by (it rounds 1/200704). -/
def invCHW : EReal := Ideal.ofBits .f32 0x36A72F05#32
/-- The word of the literal 2. -/
def two : EReal := Ideal.ofBits .f32 0x40000000#32

theorem two_eq : two = ((2 : ℝ) : EReal) := by
  unfold two; simp [Ideal.ofBits, Ideal.ieee, -EReal.coe_mul]; norm_num

/-- The word of minus infinity is the bottom of the extended reals. -/
theorem ofBits_ninf : Ideal.ofBits .f32 0xFF800000#32 = (⊥ : EReal) := by simp [Ideal.ofBits, Ideal.ieee]

/-- Twice an extended real is the number added to itself (no finiteness needed: 2 = 1 + 1 with both summands ≥ 0). -/
theorem two_mul_eq (b : EReal) : two * b = b + b := by
  rw [two_eq, show ((2 : ℝ) : EReal) = 1 + 1 by rw [show (2 : ℝ) = 1 + 1 by norm_num, EReal.coe_add, EReal.coe_one],
    EReal.right_distrib_of_nonneg zero_le_one zero_le_one, one_mul]

/-- A bias added to each of two numbers before they are summed is twice the bias added to their sum. -/
theorem pair_bias (A B b : EReal) : (A + b) + (B + b) = A + B + two * b := by
  rw [two_mul_eq]; ac_rfl

/-- A fold of `max` from minus infinity over a whole finite type is the supremum. -/
theorem fold_max_eq_sup {ι : Type*} [Fintype ι] (f : ι → EReal) :
    (Finset.univ : Finset ι).fold max (Ideal.ofBits .f32 0xFF800000#32) f = Finset.univ.sup f := by
  rw [ofBits_ninf]; rfl

section OneBatch

variable (S M : Fin 256 → Fin 16 → EReal)
variable (w1 : Fin 256 → Fin 16 → EReal) (b1 : Fin 16 → EReal) (w2 : Fin 16 → Fin 256 → EReal) (b2 : Fin 256 → EReal)
variable (w1t : Fin 8 → Fin 16 → EReal) (b1t : Fin 8 → EReal) (w2t : Fin 16 → Fin 8 → EReal) (b2t : Fin 16 → EReal)

/-- Channel `c`'s mean over frames and plane. -/
def avgT (c : Fin 256) : EReal := (∑ t : Fin 16, S c t) * invTHW
/-- Channel `c`'s maximum over frames and plane. -/
def maxT (c : Fin 256) : EReal := Finset.univ.sup fun t : Fin 16 => M c t
/-- The first perceptron's hidden layer on a pooled row `v`. -/
def hidden1 (v : Fin 256 → EReal) (j : Fin 16) : EReal := max ((∑ c : Fin 256, v c * w1 c j) + b1 j) 0
/-- The first perceptron's output layer, without its bias. -/
def mlp1 (v : Fin 256 → EReal) (c : Fin 256) : EReal := ∑ j : Fin 16, hidden1 w1 b1 v j * w2 j c
/-- Gate 1: the scale of channel `c`. -/
def scale (c : Fin 256) : EReal :=
  Ideal.logistic (mlp1 w1 b1 w2 (avgT S) c + mlp1 w1 b1 w2 (maxT M) c + two * b2 c)
/-- Frame `t`'s mean over channels and plane of the scaled input. -/
def avgC (t : Fin 16) : EReal := (∑ c : Fin 256, S c t * scale S M w1 b1 w2 b2 c) * invCHW
/-- Frame `t`'s maximum over channels and plane of the scaled input. -/
def maxC (t : Fin 16) : EReal := Finset.univ.sup fun c : Fin 256 => M c t * scale S M w1 b1 w2 b2 c
/-- The second perceptron's hidden layer on a pooled row `v`. -/
def hidden2 (v : Fin 16 → EReal) (k : Fin 8) : EReal := max ((∑ t : Fin 16, v t * w1t k t) + b1t k) 0
/-- The second perceptron's output layer, without its bias. -/
def mlp2 (v : Fin 16 → EReal) (t : Fin 16) : EReal := ∑ k : Fin 8, hidden2 w1t b1t v k * w2t t k
/-- Gate 2: the result at frame `t`. -/
def gate (t : Fin 16) : EReal :=
  Ideal.logistic (mlp2 w1t b1t w2t (avgC S M w1 b1 w2 b2) t + mlp2 w1t b1t w2t (maxC S M w1 b1 w2 b2) t + two * b2t t)

end OneBatch

/-- The input at batch `b`, channel `c`, frame `t` and position `p` of the flattened 28 × 28 plane. -/
def planeAt (x : FVec Ideal ⟨5, ![8, 256, 16, 28, 28]⟩ .f32) (b : Fin 8) (c : Fin 256) (t : Fin 16) (p : Fin 784) : EReal :=
  x (ix5 b c t (⟨p.val / 28, by omega⟩ : Fin 28) (⟨p.val % 28, by omega⟩ : Fin 28))

/-- The plane sums of one batch. -/
def planeSum (x : FVec Ideal ⟨5, ![8, 256, 16, 28, 28]⟩ .f32) (b : Fin 8) (c : Fin 256) (t : Fin 16) : EReal :=
  ∑ p : Fin 784, planeAt x b c t p
/-- The plane maxima of one batch. -/
def planeMax (x : FVec Ideal ⟨5, ![8, 256, 16, 28, 28]⟩ .f32) (b : Fin 8) (c : Fin 256) (t : Fin 16) : EReal :=
  Finset.univ.sup fun p : Fin 784 => planeAt x b c t p

/-- THE RESULT both programs compute: entry (b, t) is gate 2 of batch `b`'s plane statistics at frame `t`. -/
def result (x : FVec Ideal ⟨5, ![8, 256, 16, 28, 28]⟩ .f32) (w1 : FVec Ideal ⟨2, ![256, 16]⟩ .f32) (b1 : FVec Ideal ⟨2, ![1, 16]⟩ .f32)
    (w2 : FVec Ideal ⟨2, ![16, 256]⟩ .f32) (b2 : FVec Ideal ⟨2, ![1, 256]⟩ .f32) (w1t : FVec Ideal ⟨2, ![8, 16]⟩ .f32)
    (b1t : FVec Ideal ⟨2, ![8, 1]⟩ .f32) (w2t : FVec Ideal ⟨2, ![16, 8]⟩ .f32) (b2t : FVec Ideal ⟨2, ![16, 1]⟩ .f32) :
    FVec Ideal ⟨2, ![8, 16]⟩ .f32 := fun i =>
  gate (planeSum x (i 0)) (planeMax x (i 0)) (fun c j => w1 (ix2 c j)) (fun j => b1 (ix2 0 j)) (fun j c => w2 (ix2 j c))
    (fun c => b2 (ix2 0 c)) (fun k t => w1t (ix2 k t)) (fun k => b1t (ix2 k 0)) (fun t k => w2t (ix2 t k))
    (fun t => b2t (ix2 t 0)) (i 1)

end Cert.Gates

end
-- ==== Proof.KernelHost.lean ====
/-
  The kernel's operand arrays as the pallas_call finds them: the input moved to [batch][plane position][frame][channel]
  (a transpose and a merge of the two plane axes), and four weight arrays transposed.
-/
import proofs.«171221_g2000003629944382_pallasbulk_706_19_alg».proof.Proof.Gen.KernelIdeal.Frame
import proofs.«171221_g2000003629944382_pallasbulk_706_19_alg».proof.Proof.Gates
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The slab array is the input transposed to [b][h][w][t][c] with the two plane axes merged. -/
theorem V_slab (c : Dev nD) : (V m c main_v1 : S8x784x16x256.Idx → EReal)
    = shapeCast S8x784x16x256 (transpose S8x28x28x16x256 [0, 3, 4, 2, 1] (m ((c : Thread nD τ).loc main_arg0) : S8x256x16x28x28.Idx → EReal)
        transposes_S8x256x16x28x28_S8x28x28x16x256_0_3_4_2_1) shapeCasts_S8x28x28x16x256_S8x784x16x256 := by
  show StableHlo.after hostOps0 (fun b => m (c, b)) (Proc.devRef .tc main_v1) = _
  after_results
  rfl

/-- The slab at (b, p, t, ch) is the input at batch b, channel ch, frame t and plane position p. -/
theorem slab_apply (c : Dev nD) (b : Fin 8) (p : Fin 784) (t : Fin 16) (ch : Fin 256) :
    (V m c main_v1 : S8x784x16x256.Idx → EReal) (ix4 b p t ch)
      = Cert.Gates.planeAt (m ((c : Thread nD τ).loc main_arg0)) b ch t p := by
  rw [V_slab]
  have hp := p.isLt
  refine (shapeCast_apply _ _ (ix4 b p t ch) (ix5 b (⟨p.val / 28, by omega⟩ : Fin 28) (⟨p.val % 28, by omega⟩ : Fin 28) t ch) ?_).trans ?_
  · rw [Shape.rowMajor_val_five, Shape.rowMajor_val_four]
    show (((b.val * 28 + p.val / 28) * 28 + p.val % 28) * 16 + t.val) * 256 + ch.val = ((b.val * 784 + p.val) * 16 + t.val) * 256 + ch.val
    omega
  · refine (transpose_apply _ _ _ _ (ix5 b ch t (⟨p.val / 28, by omega⟩ : Fin 28) (⟨p.val % 28, by omega⟩ : Fin 28)) ?_).trans rfl
    intro a
    match a with
    | ⟨0, _⟩ => rfl
    | ⟨1, _⟩ => rfl
    | ⟨2, _⟩ => rfl
    | ⟨3, _⟩ => rfl
    | ⟨4, _⟩ => rfl

/-- The first perceptron's input weights arrive transposed. -/
theorem V_w1 (c : Dev nD) : (V m c main_v2 : S16x256.Idx → EReal)
    = transpose S16x256 [1, 0] (m ((c : Thread nD τ).loc main_arg1) : S256x16.Idx → EReal) transposes_S256x16_S16x256_1_0 := by
  show StableHlo.after hostOps0 (fun b => m (c, b)) (Proc.devRef .tc main_v2) = _
  after_results

/-- The second perceptron's hidden bias arrives as a row. -/
theorem V_b1t (c : Dev nD) : (V m c main_v3 : S1x8.Idx → EReal)
    = transpose S1x8 [1, 0] (m ((c : Thread nD τ).loc main_arg6) : S8x1.Idx → EReal) transposes_S8x1_S1x8_1_0 := by
  show StableHlo.after hostOps0 (fun b => m (c, b)) (Proc.devRef .tc main_v3) = _
  after_results

/-- The second perceptron's output weights arrive transposed. -/
theorem V_w2t (c : Dev nD) : (V m c main_v4 : S8x16.Idx → EReal)
    = transpose S8x16 [1, 0] (m ((c : Thread nD τ).loc main_arg7) : S16x8.Idx → EReal) transposes_S16x8_S8x16_1_0 := by
  show StableHlo.after hostOps0 (fun b => m (c, b)) (Proc.devRef .tc main_v4) = _
  after_results

/-- The second perceptron's output bias arrives as a row. -/
theorem V_b2t (c : Dev nD) : (V m c main_v5 : S1x16.Idx → EReal)
    = transpose S1x16 [1, 0] (m ((c : Thread nD τ).loc main_arg8) : S16x1.Idx → EReal) transposes_S16x1_S1x16_1_0 := by
  show StableHlo.after hostOps0 (fun b => m (c, b)) (Proc.devRef .tc main_v5) = _
  after_results

end Cert.KernelIdeal.KValue

end
-- ==== Proof.KernelRun.lean ====
/-
  The kernel's run with its result named.  Grid point b stages batch b's slab and every weight array whole; what it
  writes back is row b of the result; the eight rows cover the 8×1×16 array, which the last host operation reads as 8×16.
-/
import proofs.«171221_g2000003629944382_pallasbulk_706_19_alg».proof.Proof.KernelHost

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The body's one store, at frame t, is gate 2 of the statistics of the staged slab (the arithmetic, proved apart). -/
def BodyFact : Prop :=
  ∀ (x0 : Vec Ideal S1x784x16x256 .f32) (x1 : Vec Ideal S16x256 .f32) (x2 : Vec Ideal S1x16 .f32) (x3 : Vec Ideal S16x256 .f32)
    (x4 : Vec Ideal S1x256 .f32) (x5 : Vec Ideal S8x16 .f32) (x6 : Vec Ideal S1x8 .f32) (x7 : Vec Ideal S8x16 .f32)
    (x8 : Vec Ideal S1x16 .f32) (t : Fin 16),
    out0_9 (F := Ideal) x0 x1 x2 x3 x4 x5 x6 x7 x8 (ix3 (0 : Fin 1) (0 : Fin 1) t)
      = Cert.Gates.gate (fun c t' => ∑ p : Fin 784, x0 (ix4 (0 : Fin 1) p t' c))
          (fun c t' => Finset.univ.sup fun p : Fin 784 => x0 (ix4 (0 : Fin 1) p t' c))
          (fun c j => x1 (ix2 j c)) (fun j => x2 (ix2 (0 : Fin 1) j)) (fun j c => x3 (ix2 j c)) (fun c => x4 (ix2 (0 : Fin 1) c))
          (fun k t' => x5 (ix2 k t')) (fun k => x6 (ix2 (0 : Fin 1) k)) (fun t' k => x7 (ix2 k t')) (fun t' => x8 (ix2 (0 : Fin 1) t')) t

/-- The index maps over the grid: the slab's and the result's blocks move with the point, every other window stays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

theorem lt8 (t : Fin cfg0.N) : t.val < 8 := lt_of_lt_of_eq t.isLt (N_0 : cfg0.N = 8)

/-- Point t's slab block is batch t of the slab array. -/
theorem iblk0_apply (c : Dev nD) (t : Fin cfg0.N) (p : Fin 784) (t' : Fin 16) (ch : Fin 256) :
    (iblk m c 0 t : Vec Ideal S1x784x16x256 .f32) (ix4 (0 : Fin 1) p t' ch)
      = (V m c main_v1 : S8x784x16x256.Idx → EReal) (ix4 (⟨t.val, lt8 t⟩ : Fin 8) p t' ch) := by
  obtain ⟨e0, e1, e2, e3, -⟩ := idx_facts t
  unfold iblk
  rw [View.read_apply]
  show V m c main_v1 _ = V m c main_v1 _
  congr 1
  funext a
  apply Fin.ext
  match a with
  | ⟨0, _⟩ => show win0_0.index t (0 : Fin 4) * 1 + 1 * 0 = t.val; omega
  | ⟨1, _⟩ => show win0_0.index t (1 : Fin 4) * 784 + 1 * p.val = p.val; omega
  | ⟨2, _⟩ => show win0_0.index t (2 : Fin 4) * 16 + 1 * t'.val = t'.val; omega
  | ⟨3, _⟩ => show win0_0.index t (3 : Fin 4) * 256 + 1 * ch.val = ch.val; omega

/-- Every weight window stages its whole array at every point. -/
theorem iblk1_eq (c : Dev nD) (t : Fin cfg0.N) : (iblk m c 1 t : Vec Ideal S16x256 .f32) = V m c main_v2 := by
  obtain ⟨-, -, -, -, e0, e1, -⟩ := idx_facts t
  funext y; unfold iblk; rw [View.read_apply]
  show V m c main_v2 _ = V m c main_v2 y
  congr 1; funext a; apply Fin.ext
  match a with
  | ⟨0, _⟩ => show win0_1.index t (0 : Fin 2) * 16 + 1 * (y 0).val = (y 0).val; omega
  | ⟨1, _⟩ => show win0_1.index t (1 : Fin 2) * 256 + 1 * (y 1).val = (y 1).val; omega
theorem iblk2_eq (c : Dev nD) (t : Fin cfg0.N) : (iblk m c 2 t : Vec Ideal S1x16 .f32) = V m c main_arg2 := by
  obtain ⟨-, -, -, -, -, -, e0, e1, -⟩ := idx_facts t
  funext y; unfold iblk; rw [View.read_apply]
  show V m c main_arg2 _ = V m c main_arg2 y
  congr 1; funext a; apply Fin.ext
  match a with
  | ⟨0, _⟩ => show win0_2.index t (0 : Fin 2) * 1 + 1 * (y 0).val = (y 0).val; omega
  | ⟨1, _⟩ => show win0_2.index t (1 : Fin 2) * 16 + 1 * (y 1).val = (y 1).val; omega
theorem iblk3_eq (c : Dev nD) (t : Fin cfg0.N) : (iblk m c 3 t : Vec Ideal S16x256 .f32) = V m c main_arg3 := by
  obtain ⟨-, -, -, -, -, -, -, -, e0, e1, -⟩ := idx_facts t
  funext y; unfold iblk; rw [View.read_apply]
  show V m c main_arg3 _ = V m c main_arg3 y
  congr 1; funext a; apply Fin.ext
  match a with
  | ⟨0, _⟩ => show win0_3.index t (0 : Fin 2) * 16 + 1 * (y 0).val = (y 0).val; omega
  | ⟨1, _⟩ => show win0_3.index t (1 : Fin 2) * 256 + 1 * (y 1).val = (y 1).val; omega
theorem iblk4_eq (c : Dev nD) (t : Fin cfg0.N) : (iblk m c 4 t : Vec Ideal S1x256 .f32) = V m c main_arg4 := by
  obtain ⟨-, -, -, -, -, -, -, -, -, -, e0, e1, -⟩ := idx_facts t
  funext y; unfold iblk; rw [View.read_apply]
  show V m c main_arg4 _ = V m c main_arg4 y
  congr 1; funext a; apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem iblk5_eq (c : Dev nD) (t : Fin cfg0.N) : (iblk m c 5 t : Vec Ideal S8x16 .f32) = V m c main_arg5 := by
  obtain ⟨-, -, -, -, -, -, -, -, -, -, -, -, e0, e1, -⟩ := idx_facts t
  funext y; unfold iblk; rw [View.read_apply]
  show V m c main_arg5 _ = V m c main_arg5 y
  congr 1; funext a; apply Fin.ext
  match a with
  | ⟨0, _⟩ => show win0_5.index t (0 : Fin 2) * 8 + 1 * (y 0).val = (y 0).val; omega
  | ⟨1, _⟩ => show win0_5.index t (1 : Fin 2) * 16 + 1 * (y 1).val = (y 1).val; omega
theorem iblk6_eq (c : Dev nD) (t : Fin cfg0.N) : (iblk m c 6 t : Vec Ideal S1x8 .f32) = V m c main_v3 := by
  obtain ⟨-, -, -, -, -, -, -, -, -, -, -, -, -, -, e0, e1, -⟩ := idx_facts t
  funext y; unfold iblk; rw [View.read_apply]
  show V m c main_v3 _ = V m c main_v3 y
  congr 1; funext a; apply Fin.ext
  match a with
  | ⟨0, _⟩ => show win0_6.index t (0 : Fin 2) * 1 + 1 * (y 0).val = (y 0).val; omega
  | ⟨1, _⟩ => show win0_6.index t (1 : Fin 2) * 8 + 1 * (y 1).val = (y 1).val; omega
theorem iblk7_eq (c : Dev nD) (t : Fin cfg0.N) : (iblk m c 7 t : Vec Ideal S8x16 .f32) = V m c main_v4 := by
  obtain ⟨-, -, -, -, -, -, -, -, -, -, -, -, -, -, -, -, e0, e1, -⟩ := idx_facts t
  funext y; unfold iblk; rw [View.read_apply]
  show V m c main_v4 _ = V m c main_v4 y
  congr 1; funext a; apply Fin.ext
  match a with
  | ⟨0, _⟩ => show win0_7.index t (0 : Fin 2) * 8 + 1 * (y 0).val = (y 0).val; omega
  | ⟨1, _⟩ => show win0_7.index t (1 : Fin 2) * 16 + 1 * (y 1).val = (y 1).val; omega
theorem iblk8_eq (c : Dev nD) (t : Fin cfg0.N) : (iblk m c 8 t : Vec Ideal S1x16 .f32) = V m c main_v5 := by
  obtain ⟨-, -, -, -, -, -, -, -, -, -, -, -, -, -, -, -, -, -, e0, e1, -⟩ := idx_facts t
  funext y; unfold iblk; rw [View.read_apply]
  show V m c main_v5 _ = V m c main_v5 y
  congr 1; funext a; apply Fin.ext
  match a with
  | ⟨0, _⟩ => show win0_8.index t (0 : Fin 2) * 1 + 1 * (y 0).val = (y 0).val; omega
  | ⟨1, _⟩ => show win0_8.index t (1 : Fin 2) * 16 + 1 * (y 1).val = (y 1).val; omega

/-- The result as the 8×1×16 array the pallas_call writes: row b is gate 2 of batch b. -/
def G9 (c : Dev nD) : S8x1x16.Idx → EReal := fun i =>
  Cert.Gates.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (ix2 (⟨(i 0).val, (i 0).isLt⟩ : Fin 8) (⟨(i 2).val, (i 2).isLt⟩ : Fin 16))

/-- Gate 2 depends on its ten arguments only through their values. -/
theorem gate_congr {S S' M M' : Fin 256 → Fin 16 → EReal} {w1 w1' : Fin 256 → Fin 16 → EReal} {b1 b1' : Fin 16 → EReal}
    {w2 w2' : Fin 16 → Fin 256 → EReal} {b2 b2' : Fin 256 → EReal} {w1t w1t' : Fin 8 → Fin 16 → EReal} {b1t b1t' : Fin 8 → EReal}
    {w2t w2t' : Fin 16 → Fin 8 → EReal} {b2t b2t' : Fin 16 → EReal} (t : Fin 16)
    (h0 : S = S') (h1 : M = M') (h2 : w1 = w1') (h3 : b1 = b1') (h4 : w2 = w2') (h5 : b2 = b2') (h6 : w1t = w1t') (h7 : b1t = b1t')
    (h8 : w2t = w2t') (h9 : b2t = b2t') :
    Cert.Gates.gate S M w1 b1 w2 b2 w1t b1t w2t b2t t = Cert.Gates.gate S' M' w1' b1' w2' b2' w1t' b1t' w2t' b2t' t := by
  subst h0 h1 h2 h3 h4 h5 h6 h7 h8 h9; rfl

/-- What point t's body leaves in the result's staging buffer is row t of the result. -/
theorem point_row (hbody : BodyFact) (c : Dev nD) (t : Fin cfg0.N) (y : S1x1x16.Idx) :
    out0_9 (F := Ideal) (iblk m c 0 t) (iblk m c 1 t) (iblk m c 2 t) (iblk m c 3 t) (iblk m c 4 t) (iblk m c 5 t) (iblk m c 6 t) (iblk m c 7 t) (iblk m c 8 t) y
      = G9 m c (ix3 (⟨t.val, lt8 t⟩ : Fin 8) (0 : Fin 1) (⟨(y 2).val, (y 2).isLt⟩ : Fin 16)) := by
  obtain ⟨y0, y1, y2, rfl⟩ : ∃ (y0 : Fin 1) (y1 : Fin 1) (y2 : Fin 16), y = ix3 y0 y1 y2 := ⟨y 0, y 1, y 2, eq_ix3 y⟩
  obtain rfl : y0 = 0 := Subsingleton.elim _ _
  obtain rfl : y1 = 0 := Subsingleton.elim _ _
  refine (hbody (iblk m c 0 t) (iblk m c 1 t) (iblk m c 2 t) (iblk m c 3 t) (iblk m c 4 t) (iblk m c 5 t) (iblk m c 6 t) (iblk m c 7 t) (iblk m c 8 t) y2).trans ?_
  unfold G9 Cert.Gates.result
  refine gate_congr y2 ?_ ?_ ?_ ?_ ?_ ?_ ?_ ?_ ?_ ?_
  · funext ch t'
    exact Finset.sum_congr rfl fun p _ => (iblk0_apply m c t p t' ch).trans (slab_apply m c _ p t' ch)
  · funext ch t'
    exact congrArg (Finset.univ.sup) (funext fun p => (iblk0_apply m c t p t' ch).trans (slab_apply m c _ p t' ch))
  · funext ch j
    rw [iblk1_eq, V_w1]
    exact transpose_ix2_apply _ _ j ch
  · funext j
    rw [iblk2_eq, V_main_arg2]
  · funext j ch
    rw [iblk3_eq, V_main_arg3]
  · funext ch
    rw [iblk4_eq, V_main_arg4]
  · funext k t'
    rw [iblk5_eq, V_main_arg5]
  · funext k
    rw [iblk6_eq, V_b1t]
    exact transpose_ix2_apply _ _ (0 : Fin 1) k
  · funext t' k
    rw [iblk7_eq, V_w2t]
    exact transpose_ix2_apply _ _ k t'
  · funext t'
    rw [iblk8_eq, V_b2t]
    exact transpose_ix2_apply _ _ (0 : Fin 1) t'

/-- WHAT POINT t WRITES BACK is block t of the result array. -/
theorem flushed9_eq (hbody : BodyFact) (c : Dev nD) (t : Fin cfg0.N) :
    (dats m 0 c).flushed 9 t = ((cfg0.win 9).blk t).view.read (Elt Ideal) (G9 m c) := by
  obtain ⟨-, -, -, -, -, -, -, -, -, -, -, -, -, -, -, -, -, -, -, -, e0, e1, e2⟩ := idx_facts t
  show (cfg0.win 9).cut (grid0.coords t) ((dats m 0 c).after 9 t) = _
  rw [after0_9]
  funext y
  show out0_9 (F := Ideal) (iblk m c 0 t) (iblk m c 1 t) (iblk m c 2 t) (iblk m c 3 t) (iblk m c 4 t) (iblk m c 5 t) (iblk m c 6 t) (iblk m c 7 t) (iblk m c 8 t) y
    = G9 m c (((cfg0.win 9).blk t).view.emb y)
  rw [point_row m hbody c t y]
  congr 1
  funext a
  apply Fin.ext
  have h1 : (y 1).val < 1 := (y 1).isLt
  match a with
  | ⟨0, _⟩ => show t.val = win0_9.index t (0 : Fin 3) * 1 + 1 * (y 0).val; have h0 : (y 0).val < 1 := (y 0).isLt; omega
  | ⟨1, _⟩ => show 0 = win0_9.index t (1 : Fin 3) * 1 + 1 * (y 1).val; omega
  | ⟨2, _⟩ => show (y 2).val = win0_9.index t (2 : Fin 3) * 16 + 1 * (y 2).val; omega

/-- An index of the result array is in point t's block iff each coordinate is in the block's range on its axis. -/
theorem mem_blk9 (t : Fin cfg0.N) (i : S8x1x16.Idx) :
    i ∈ ((cfg0.win 9).blk t).view.set ↔ ∀ a : Fin 3, win0_9.index t a * S1x1x16.size a ≤ (i a).val ∧ (i a).val < win0_9.index t a * S1x1x16.size a + S1x1x16.size a := by
  show i ∈ ((View.whole main_v6).slice (win0_9.rect t)).set ↔ _
  rw [View.set_slice_whole, Rect.mem_set_unit]
  exact Iff.rfl

/-- Row b of the result array is point b's block: the eight blocks cover the array. -/
theorem cover9 (i : S8x1x16.Idx) : ∃ t : Fin cfg0.N, (cfg0.win 9).flush t = true ∧ i ∈ ((cfg0.win 9).blk t).view.set := by
  have h0 : (i 0).val < 8 := (i 0).isLt
  have h1 : (i 1).val < 1 := (i 1).isLt
  have h2 : (i 2).val < 16 := (i 2).isLt
  let t : Fin cfg0.N := ⟨(i 0).val, lt_of_lt_of_eq h0 (N_0 : cfg0.N = 8).symm⟩
  obtain ⟨-, -, -, -, -, -, -, -, -, -, -, -, -, -, -, -, -, -, -, -, e0, e1, e2⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; rw [e0]; show (i 0).val * 1 ≤ (i 0).val ∧ (i 0).val < (i 0).val * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 16 ≤ (i 2).val ∧ (i 2).val < win0_9.index t (2 : Fin 3) * 16 + 16; omega

/-- THE RESULT ARRAY after the pallas_call. -/
theorem final9 (hbody : BodyFact) (c : Dev nD) : (dats m 0 c).arrAt 9 cfg0.N = G9 m c :=
  (dats m 0 c).arrAt_eq_of_cover 9 (G9 m c) (fun t _ => flushed9_eq m hbody c t) cover9

/-- The program's result: the 8×1×16 array read as 8×16. -/
theorem tail_eq (hbody : BodyFact) (c : Dev nD) :
    Pipeline.afterTail₀ cfgs (dats m) 0 (V0 m) [hostOps1] c main_v7
      = Cert.Gates.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold Pipeline.afterTail₀
  show StableHlo.after hostOps1 _ (Proc.devRef .tc main_v7) = _
  after_results
  funext i
  show shapeCast S8x16 (Pipeline.withArrays (cfgs 0).spec c (V0 m c) (fun w => (dats m 0 c).arrAt w (cfgs 0).N)
      (Proc.devRef .tc main_v6) : S8x1x16.Idx → EReal) shapeCasts_S8x1x16_S8x16 i = _
  have hw : (Pipeline.withArrays (cfgs 0).spec c (V0 m c) (fun w => (dats m 0 c).arrAt w (cfgs 0).N)
      (Proc.devRef .tc main_v6) : S8x1x16.Idx → EReal) = G9 m c :=
    (Pipeline.withArrays_arr spec0 launch0.win.arr_inj c _ _ 9).trans (final9 m hbody c)
  rw [hw]
  obtain ⟨b, t, rfl⟩ : ∃ (b : Fin 8) (t : Fin 16), i = ix2 b t := ⟨i 0, i 1, eq_ix2 i⟩
  refine (shapeCast_apply _ _ (ix2 b t) (ix3 b (0 : Fin 1) t) ?_).trans ?_
  · rw [Shape.rowMajor_val_three, Shape.rowMajor_val_two]
    show (b.val * 1 + 0) * 16 + t.val = b.val * 16 + t.val
    omega
  · rfl

/-- THE RUN, READ: the result buffer at the specification of the argument arrays, the arguments unchanged. -/
theorem run (hbody : BodyFact) : θ_run (defs (F := Ideal)) (onTc (τ := τ) (main (F := Ideal))) ⟨m, fun _ => 0, ρ⟩ (fun r => ∀ c : Dev nD,
      r.2.mem ((c.tc : Thread nD τ).loc main_v7)
        = Cert.Gates.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v7 (Pipeline.mem_restRefs_of main_v7 (by decide) (by decide))).trans (tail_eq m hbody c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KValue

end
-- ==== Proof.KernelBodySeg.lean ====
/-
  The kernel's plane reduction, one part at a time.

  The kernel walks the 784 rows of a batch's slab [1, 784, 16, 256] (plane position, frame, channel) sixteen rows
  at a time: each 16-row segment is summed, and its maximum taken, over its rows, and the 49 segment results are
  accumulated left to right, five segments per part (four in the last).  This module reads one segment's reduction at
  an index (t', c), each part as "the incoming accumulator, then the part's segments in order", and a segment loaded at
  row offset o as rows o … o + 15 of the slab.
-/
import proofs.«171221_g2000003629944382_pallasbulk_706_19_alg».proof.Proof.Gen.KernelIdeal.Frame
import proofs.«171221_g2000003629944382_pallasbulk_706_19_alg».proof.Proof.Gates
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The sum over the 16 rows of one loaded slab segment, at frame t' and channel c. -/
def segS (v : Vec Ideal S1x16x16x256 .f32) (t' : Fin 16) (c : Fin 256) : EReal := ∑ k : Fin 16, v (ix4 (0 : Fin 1) k t' c)
/-- The maximum over the 16 rows of one loaded slab segment. -/
def segM (v : Vec Ideal S1x16x16x256 .f32) (t' : Fin 16) (c : Fin 256) : EReal := Finset.univ.sup fun k : Fin 16 => v (ix4 (0 : Fin 1) k t' c)

/-- The source index of a reduction over the rows: row k put in front of (t', c). -/
theorem lift_rows (t' : Fin 16) (c : Fin 256) (k : Fin 16) :
    reduces_S16x16x256_S16x256.lift (ix2 t' c) k = ix3 k t' c :=
  funext fun a => Fin.ext (by match a with | ⟨0, _⟩ => rfl | ⟨1, _⟩ => rfl | ⟨2, _⟩ => rfl)

/-- A segment with its unit axis dropped, summed over its rows. -/
theorem red_seg_add (v : Vec Ideal S1x16x16x256 .f32) (t' : Fin 16) (c : Fin 256)
    (hφ : FKind.Formats .f32) (hacc : (0x00000000#32 : BitVec 32) = FKind.add.neutral .f32 hφ) :
    multiReduction (F := Ideal) .add [0] S16x256 (shapeCast S16x16x256 v shapeCasts_S1x16x16x256_S16x16x256) 0x00000000#32
      reduces_S16x16x256_S16x256 hφ hacc (ix2 t' c) = segS v t' c := by
  refine (Ideal.multiReduction_add_single _ _ _ _ _ _).trans ?_
  unfold segS
  refine Finset.sum_congr rfl fun k _ => ?_
  rw [lift_rows t' c k]
  exact shapeCast_1abc_abc_apply v _ k t' c

/-- The same segment, its maximum over the rows: a fold of max from minus infinity is the supremum. -/
theorem red_seg_max (v : Vec Ideal S1x16x16x256 .f32) (t' : Fin 16) (c : Fin 256)
    (hφ : FKind.Formats .f32) (hacc : (0xFF800000#32 : BitVec 32) = FKind.maximumf.neutral .f32 hφ) :
    multiReduction (F := Ideal) .maximumf [0] S16x256 (shapeCast S16x16x256 v shapeCasts_S1x16x16x256_S16x16x256) 0xFF800000#32
      reduces_S16x16x256_S16x256 hφ hacc (ix2 t' c) = segM v t' c := by
  refine (Ideal.multiReduction_maximumf_single _ _ _ _ _ _).trans ?_
  refine (Cert.Gates.fold_max_eq_sup _).trans ?_
  unfold segM
  refine congrArg (Finset.univ.sup) (funext fun k => ?_)
  show shapeCast S16x16x256 v shapeCasts_S1x16x16x256_S16x16x256 (reduces_S16x16x256_S16x256.lift (ix2 t' c) k) = _
  rw [lift_rows t' c k]
  exact shapeCast_1abc_abc_apply v _ k t' c

/-! ## The parts of the accumulation: five segments at a time (the last part four) -/

/-- The first part: five segment sums added left to right. -/
theorem pay7_apply (v1 v2 v3 v4 v5 : Vec Ideal S1x16x16x256 .f32) (t' : Fin 16) (c : Fin 256) :
    k0_pay7 (F := Ideal) v1 v2 v3 v4 v5 (ix2 t' c) = segS v1 t' c + segS v2 t' c + segS v3 t' c + segS v4 t' c + segS v5 t' c := by
  unfold k0_pay7 k0_pay2 k0_pay3 k0_pay4 k0_pay5 k0_pay6
  dsimp only
  rw [addf_apply, addf_apply, addf_apply, addf_apply]
  exact congrArg₂ (· + ·) (congrArg₂ (· + ·) (congrArg₂ (· + ·) (congrArg₂ (· + ·) (red_seg_add v1 t' c _ _) (red_seg_add v2 t' c _ _)) (red_seg_add v3 t' c _ _)) (red_seg_add v4 t' c _ _)) (red_seg_add v5 t' c _ _)

/-- The first part: five segment maxima joined left to right. -/
theorem pay8_apply (v1 v2 v3 v4 v5 : Vec Ideal S1x16x16x256 .f32) (t' : Fin 16) (c : Fin 256) :
    k0_pay8 (F := Ideal) v1 v2 v3 v4 v5 (ix2 t' c) = max (max (max (max (segM v1 t' c) (segM v2 t' c)) (segM v3 t' c)) (segM v4 t' c)) (segM v5 t' c) := by
  unfold k0_pay8 k0_pay2 k0_pay3 k0_pay4 k0_pay5 k0_pay6
  dsimp only
  rw [maximumf_apply, maximumf_apply, maximumf_apply, maximumf_apply]
  exact congrArg₂ max (congrArg₂ max (congrArg₂ max (congrArg₂ max (red_seg_max v1 t' c _ _) (red_seg_max v2 t' c _ _)) (red_seg_max v3 t' c _ _)) (red_seg_max v4 t' c _ _)) (red_seg_max v5 t' c _ _)

/-- A middle part: five more segment sums added to the incoming accumulator. -/
theorem pay14_apply (acc : FVec Ideal S16x256 .f32) (v1 v2 v3 v4 v5 : Vec Ideal S1x16x16x256 .f32) (t' : Fin 16) (c : Fin 256) :
    k0_pay14 (F := Ideal) acc v1 v2 v3 v4 v5 (ix2 t' c) = acc (ix2 t' c) + segS v1 t' c + segS v2 t' c + segS v3 t' c + segS v4 t' c + segS v5 t' c := by
  unfold k0_pay14 k0_pay9 k0_pay10 k0_pay11 k0_pay12 k0_pay13
  dsimp only
  rw [addf_apply, addf_apply, addf_apply, addf_apply, addf_apply]
  exact congrArg₂ (· + ·) (congrArg₂ (· + ·) (congrArg₂ (· + ·) (congrArg₂ (· + ·) (congrArg₂ (· + ·) (rfl) (red_seg_add v1 t' c _ _)) (red_seg_add v2 t' c _ _)) (red_seg_add v3 t' c _ _)) (red_seg_add v4 t' c _ _)) (red_seg_add v5 t' c _ _)

/-- A middle part: five more segment maxima joined to the incoming accumulator. -/
theorem pay15_apply (acc : FVec Ideal S16x256 .f32) (v1 v2 v3 v4 v5 : Vec Ideal S1x16x16x256 .f32) (t' : Fin 16) (c : Fin 256) :
    k0_pay15 (F := Ideal) acc v1 v2 v3 v4 v5 (ix2 t' c)
      = max (max (max (max (max (acc (ix2 t' c)) (segM v1 t' c)) (segM v2 t' c)) (segM v3 t' c)) (segM v4 t' c)) (segM v5 t' c) := by
  unfold k0_pay15 k0_pay9 k0_pay10 k0_pay11 k0_pay12 k0_pay13
  dsimp only
  rw [maximumf_apply, maximumf_apply, maximumf_apply, maximumf_apply, maximumf_apply]
  exact congrArg₂ max (congrArg₂ max (congrArg₂ max (congrArg₂ max (congrArg₂ max (rfl) (red_seg_max v1 t' c _ _)) (red_seg_max v2 t' c _ _)) (red_seg_max v3 t' c _ _)) (red_seg_max v4 t' c _ _)) (red_seg_max v5 t' c _ _)

theorem pay21_apply (acc : FVec Ideal S16x256 .f32) (v1 v2 v3 v4 v5 : Vec Ideal S1x16x16x256 .f32) (t' : Fin 16) (c : Fin 256) :
    k0_pay21 (F := Ideal) acc v1 v2 v3 v4 v5 (ix2 t' c) = acc (ix2 t' c) + segS v1 t' c + segS v2 t' c + segS v3 t' c + segS v4 t' c + segS v5 t' c :=
  pay14_apply acc v1 v2 v3 v4 v5 t' c

theorem pay28_apply (acc : FVec Ideal S16x256 .f32) (v1 v2 v3 v4 v5 : Vec Ideal S1x16x16x256 .f32) (t' : Fin 16) (c : Fin 256) :
    k0_pay28 (F := Ideal) acc v1 v2 v3 v4 v5 (ix2 t' c) = acc (ix2 t' c) + segS v1 t' c + segS v2 t' c + segS v3 t' c + segS v4 t' c + segS v5 t' c :=
  pay14_apply acc v1 v2 v3 v4 v5 t' c

theorem pay35_apply (acc : FVec Ideal S16x256 .f32) (v1 v2 v3 v4 v5 : Vec Ideal S1x16x16x256 .f32) (t' : Fin 16) (c : Fin 256) :
    k0_pay35 (F := Ideal) acc v1 v2 v3 v4 v5 (ix2 t' c) = acc (ix2 t' c) + segS v1 t' c + segS v2 t' c + segS v3 t' c + segS v4 t' c + segS v5 t' c :=
  pay14_apply acc v1 v2 v3 v4 v5 t' c

theorem pay42_apply (acc : FVec Ideal S16x256 .f32) (v1 v2 v3 v4 v5 : Vec Ideal S1x16x16x256 .f32) (t' : Fin 16) (c : Fin 256) :
    k0_pay42 (F := Ideal) acc v1 v2 v3 v4 v5 (ix2 t' c) = acc (ix2 t' c) + segS v1 t' c + segS v2 t' c + segS v3 t' c + segS v4 t' c + segS v5 t' c :=
  pay14_apply acc v1 v2 v3 v4 v5 t' c

theorem pay49_apply (acc : FVec Ideal S16x256 .f32) (v1 v2 v3 v4 v5 : Vec Ideal S1x16x16x256 .f32) (t' : Fin 16) (c : Fin 256) :
    k0_pay49 (F := Ideal) acc v1 v2 v3 v4 v5 (ix2 t' c) = acc (ix2 t' c) + segS v1 t' c + segS v2 t' c + segS v3 t' c + segS v4 t' c + segS v5 t' c :=
  pay14_apply acc v1 v2 v3 v4 v5 t' c

theorem pay56_apply (acc : FVec Ideal S16x256 .f32) (v1 v2 v3 v4 v5 : Vec Ideal S1x16x16x256 .f32) (t' : Fin 16) (c : Fin 256) :
    k0_pay56 (F := Ideal) acc v1 v2 v3 v4 v5 (ix2 t' c) = acc (ix2 t' c) + segS v1 t' c + segS v2 t' c + segS v3 t' c + segS v4 t' c + segS v5 t' c :=
  pay14_apply acc v1 v2 v3 v4 v5 t' c

theorem pay63_apply (acc : FVec Ideal S16x256 .f32) (v1 v2 v3 v4 v5 : Vec Ideal S1x16x16x256 .f32) (t' : Fin 16) (c : Fin 256) :
    k0_pay63 (F := Ideal) acc v1 v2 v3 v4 v5 (ix2 t' c) = acc (ix2 t' c) + segS v1 t' c + segS v2 t' c + segS v3 t' c + segS v4 t' c + segS v5 t' c :=
  pay14_apply acc v1 v2 v3 v4 v5 t' c

theorem pay22_apply (acc : FVec Ideal S16x256 .f32) (v1 v2 v3 v4 v5 : Vec Ideal S1x16x16x256 .f32) (t' : Fin 16) (c : Fin 256) :
    k0_pay22 (F := Ideal) acc v1 v2 v3 v4 v5 (ix2 t' c)
      = max (max (max (max (max (acc (ix2 t' c)) (segM v1 t' c)) (segM v2 t' c)) (segM v3 t' c)) (segM v4 t' c)) (segM v5 t' c) :=
  pay15_apply acc v1 v2 v3 v4 v5 t' c

theorem pay29_apply (acc : FVec Ideal S16x256 .f32) (v1 v2 v3 v4 v5 : Vec Ideal S1x16x16x256 .f32) (t' : Fin 16) (c : Fin 256) :
    k0_pay29 (F := Ideal) acc v1 v2 v3 v4 v5 (ix2 t' c)
      = max (max (max (max (max (acc (ix2 t' c)) (segM v1 t' c)) (segM v2 t' c)) (segM v3 t' c)) (segM v4 t' c)) (segM v5 t' c) :=
  pay15_apply acc v1 v2 v3 v4 v5 t' c

theorem pay36_apply (acc : FVec Ideal S16x256 .f32) (v1 v2 v3 v4 v5 : Vec Ideal S1x16x16x256 .f32) (t' : Fin 16) (c : Fin 256) :
    k0_pay36 (F := Ideal) acc v1 v2 v3 v4 v5 (ix2 t' c)
      = max (max (max (max (max (acc (ix2 t' c)) (segM v1 t' c)) (segM v2 t' c)) (segM v3 t' c)) (segM v4 t' c)) (segM v5 t' c) :=
  pay15_apply acc v1 v2 v3 v4 v5 t' c

theorem pay43_apply (acc : FVec Ideal S16x256 .f32) (v1 v2 v3 v4 v5 : Vec Ideal S1x16x16x256 .f32) (t' : Fin 16) (c : Fin 256) :
    k0_pay43 (F := Ideal) acc v1 v2 v3 v4 v5 (ix2 t' c)
      = max (max (max (max (max (acc (ix2 t' c)) (segM v1 t' c)) (segM v2 t' c)) (segM v3 t' c)) (segM v4 t' c)) (segM v5 t' c) :=
  pay15_apply acc v1 v2 v3 v4 v5 t' c

theorem pay50_apply (acc : FVec Ideal S16x256 .f32) (v1 v2 v3 v4 v5 : Vec Ideal S1x16x16x256 .f32) (t' : Fin 16) (c : Fin 256) :
    k0_pay50 (F := Ideal) acc v1 v2 v3 v4 v5 (ix2 t' c)
      = max (max (max (max (max (acc (ix2 t' c)) (segM v1 t' c)) (segM v2 t' c)) (segM v3 t' c)) (segM v4 t' c)) (segM v5 t' c) :=
  pay15_apply acc v1 v2 v3 v4 v5 t' c

theorem pay57_apply (acc : FVec Ideal S16x256 .f32) (v1 v2 v3 v4 v5 : Vec Ideal S1x16x16x256 .f32) (t' : Fin 16) (c : Fin 256) :
    k0_pay57 (F := Ideal) acc v1 v2 v3 v4 v5 (ix2 t' c)
      = max (max (max (max (max (acc (ix2 t' c)) (segM v1 t' c)) (segM v2 t' c)) (segM v3 t' c)) (segM v4 t' c)) (segM v5 t' c) :=
  pay15_apply acc v1 v2 v3 v4 v5 t' c

theorem pay64_apply (acc : FVec Ideal S16x256 .f32) (v1 v2 v3 v4 v5 : Vec Ideal S1x16x16x256 .f32) (t' : Fin 16) (c : Fin 256) :
    k0_pay64 (F := Ideal) acc v1 v2 v3 v4 v5 (ix2 t' c)
      = max (max (max (max (max (acc (ix2 t' c)) (segM v1 t' c)) (segM v2 t' c)) (segM v3 t' c)) (segM v4 t' c)) (segM v5 t' c) :=
  pay15_apply acc v1 v2 v3 v4 v5 t' c

/-- The last part: the four remaining segment sums. -/
theorem pay69_apply (acc : FVec Ideal S16x256 .f32) (v1 v2 v3 v4 : Vec Ideal S1x16x16x256 .f32) (t' : Fin 16) (c : Fin 256) :
    k0_pay69 (F := Ideal) acc v1 v2 v3 v4 (ix2 t' c) = acc (ix2 t' c) + segS v1 t' c + segS v2 t' c + segS v3 t' c + segS v4 t' c := by
  unfold k0_pay69 k0_pay65 k0_pay66 k0_pay67 k0_pay68
  dsimp only
  rw [addf_apply, addf_apply, addf_apply, addf_apply]
  exact congrArg₂ (· + ·) (congrArg₂ (· + ·) (congrArg₂ (· + ·) (congrArg₂ (· + ·) (rfl) (red_seg_add v1 t' c _ _)) (red_seg_add v2 t' c _ _)) (red_seg_add v3 t' c _ _)) (red_seg_add v4 t' c _ _)

/-- The last part: the four remaining segment maxima. -/
theorem pay70_apply (acc : FVec Ideal S16x256 .f32) (v1 v2 v3 v4 : Vec Ideal S1x16x16x256 .f32) (t' : Fin 16) (c : Fin 256) :
    k0_pay70 (F := Ideal) acc v1 v2 v3 v4 (ix2 t' c)
      = max (max (max (max (acc (ix2 t' c)) (segM v1 t' c)) (segM v2 t' c)) (segM v3 t' c)) (segM v4 t' c) := by
  unfold k0_pay70 k0_pay65 k0_pay66 k0_pay67 k0_pay68
  dsimp only
  rw [maximumf_apply, maximumf_apply, maximumf_apply, maximumf_apply]
  exact congrArg₂ max (congrArg₂ max (congrArg₂ max (congrArg₂ max (rfl) (red_seg_max v1 t' c _ _)) (red_seg_max v2 t' c _ _)) (red_seg_max v3 t' c _ _)) (red_seg_max v4 t' c _ _)

/-! ## A loaded segment is sixteen consecutive rows of the slab -/

/-- Column (t', c) of the slab as a function of the plane position, a natural number (zero past the plane: never read). -/
def col (x0 : Vec Ideal S1x784x16x256 .f32) (t' : Fin 16) (c : Fin 256) (p : ℕ) : EReal :=
  if h : p < 784 then x0 (ix4 (0 : Fin 1) (⟨p, h⟩ : Fin 784) t' c) else 0

/-- A segment loaded at row offset o reads, at row k, the slab's row o + k. -/
theorem ld_seg (x0 : Vec Ideal S1x784x16x256 .f32) (o : ℕ)
    (h : ∀ a, (![0, o, 0, 0] : Fin 4 → Nat) a + S1x16x16x256.size a ≤ S1x784x16x256.size a)
    (k : Fin 16) (t' : Fin 16) (c : Fin 256) :
    View.ld x0 (Rect.unit (s := S1x784x16x256) ![0, o, 0, 0] S1x16x16x256.size h) (ix4 (0 : Fin 1) k t' c)
      = col x0 t' c (o + k.val) := by
  have ho : o + 16 ≤ 784 := h 1
  have hk := k.isLt
  unfold col
  rw [dif_pos (by omega)]
  show x0 ((Rect.unit (s := S1x784x16x256) ![0, o, 0, 0] S1x16x16x256.size h).emb (ix4 (0 : Fin 1) k t' c)) = _
  refine congrArg x0 (funext fun a => Fin.ext ?_)
  match a with
  | ⟨0, _⟩ => rfl
  | ⟨1, _⟩ => show o + 1 * k.val = o + k.val; rw [Nat.one_mul]
  | ⟨2, _⟩ => show 0 + 1 * t'.val = t'.val; omega
  | ⟨3, _⟩ => show 0 + 1 * c.val = c.val; omega

/-- The sum of the segment loaded at row offset o: the sum of the slab's rows o … o + 15. -/
theorem segS_ld (x0 : Vec Ideal S1x784x16x256 .f32) (o : ℕ)
    (h : ∀ a, (![0, o, 0, 0] : Fin 4 → Nat) a + S1x16x16x256.size a ≤ S1x784x16x256.size a) (t' : Fin 16) (c : Fin 256) :
    segS (View.ld x0 (Rect.unit (s := S1x784x16x256) ![0, o, 0, 0] S1x16x16x256.size h)) t' c
      = ∑ k : Fin 16, col x0 t' c (o + k.val) :=
  Finset.sum_congr rfl fun k _ => ld_seg x0 o h k t' c

/-- The maximum of the segment loaded at row offset o: the supremum of the slab's rows o … o + 15. -/
theorem segM_ld (x0 : Vec Ideal S1x784x16x256 .f32) (o : ℕ)
    (h : ∀ a, (![0, o, 0, 0] : Fin 4 → Nat) a + S1x16x16x256.size a ≤ S1x784x16x256.size a) (t' : Fin 16) (c : Fin 256) :
    segM (View.ld x0 (Rect.unit (s := S1x784x16x256) ![0, o, 0, 0] S1x16x16x256.size h)) t' c
      = Finset.univ.sup fun k : Fin 16 => col x0 t' c (o + k.val) :=
  congrArg Finset.univ.sup (funext fun k => ld_seg x0 o h k t' c)

end Cert.KernelIdeal.Body
-- ==== Proof.KernelBodyAcc.lean ====
/-
  The kernel's plane sums and maxima as sums and suprema over the plane.

  The accumulators after each of the ten parts are named here (the body's own nested term, cut at the parts), and
  each is read at an index (t', c) as the sum, or supremum, of the first segments: after part i, of segments
  0 … 5 i + 4; after the last part, of all 49.  Segment s is rows 16 s … 16 s + 15, so the 49 segments are the plane's
  784 positions (position p is row p % 16 of segment p / 16), and the totals are the sum and the supremum over the plane.
-/
import proofs.«171221_g2000003629944382_pallasbulk_706_19_alg».proof.Proof.KernelBodySeg

noncomputable section

namespace Cert.KernelIdeal.Body

open Idealize.ShloMosaic Idealize.ShloMosaic.ValueIdx Cert.KernelIdeal Cert.KernelIdeal.Gen

/-- The sum of the slab's rows 16 s … 16 s + 15 in column (t', c): segment s. -/
def segSum (x0 : Vec Ideal S1x784x16x256 .f32) (t' : Fin 16) (c : Fin 256) (s : ℕ) : EReal := ∑ k : Fin 16, col x0 t' c (16 * s + k.val)
/-- The supremum of the same rows. -/
def segMax (x0 : Vec Ideal S1x784x16x256 .f32) (t' : Fin 16) (c : Fin 256) (s : ℕ) : EReal :=
  Finset.univ.sup fun k : Fin 16 => col x0 t' c (16 * s + k.val)

/-- One more term joined to a supremum over an initial range. -/
theorem sup_range_succ (g : ℕ → EReal) (n : ℕ) : (Finset.range (n + 1)).sup g = max ((Finset.range n).sup g) (g n) := by
  rw [Finset.range_add_one, Finset.sup_insert, sup_comm]

/-! ## The accumulators after each part -/

/-- The running sums after the first part (segments 0 … 4). -/
def accS0 (x0 : Vec Ideal S1x784x16x256 .f32) : FVec Ideal S16x256 .f32 := k0_pay7 (View.ld x0 r0_0) (View.ld x0 r0_1) (View.ld x0 r0_2) (View.ld x0 r0_3) (View.ld x0 r0_4)
/-- The running maxima after the first part. -/
def accM0 (x0 : Vec Ideal S1x784x16x256 .f32) : FVec Ideal S16x256 .f32 := k0_pay8 (View.ld x0 r0_0) (View.ld x0 r0_1) (View.ld x0 r0_2) (View.ld x0 r0_3) (View.ld x0 r0_4)
/-- The running sums after part 2 (segments 0 … 9). -/
def accS1 (x0 : Vec Ideal S1x784x16x256 .f32) : FVec Ideal S16x256 .f32 := k0_pay14 (accS0 x0) (View.ld x0 r0_5) (View.ld x0 r0_6) (View.ld x0 r0_7) (View.ld x0 r0_8) (View.ld x0 r0_9)
/-- The running maxima after part 2. -/
def accM1 (x0 : Vec Ideal S1x784x16x256 .f32) : FVec Ideal S16x256 .f32 := k0_pay15 (accM0 x0) (View.ld x0 r0_5) (View.ld x0 r0_6) (View.ld x0 r0_7) (View.ld x0 r0_8) (View.ld x0 r0_9)
/-- The running sums after part 3 (segments 0 … 14). -/
def accS2 (x0 : Vec Ideal S1x784x16x256 .f32) : FVec Ideal S16x256 .f32 := k0_pay21 (accS1 x0) (View.ld x0 r0_10) (View.ld x0 r0_11) (View.ld x0 r0_12) (View.ld x0 r0_13) (View.ld x0 r0_14)
/-- The running maxima after part 3. -/
def accM2 (x0 : Vec Ideal S1x784x16x256 .f32) : FVec Ideal S16x256 .f32 := k0_pay22 (accM1 x0) (View.ld x0 r0_10) (View.ld x0 r0_11) (View.ld x0 r0_12) (View.ld x0 r0_13) (View.ld x0 r0_14)
/-- The running sums after part 4 (segments 0 … 19). -/
def accS3 (x0 : Vec Ideal S1x784x16x256 .f32) : FVec Ideal S16x256 .f32 := k0_pay28 (accS2 x0) (View.ld x0 r0_15) (View.ld x0 r0_16) (View.ld x0 r0_17) (View.ld x0 r0_18) (View.ld x0 r0_19)
/-- The running maxima after part 4. -/
def accM3 (x0 : Vec Ideal S1x784x16x256 .f32) : FVec Ideal S16x256 .f32 := k0_pay29 (accM2 x0) (View.ld x0 r0_15) (View.ld x0 r0_16) (View.ld x0 r0_17) (View.ld x0 r0_18) (View.ld x0 r0_19)
/-- The running sums after part 5 (segments 0 … 24). -/
def accS4 (x0 : Vec Ideal S1x784x16x256 .f32) : FVec Ideal S16x256 .f32 := k0_pay35 (accS3 x0) (View.ld x0 r0_20) (View.ld x0 r0_21) (View.ld x0 r0_22) (View.ld x0 r0_23) (View.ld x0 r0_24)
/-- The running maxima after part 5. -/
def accM4 (x0 : Vec Ideal S1x784x16x256 .f32) : FVec Ideal S16x256 .f32 := k0_pay36 (accM3 x0) (View.ld x0 r0_20) (View.ld x0 r0_21) (View.ld x0 r0_22) (View.ld x0 r0_23) (View.ld x0 r0_24)
/-- The running sums after part 6 (segments 0 … 29). -/
def accS5 (x0 : Vec Ideal S1x784x16x256 .f32) : FVec Ideal S16x256 .f32 := k0_pay42 (accS4 x0) (View.ld x0 r0_25) (View.ld x0 r0_26) (View.ld x0 r0_27) (View.ld x0 r0_28) (View.ld x0 r0_29)
/-- The running maxima after part 6. -/
def accM5 (x0 : Vec Ideal S1x784x16x256 .f32) : FVec Ideal S16x256 .f32 := k0_pay43 (accM4 x0) (View.ld x0 r0_25) (View.ld x0 r0_26) (View.ld x0 r0_27) (View.ld x0 r0_28) (View.ld x0 r0_29)
/-- The running sums after part 7 (segments 0 … 34). -/
def accS6 (x0 : Vec Ideal S1x784x16x256 .f32) : FVec Ideal S16x256 .f32 := k0_pay49 (accS5 x0) (View.ld x0 r0_30) (View.ld x0 r0_31) (View.ld x0 r0_32) (View.ld x0 r0_33) (View.ld x0 r0_34)
/-- The running maxima after part 7. -/
def accM6 (x0 : Vec Ideal S1x784x16x256 .f32) : FVec Ideal S16x256 .f32 := k0_pay50 (accM5 x0) (View.ld x0 r0_30) (View.ld x0 r0_31) (View.ld x0 r0_32) (View.ld x0 r0_33) (View.ld x0 r0_34)
/-- The running sums after part 8 (segments 0 … 39). -/
def accS7 (x0 : Vec Ideal S1x784x16x256 .f32) : FVec Ideal S16x256 .f32 := k0_pay56 (accS6 x0) (View.ld x0 r0_35) (View.ld x0 r0_36) (View.ld x0 r0_37) (View.ld x0 r0_38) (View.ld x0 r0_39)
/-- The running maxima after part 8. -/
def accM7 (x0 : Vec Ideal S1x784x16x256 .f32) : FVec Ideal S16x256 .f32 := k0_pay57 (accM6 x0) (View.ld x0 r0_35) (View.ld x0 r0_36) (View.ld x0 r0_37) (View.ld x0 r0_38) (View.ld x0 r0_39)
/-- The running sums after part 9 (segments 0 … 44). -/
def accS8 (x0 : Vec Ideal S1x784x16x256 .f32) : FVec Ideal S16x256 .f32 := k0_pay63 (accS7 x0) (View.ld x0 r0_40) (View.ld x0 r0_41) (View.ld x0 r0_42) (View.ld x0 r0_43) (View.ld x0 r0_44)
/-- The running maxima after part 9. -/
def accM8 (x0 : Vec Ideal S1x784x16x256 .f32) : FVec Ideal S16x256 .f32 := k0_pay64 (accM7 x0) (View.ld x0 r0_40) (View.ld x0 r0_41) (View.ld x0 r0_42) (View.ld x0 r0_43) (View.ld x0 r0_44)
/-- The plane sums: all 49 segments. -/
def accS9 (x0 : Vec Ideal S1x784x16x256 .f32) : FVec Ideal S16x256 .f32 := k0_pay69 (accS8 x0) (View.ld x0 r0_45) (View.ld x0 r0_46) (View.ld x0 r0_47) (View.ld x0 r0_48)
/-- The plane maxima: all 49 segments. -/
def accM9 (x0 : Vec Ideal S1x784x16x256 .f32) : FVec Ideal S16x256 .f32 := k0_pay70 (accM8 x0) (View.ld x0 r0_45) (View.ld x0 r0_46) (View.ld x0 r0_47) (View.ld x0 r0_48)

theorem accS0_apply (x0 : Vec Ideal S1x784x16x256 .f32) (t' : Fin 16) (c : Fin 256) :
    accS0 x0 (ix2 t' c) = ∑ s ∈ Finset.range 5, segSum x0 t' c s := by
  unfold accS0
  rw [pay7_apply, segS_ld, segS_ld, segS_ld, segS_ld, segS_ld,
    Finset.sum_range_succ _ 4, Finset.sum_range_succ _ 3, Finset.sum_range_succ _ 2, Finset.sum_range_succ _ 1, Finset.sum_range_succ _ 0,
    Finset.sum_range_zero, zero_add]
  rfl

theorem accM0_apply (x0 : Vec Ideal S1x784x16x256 .f32) (t' : Fin 16) (c : Fin 256) :
    accM0 x0 (ix2 t' c) = (Finset.range 5).sup (segMax x0 t' c) := by
  unfold accM0
  rw [pay8_apply, segM_ld, segM_ld, segM_ld, segM_ld, segM_ld,
    sup_range_succ _ 4, sup_range_succ _ 3, sup_range_succ _ 2, sup_range_succ _ 1, sup_range_succ _ 0,
    Finset.range_zero, Finset.sup_empty, max_bot_left]
  rfl

theorem accS1_apply (x0 : Vec Ideal S1x784x16x256 .f32) (t' : Fin 16) (c : Fin 256) :
    accS1 x0 (ix2 t' c) = ∑ s ∈ Finset.range 10, segSum x0 t' c s := by
  unfold accS1
  rw [pay14_apply, accS0_apply, segS_ld, segS_ld, segS_ld, segS_ld, segS_ld,
    Finset.sum_range_succ _ 9, Finset.sum_range_succ _ 8, Finset.sum_range_succ _ 7, Finset.sum_range_succ _ 6, Finset.sum_range_succ _ 5]
  rfl

theorem accM1_apply (x0 : Vec Ideal S1x784x16x256 .f32) (t' : Fin 16) (c : Fin 256) :
    accM1 x0 (ix2 t' c) = (Finset.range 10).sup (segMax x0 t' c) := by
  unfold accM1
  rw [pay15_apply, accM0_apply, segM_ld, segM_ld, segM_ld, segM_ld, segM_ld,
    sup_range_succ _ 9, sup_range_succ _ 8, sup_range_succ _ 7, sup_range_succ _ 6, sup_range_succ _ 5]
  rfl

theorem accS2_apply (x0 : Vec Ideal S1x784x16x256 .f32) (t' : Fin 16) (c : Fin 256) :
    accS2 x0 (ix2 t' c) = ∑ s ∈ Finset.range 15, segSum x0 t' c s := by
  unfold accS2
  rw [pay21_apply, accS1_apply, segS_ld, segS_ld, segS_ld, segS_ld, segS_ld,
    Finset.sum_range_succ _ 14, Finset.sum_range_succ _ 13, Finset.sum_range_succ _ 12, Finset.sum_range_succ _ 11, Finset.sum_range_succ _ 10]
  rfl

theorem accM2_apply (x0 : Vec Ideal S1x784x16x256 .f32) (t' : Fin 16) (c : Fin 256) :
    accM2 x0 (ix2 t' c) = (Finset.range 15).sup (segMax x0 t' c) := by
  unfold accM2
  rw [pay22_apply, accM1_apply, segM_ld, segM_ld, segM_ld, segM_ld, segM_ld,
    sup_range_succ _ 14, sup_range_succ _ 13, sup_range_succ _ 12, sup_range_succ _ 11, sup_range_succ _ 10]
  rfl

theorem accS3_apply (x0 : Vec Ideal S1x784x16x256 .f32) (t' : Fin 16) (c : Fin 256) :
    accS3 x0 (ix2 t' c) = ∑ s ∈ Finset.range 20, segSum x0 t' c s := by
  unfold accS3
  rw [pay28_apply, accS2_apply, segS_ld, segS_ld, segS_ld, segS_ld, segS_ld,
    Finset.sum_range_succ _ 19, Finset.sum_range_succ _ 18, Finset.sum_range_succ _ 17, Finset.sum_range_succ _ 16, Finset.sum_range_succ _ 15]
  rfl

theorem accM3_apply (x0 : Vec Ideal S1x784x16x256 .f32) (t' : Fin 16) (c : Fin 256) :
    accM3 x0 (ix2 t' c) = (Finset.range 20).sup (segMax x0 t' c) := by
  unfold accM3
  rw [pay29_apply, accM2_apply, segM_ld, segM_ld, segM_ld, segM_ld, segM_ld,
    sup_range_succ _ 19, sup_range_succ _ 18, sup_range_succ _ 17, sup_range_succ _ 16, sup_range_succ _ 15]
  rfl

theorem accS4_apply (x0 : Vec Ideal S1x784x16x256 .f32) (t' : Fin 16) (c : Fin 256) :
    accS4 x0 (ix2 t' c) = ∑ s ∈ Finset.range 25, segSum x0 t' c s := by
  unfold accS4
  rw [pay35_apply, accS3_apply, segS_ld, segS_ld, segS_ld, segS_ld, segS_ld,
    Finset.sum_range_succ _ 24, Finset.sum_range_succ _ 23, Finset.sum_range_succ _ 22, Finset.sum_range_succ _ 21, Finset.sum_range_succ _ 20]
  rfl

theorem accM4_apply (x0 : Vec Ideal S1x784x16x256 .f32) (t' : Fin 16) (c : Fin 256) :
    accM4 x0 (ix2 t' c) = (Finset.range 25).sup (segMax x0 t' c) := by
  unfold accM4
  rw [pay36_apply, accM3_apply, segM_ld, segM_ld, segM_ld, segM_ld, segM_ld,
    sup_range_succ _ 24, sup_range_succ _ 23, sup_range_succ _ 22, sup_range_succ _ 21, sup_range_succ _ 20]
  rfl

theorem accS5_apply (x0 : Vec Ideal S1x784x16x256 .f32) (t' : Fin 16) (c : Fin 256) :
    accS5 x0 (ix2 t' c) = ∑ s ∈ Finset.range 30, segSum x0 t' c s := by
  unfold accS5
  rw [pay42_apply, accS4_apply, segS_ld, segS_ld, segS_ld, segS_ld, segS_ld,
    Finset.sum_range_succ _ 29, Finset.sum_range_succ _ 28, Finset.sum_range_succ _ 27, Finset.sum_range_succ _ 26, Finset.sum_range_succ _ 25]
  rfl

theorem accM5_apply (x0 : Vec Ideal S1x784x16x256 .f32) (t' : Fin 16) (c : Fin 256) :
    accM5 x0 (ix2 t' c) = (Finset.range 30).sup (segMax x0 t' c) := by
  unfold accM5
  rw [pay43_apply, accM4_apply, segM_ld, segM_ld, segM_ld, segM_ld, segM_ld,
    sup_range_succ _ 29, sup_range_succ _ 28, sup_range_succ _ 27, sup_range_succ _ 26, sup_range_succ _ 25]
  rfl

theorem accS6_apply (x0 : Vec Ideal S1x784x16x256 .f32) (t' : Fin 16) (c : Fin 256) :
    accS6 x0 (ix2 t' c) = ∑ s ∈ Finset.range 35, segSum x0 t' c s := by
  unfold accS6
  rw [pay49_apply, accS5_apply, segS_ld, segS_ld, segS_ld, segS_ld, segS_ld,
    Finset.sum_range_succ _ 34, Finset.sum_range_succ _ 33, Finset.sum_range_succ _ 32, Finset.sum_range_succ _ 31, Finset.sum_range_succ _ 30]
  rfl

theorem accM6_apply (x0 : Vec Ideal S1x784x16x256 .f32) (t' : Fin 16) (c : Fin 256) :
    accM6 x0 (ix2 t' c) = (Finset.range 35).sup (segMax x0 t' c) := by
  unfold accM6
  rw [pay50_apply, accM5_apply, segM_ld, segM_ld, segM_ld, segM_ld, segM_ld,
    sup_range_succ _ 34, sup_range_succ _ 33, sup_range_succ _ 32, sup_range_succ _ 31, sup_range_succ _ 30]
  rfl

theorem accS7_apply (x0 : Vec Ideal S1x784x16x256 .f32) (t' : Fin 16) (c : Fin 256) :
    accS7 x0 (ix2 t' c) = ∑ s ∈ Finset.range 40, segSum x0 t' c s := by
  unfold accS7
  rw [pay56_apply, accS6_apply, segS_ld, segS_ld, segS_ld, segS_ld, segS_ld,
    Finset.sum_range_succ _ 39, Finset.sum_range_succ _ 38, Finset.sum_range_succ _ 37, Finset.sum_range_succ _ 36, Finset.sum_range_succ _ 35]
  rfl

theorem accM7_apply (x0 : Vec Ideal S1x784x16x256 .f32) (t' : Fin 16) (c : Fin 256) :
    accM7 x0 (ix2 t' c) = (Finset.range 40).sup (segMax x0 t' c) := by
  unfold accM7
  rw [pay57_apply, accM6_apply, segM_ld, segM_ld, segM_ld, segM_ld, segM_ld,
    sup_range_succ _ 39, sup_range_succ _ 38, sup_range_succ _ 37, sup_range_succ _ 36, sup_range_succ _ 35]
  rfl

theorem accS8_apply (x0 : Vec Ideal S1x784x16x256 .f32) (t' : Fin 16) (c : Fin 256) :
    accS8 x0 (ix2 t' c) = ∑ s ∈ Finset.range 45, segSum x0 t' c s := by
  unfold accS8
  rw [pay63_apply, accS7_apply, segS_ld, segS_ld, segS_ld, segS_ld, segS_ld,
    Finset.sum_range_succ _ 44, Finset.sum_range_succ _ 43, Finset.sum_range_succ _ 42, Finset.sum_range_succ _ 41, Finset.sum_range_succ _ 40]
  rfl

theorem accM8_apply (x0 : Vec Ideal S1x784x16x256 .f32) (t' : Fin 16) (c : Fin 256) :
    accM8 x0 (ix2 t' c) = (Finset.range 45).sup (segMax x0 t' c) := by
  unfold accM8
  rw [pay64_apply, accM7_apply, segM_ld, segM_ld, segM_ld, segM_ld, segM_ld,
    sup_range_succ _ 44, sup_range_succ _ 43, sup_range_succ _ 42, sup_range_succ _ 41, sup_range_succ _ 40]
  rfl

theorem accS9_apply (x0 : Vec Ideal S1x784x16x256 .f32) (t' : Fin 16) (c : Fin 256) :
    accS9 x0 (ix2 t' c) = ∑ s ∈ Finset.range 49, segSum x0 t' c s := by
  unfold accS9
  rw [pay69_apply, accS8_apply, segS_ld, segS_ld, segS_ld, segS_ld,
    Finset.sum_range_succ _ 48, Finset.sum_range_succ _ 47, Finset.sum_range_succ _ 46, Finset.sum_range_succ _ 45]
  rfl

theorem accM9_apply (x0 : Vec Ideal S1x784x16x256 .f32) (t' : Fin 16) (c : Fin 256) :
    accM9 x0 (ix2 t' c) = (Finset.range 49).sup (segMax x0 t' c) := by
  unfold accM9
  rw [pay70_apply, accM8_apply, segM_ld, segM_ld, segM_ld, segM_ld,
    sup_range_succ _ 48, sup_range_succ _ 47, sup_range_succ _ 46, sup_range_succ _ 45]
  rfl

/-! ## The 49 segments are the plane -/

/-- The segment sums add up to the sum over the plane. -/
theorem sum_segs (x0 : Vec Ideal S1x784x16x256 .f32) (t' : Fin 16) (c : Fin 256) :
    ∑ s ∈ Finset.range 49, segSum x0 t' c s = ∑ p : Fin 784, x0 (ix4 (0 : Fin 1) p t' c) := by
  have e : ∀ p : Fin 784, x0 (ix4 (0 : Fin 1) p t' c) = col x0 t' c p.val := fun p => by
    unfold col; rw [dif_pos p.isLt]
  rw [Finset.sum_range, Finset.sum_congr rfl fun p _ => e p]
  show _ = ∑ p : Fin (49 * 16), col x0 t' c p.val
  rw [← Equiv.sum_comp finProdFinEquiv, Fintype.sum_prod_type]
  unfold segSum
  refine Finset.sum_congr rfl fun s _ => Finset.sum_congr rfl fun k _ => ?_
  rw [finProdFinEquiv_apply_val, Nat.add_comm]

/-- The segment maxima join to the supremum over the plane. -/
theorem sup_segs (x0 : Vec Ideal S1x784x16x256 .f32) (t' : Fin 16) (c : Fin 256) :
    (Finset.range 49).sup (segMax x0 t' c) = Finset.univ.sup fun p : Fin 784 => x0 (ix4 (0 : Fin 1) p t' c) := by
  apply le_antisymm
  · refine Finset.sup_le fun s hs => Finset.sup_le fun k _ => ?_
    have hs' := Finset.mem_range.mp hs
    have hk := k.isLt
    have hp : 16 * s + k.val < 784 := by omega
    have e : col x0 t' c (16 * s + k.val) = x0 (ix4 (0 : Fin 1) (⟨16 * s + k.val, hp⟩ : Fin 784) t' c) := by
      unfold col; rw [dif_pos hp]
    rw [e]
    exact Finset.le_sup (f := fun p : Fin 784 => x0 (ix4 (0 : Fin 1) p t' c)) (Finset.mem_univ _)
  · refine Finset.sup_le fun p _ => ?_
    have hp := p.isLt
    have hlt : 16 * (p.val / 16) + p.val % 16 < 784 := by omega
    have e : x0 (ix4 (0 : Fin 1) p t' c) = col x0 t' c (16 * (p.val / 16) + (⟨p.val % 16, Nat.mod_lt _ (by norm_num)⟩ : Fin 16).val) := by
      unfold col
      rw [dif_pos hlt]
      exact congrArg (fun q : Fin 784 => x0 (ix4 (0 : Fin 1) q t' c)) (Fin.ext (by show p.val = 16 * (p.val / 16) + p.val % 16; omega))
    rw [e]
    exact le_trans (Finset.le_sup (f := fun k : Fin 16 => col x0 t' c (16 * (p.val / 16) + k.val)) (Finset.mem_univ _))
      (Finset.le_sup (f := segMax x0 t' c) (Finset.mem_range.mpr (by omega)))

/-- The kernel's plane sums: entry (t', c) is the sum of the slab's column (t', c) over the plane. -/
theorem planeS_apply (x0 : Vec Ideal S1x784x16x256 .f32) (t' : Fin 16) (c : Fin 256) :
    accS9 x0 (ix2 t' c) = ∑ p : Fin 784, x0 (ix4 (0 : Fin 1) p t' c) :=
  (accS9_apply x0 t' c).trans (sum_segs x0 t' c)

/-- The kernel's plane maxima: entry (t', c) is the supremum of the slab's column (t', c) over the plane. -/
theorem planeM_apply (x0 : Vec Ideal S1x784x16x256 .f32) (t' : Fin 16) (c : Fin 256) :
    accM9 x0 (ix2 t' c) = Finset.univ.sup fun p : Fin 784 => x0 (ix4 (0 : Fin 1) p t' c) :=
  (accM9_apply x0 t' c).trans (sup_segs x0 t' c)

end Cert.KernelIdeal.Body
-- ==== Proof.KernelBodyGate.lean ====
/-
  The two gates of the kernel's body, each payload read at an index.

  After the plane sums and maxima, the body pools them over the frames (the mean row through the constant, the
  maximum row), sends both rows through the first perceptron — its matrix products are sums over the one contracted
  axis, the first weight matrix being held transposed —, squashes to the scale row, multiplies the plane statistics by
  it, pools over the channels (a column, turned to a row), and sends those two rows through the second perceptron.
  Each lemma states one payload at an index over variables, in the terms of the specification's perceptron layers.
-/
import proofs.«171221_g2000003629944382_pallasbulk_706_19_alg».proof.Proof.Gen.KernelIdeal.Frame
import proofs.«171221_g2000003629944382_pallasbulk_706_19_alg».proof.Proof.Gates
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-! ## The four matrix products: a sum over the one contracted axis -/

/-- A pooled row [1, 256] against weights held as [16, 256], contracted over the channels. -/
theorem matmul_row_chan (L : FVec Ideal S1x256 .f32) (R : FVec Ideal S16x256 .f32) (j : Fin 16) :
    matmul (F := Ideal) dot_S1x256_S16x256_S1x16_1_1_0_0_n_n none L R (constant S1x16 .f32 0x00000000#32) (ix2 (0 : Fin 1) j)
      = ∑ c : Fin 256, L (ix2 (0 : Fin 1) c) * R (ix2 j c) := by
  refine (Ideal.matmul_constant_zero_apply _ _ _ _ _).trans ?_
  rw [← Equiv.sum_comp (contrEquiv1 dot_S1x256_S16x256_S1x16_1_1_0_0_n_n 256 rfl rfl).symm]
  refine Finset.sum_congr rfl fun c _ => ?_
  have hl : dot_S1x256_S16x256_S1x16_1_1_0_0_n_n.lhsIdx (ix2 (0 : Fin 1) j) ((contrEquiv1 dot_S1x256_S16x256_S1x16_1_1_0_0_n_n 256 rfl rfl).symm c) = ix2 (0 : Fin 1) c :=
    funext fun a => Fin.ext (by
      match a with
      | ⟨0, _⟩ => rfl
      | ⟨1, _⟩ => exact (DotDims.lhsIdx_val_of_single _ rfl _ _).trans (contrEquiv1_symm_val _ 256 rfl rfl c))
  have hr : dot_S1x256_S16x256_S1x16_1_1_0_0_n_n.rhsIdx (ix2 (0 : Fin 1) j) ((contrEquiv1 dot_S1x256_S16x256_S1x16_1_1_0_0_n_n 256 rfl rfl).symm c) = ix2 j c :=
    funext fun a => Fin.ext (by
      match a with
      | ⟨1, _⟩ => exact (DotDims.rhsIdx_val_of_single _ rfl _ _).trans (contrEquiv1_symm_val _ 256 rfl rfl c)
      | ⟨0, _⟩ => rfl)
  rw [hl, hr]

/-- A hidden row [1, 16] against weights [16, 256], contracted over the hidden units. -/
theorem matmul_hid_chan (L : FVec Ideal S1x16 .f32) (R : FVec Ideal S16x256 .f32) (j : Fin 256) :
    matmul (F := Ideal) dot_S1x16_S16x256_S1x256_1_0_0_1_n_n none L R (constant S1x256 .f32 0x00000000#32) (ix2 (0 : Fin 1) j)
      = ∑ h : Fin 16, L (ix2 (0 : Fin 1) h) * R (ix2 h j) := by
  refine (Ideal.matmul_constant_zero_apply _ _ _ _ _).trans ?_
  rw [← Equiv.sum_comp (contrEquiv1 dot_S1x16_S16x256_S1x256_1_0_0_1_n_n 16 rfl rfl).symm]
  refine Finset.sum_congr rfl fun h _ => ?_
  have hl : dot_S1x16_S16x256_S1x256_1_0_0_1_n_n.lhsIdx (ix2 (0 : Fin 1) j) ((contrEquiv1 dot_S1x16_S16x256_S1x256_1_0_0_1_n_n 16 rfl rfl).symm h) = ix2 (0 : Fin 1) h :=
    funext fun a => Fin.ext (by
      match a with
      | ⟨0, _⟩ => rfl
      | ⟨1, _⟩ => exact (DotDims.lhsIdx_val_of_single _ rfl _ _).trans (contrEquiv1_symm_val _ 16 rfl rfl h))
  have hr : dot_S1x16_S16x256_S1x256_1_0_0_1_n_n.rhsIdx (ix2 (0 : Fin 1) j) ((contrEquiv1 dot_S1x16_S16x256_S1x256_1_0_0_1_n_n 16 rfl rfl).symm h) = ix2 h j :=
    funext fun a => Fin.ext (by
      match a with
      | ⟨0, _⟩ => exact (DotDims.rhsIdx_val_of_single _ rfl _ _).trans (contrEquiv1_symm_val _ 16 rfl rfl h)
      | ⟨1, _⟩ => rfl)
  rw [hl, hr]

/-- A pooled row [1, 16] against weights held as [8, 16], contracted over the frames. -/
theorem matmul_row_frame (L : FVec Ideal S1x16 .f32) (R : FVec Ideal S8x16 .f32) (j : Fin 8) :
    matmul (F := Ideal) dot_S1x16_S8x16_S1x8_1_1_0_0_n_n none L R (constant S1x8 .f32 0x00000000#32) (ix2 (0 : Fin 1) j)
      = ∑ t : Fin 16, L (ix2 (0 : Fin 1) t) * R (ix2 j t) := by
  refine (Ideal.matmul_constant_zero_apply _ _ _ _ _).trans ?_
  rw [← Equiv.sum_comp (contrEquiv1 dot_S1x16_S8x16_S1x8_1_1_0_0_n_n 16 rfl rfl).symm]
  refine Finset.sum_congr rfl fun t _ => ?_
  have hl : dot_S1x16_S8x16_S1x8_1_1_0_0_n_n.lhsIdx (ix2 (0 : Fin 1) j) ((contrEquiv1 dot_S1x16_S8x16_S1x8_1_1_0_0_n_n 16 rfl rfl).symm t) = ix2 (0 : Fin 1) t :=
    funext fun a => Fin.ext (by
      match a with
      | ⟨0, _⟩ => rfl
      | ⟨1, _⟩ => exact (DotDims.lhsIdx_val_of_single _ rfl _ _).trans (contrEquiv1_symm_val _ 16 rfl rfl t))
  have hr : dot_S1x16_S8x16_S1x8_1_1_0_0_n_n.rhsIdx (ix2 (0 : Fin 1) j) ((contrEquiv1 dot_S1x16_S8x16_S1x8_1_1_0_0_n_n 16 rfl rfl).symm t) = ix2 j t :=
    funext fun a => Fin.ext (by
      match a with
      | ⟨1, _⟩ => exact (DotDims.rhsIdx_val_of_single _ rfl _ _).trans (contrEquiv1_symm_val _ 16 rfl rfl t)
      | ⟨0, _⟩ => rfl)
  rw [hl, hr]

/-- A hidden row [1, 8] against weights [8, 16], contracted over the hidden units. -/
theorem matmul_hid_frame (L : FVec Ideal S1x8 .f32) (R : FVec Ideal S8x16 .f32) (j : Fin 16) :
    matmul (F := Ideal) dot_S1x8_S8x16_S1x16_1_0_0_1_n_n none L R (constant S1x16 .f32 0x00000000#32) (ix2 (0 : Fin 1) j)
      = ∑ h : Fin 8, L (ix2 (0 : Fin 1) h) * R (ix2 h j) := by
  refine (Ideal.matmul_constant_zero_apply _ _ _ _ _).trans ?_
  rw [← Equiv.sum_comp (contrEquiv1 dot_S1x8_S8x16_S1x16_1_0_0_1_n_n 8 rfl rfl).symm]
  refine Finset.sum_congr rfl fun h _ => ?_
  have hl : dot_S1x8_S8x16_S1x16_1_0_0_1_n_n.lhsIdx (ix2 (0 : Fin 1) j) ((contrEquiv1 dot_S1x8_S8x16_S1x16_1_0_0_1_n_n 8 rfl rfl).symm h) = ix2 (0 : Fin 1) h :=
    funext fun a => Fin.ext (by
      match a with
      | ⟨0, _⟩ => rfl
      | ⟨1, _⟩ => exact (DotDims.lhsIdx_val_of_single _ rfl _ _).trans (contrEquiv1_symm_val _ 8 rfl rfl h))
  have hr : dot_S1x8_S8x16_S1x16_1_0_0_1_n_n.rhsIdx (ix2 (0 : Fin 1) j) ((contrEquiv1 dot_S1x8_S8x16_S1x16_1_0_0_1_n_n 8 rfl rfl).symm h) = ix2 h j :=
    funext fun a => Fin.ext (by
      match a with
      | ⟨0, _⟩ => exact (DotDims.rhsIdx_val_of_single _ rfl _ _).trans (contrEquiv1_symm_val _ 8 rfl rfl h)
      | ⟨1, _⟩ => rfl)
  rw [hl, hr]

/-! ## Reductions and keepdims layouts at an index -/

/-- A [16, 256] array summed over its rows. -/
theorem red_rows_add (v : FVec Ideal S16x256 .f32) (c : Fin 256)
    (hφ : FKind.Formats .f32) (hacc : (0x00000000#32 : BitVec 32) = FKind.add.neutral .f32 hφ) :
    multiReduction (F := Ideal) .add [0] S256 v 0x00000000#32 reduces_S16x256_S256 hφ hacc (ix1 c) = ∑ t : Fin 16, v (ix2 t c) := by
  refine (Ideal.multiReduction_add_single _ _ _ _ _ _).trans ?_
  refine Finset.sum_congr rfl fun t _ => congrArg v (funext fun a => Fin.ext ?_)
  match a with
  | ⟨0, _⟩ => rfl
  | ⟨1, _⟩ => rfl

/-- A [16, 256] array's maximum over its rows. -/
theorem red_rows_max (v : FVec Ideal S16x256 .f32) (c : Fin 256)
    (hφ : FKind.Formats .f32) (hacc : (0xFF800000#32 : BitVec 32) = FKind.maximumf.neutral .f32 hφ) :
    multiReduction (F := Ideal) .maximumf [0] S256 v 0xFF800000#32 reduces_S16x256_S256 hφ hacc (ix1 c)
      = Finset.univ.sup fun t : Fin 16 => v (ix2 t c) := by
  refine (Ideal.multiReduction_maximumf_single _ _ _ _ _ _).trans ?_
  refine (Cert.Gates.fold_max_eq_sup _).trans ?_
  refine congrArg Finset.univ.sup (funext fun t => congrArg v (funext fun a => Fin.ext ?_))
  match a with
  | ⟨0, _⟩ => rfl
  | ⟨1, _⟩ => rfl

/-- A [16, 256] array summed over its columns. -/
theorem red_cols_add (v : FVec Ideal S16x256 .f32) (t : Fin 16)
    (hφ : FKind.Formats .f32) (hacc : (0x00000000#32 : BitVec 32) = FKind.add.neutral .f32 hφ) :
    multiReduction (F := Ideal) .add [1] S16 v 0x00000000#32 reduces_S16x256_S16 hφ hacc (ix1 t) = ∑ c : Fin 256, v (ix2 t c) := by
  refine (Ideal.multiReduction_add_single _ _ _ _ _ _).trans ?_
  refine Finset.sum_congr rfl fun c _ => congrArg v (funext fun a => Fin.ext ?_)
  match a with
  | ⟨0, _⟩ => rfl
  | ⟨1, _⟩ => rfl

/-- A [16, 256] array's maximum over its columns. -/
theorem red_cols_max (v : FVec Ideal S16x256 .f32) (t : Fin 16)
    (hφ : FKind.Formats .f32) (hacc : (0xFF800000#32 : BitVec 32) = FKind.maximumf.neutral .f32 hφ) :
    multiReduction (F := Ideal) .maximumf [1] S16 v 0xFF800000#32 reduces_S16x256_S16 hφ hacc (ix1 t)
      = Finset.univ.sup fun c : Fin 256 => v (ix2 t c) := by
  refine (Ideal.multiReduction_maximumf_single _ _ _ _ _ _).trans ?_
  refine (Cert.Gates.fold_max_eq_sup _).trans ?_
  refine congrArg Finset.univ.sup (funext fun c => congrArg v (funext fun a => Fin.ext ?_))
  match a with
  | ⟨0, _⟩ => rfl
  | ⟨1, _⟩ => rfl

/-- A vector [a] cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column [16, 1] of a vector, transposed to a row [1, 16], reads at (0, t) the vector at t. -/
theorem row_of_vec (v : FVec Ideal S16 .f32) (t : Fin 16) :
    transpose S1x16 [1, 0] (shapeCast S16x1 v shapeCasts_S16_S16x1) transposes_S16x1_p1_0_S1x16 (ix2 (0 : Fin 1) t) = v (ix1 t) :=
  (transpose_ix2_apply _ _ (0 : Fin 1) t).trans (shapeCast_a_a1_apply v _ t 0)

/-! ## The pooled rows of gate 1 -/

/-- The mean row: the column sums of the plane sums (the last part's result), times the constant. -/
theorem pay71_apply (acc : FVec Ideal S16x256 .f32) (v1 v2 v3 v4 : Vec Ideal S1x16x16x256 .f32) (c : Fin 256) :
    k0_pay71 (F := Ideal) acc v1 v2 v3 v4 (ix2 (0 : Fin 1) c)
      = (∑ t : Fin 16, k0_pay69 acc v1 v2 v3 v4 (ix2 t c)) * Cert.Gates.invTHW := by
  unfold k0_pay71
  dsimp only
  rw [mulf_apply, broadcast_apply]
  exact congrArg₂ (· * ·) ((shapeCast_a_1a_apply _ _ (0 : Fin 1) c).trans (red_rows_add _ c _ _)) rfl

/-- The maximum row: the column suprema of the plane maxima. -/
theorem pay72_apply (acc : FVec Ideal S16x256 .f32) (v1 v2 v3 v4 : Vec Ideal S1x16x16x256 .f32) (c : Fin 256) :
    k0_pay72 (F := Ideal) acc v1 v2 v3 v4 (ix2 (0 : Fin 1) c)
      = Finset.univ.sup fun t : Fin 16 => k0_pay70 acc v1 v2 v3 v4 (ix2 t c) := by
  unfold k0_pay72
  dsimp only
  exact (shapeCast_a_1a_apply _ _ (0 : Fin 1) c).trans (red_rows_max _ c _ _)

/-- A cast to the same shape changes nothing. -/
theorem pay73_eq (v : Vec Ideal S16x256 .f32) : k0_pay73 (F := Ideal) v = v := by
  unfold k0_pay73; exact shapeCast_self v _

theorem pay76_eq (v : Vec Ideal S1x8 .f32) : k0_pay76 (F := Ideal) v = v := by
  unfold k0_pay76; exact shapeCast_self v _

/-! ## Gate 1: the scale -/

/-- The first perceptron's hidden layer as the body computes it on a row. -/
theorem hidden1_row (v : FVec Ideal S1x256 .f32) (X1 : FVec Ideal S16x256 .f32) (B1 : Vec Ideal S1x16 .f32) (j : Fin 16) :
    maximumf (addf (matmul (F := Ideal) dot_S1x256_S16x256_S1x16_1_1_0_0_n_n none v X1 (constant S1x16 .f32 0x00000000#32)) B1)
        (broadcast S1x16 (Scalar.ofBits (F := Ideal) .f32 0x00000000#32)) (ix2 (0 : Fin 1) j)
      = Cert.Gates.hidden1 (fun c j => X1 (ix2 j c)) (fun j => B1 (ix2 (0 : Fin 1) j)) (fun c => v (ix2 (0 : Fin 1) c)) j := by
  rw [maximumf_apply, addf_apply, broadcast_apply, matmul_row_chan]
  unfold Cert.Gates.hidden1
  exact congrArg (max _) Ideal.ofBits_zero_f32

/-- The scale row at channel c: the squashed sum of the two perceptron outputs and twice the bias. -/
theorem pay74_apply (a m : FVec Ideal S1x256 .f32) (X1 : FVec Ideal S16x256 .f32) (B1 : Vec Ideal S1x16 .f32) (W2 : Vec Ideal S16x256 .f32) (B2 : Vec Ideal S1x256 .f32) (c : Fin 256) :
    k0_pay74 (F := Ideal) a m X1 B1 W2 B2 (ix2 (0 : Fin 1) c)
      = Ideal.logistic (Cert.Gates.mlp1 (fun c j => X1 (ix2 j c)) (fun j => B1 (ix2 (0 : Fin 1) j)) (fun j c => W2 (ix2 j c)) (fun c => a (ix2 (0 : Fin 1) c)) c
          + Cert.Gates.mlp1 (fun c j => X1 (ix2 j c)) (fun j => B1 (ix2 (0 : Fin 1) j)) (fun j c => W2 (ix2 j c)) (fun c => m (ix2 (0 : Fin 1) c)) c
          + Cert.Gates.two * B2 (ix2 (0 : Fin 1) c)) := by
  unfold k0_pay74
  refine congrArg Ideal.logistic ?_
  rw [addf_apply, addf_apply, mulf_apply, broadcast_apply, matmul_hid_chan, matmul_hid_chan]
  unfold Cert.Gates.mlp1
  exact congrArg₂ (· + ·) (congrArg₂ (· + ·)
    (Finset.sum_congr rfl fun h _ => congrArg (· * _) (hidden1_row a X1 B1 h))
    (Finset.sum_congr rfl fun h _ => congrArg (· * _) (hidden1_row m X1 B1 h))) rfl

/-! ## Gate 2: the pooled rows and the hidden layer of the mean branch -/

/-- The maximum over channels of the scaled plane maxima, as a row over the frames. -/
theorem pay75_apply (M : FVec Ideal S16x256 .f32) (a m : FVec Ideal S1x256 .f32) (X1 : FVec Ideal S16x256 .f32) (B1 : Vec Ideal S1x16 .f32) (W2 : Vec Ideal S16x256 .f32) (B2 : Vec Ideal S1x256 .f32) (t : Fin 16) :
    k0_pay75 (F := Ideal) M a m X1 B1 W2 B2 (ix2 (0 : Fin 1) t)
      = Finset.univ.sup fun c : Fin 256 => M (ix2 t c) * k0_pay74 a m X1 B1 W2 B2 (ix2 (0 : Fin 1) c) := by
  unfold k0_pay75
  dsimp only
  refine (row_of_vec _ t).trans ((red_cols_max _ t _ _).trans ?_)
  refine congrArg Finset.univ.sup (funext fun c => ?_)
  rw [mulf_apply, broadcastTo_1b_ab_apply]

/-- The second perceptron's hidden layer on the mean over channels of the scaled plane sums. -/
theorem pay77_apply (S : FVec Ideal S16x256 .f32) (a m : FVec Ideal S1x256 .f32) (X1 : FVec Ideal S16x256 .f32) (B1 : Vec Ideal S1x16 .f32) (W2 : Vec Ideal S16x256 .f32) (B2 : Vec Ideal S1x256 .f32) (X5 : Vec Ideal S8x16 .f32) (X6 : Vec Ideal S1x8 .f32) (k : Fin 8) :
    k0_pay77 (F := Ideal) S a m X1 B1 W2 B2 X5 X6 (ix2 (0 : Fin 1) k)
      = Cert.Gates.hidden2 (fun k t => X5 (ix2 k t)) (fun k => X6 (ix2 (0 : Fin 1) k))
          (fun t => (∑ c : Fin 256, S (ix2 t c) * k0_pay74 a m X1 B1 W2 B2 (ix2 (0 : Fin 1) c)) * Cert.Gates.invCHW) k := by
  unfold k0_pay77
  dsimp only
  rw [maximumf_apply, addf_apply, broadcast_apply, matmul_row_frame, pay76_eq]
  unfold Cert.Gates.hidden2
  refine congrArg₂ max (congrArg₂ (· + ·) (Finset.sum_congr rfl fun t _ => congrArg (· * _) ?_) rfl) Ideal.ofBits_zero_f32
  rw [mulf_apply, broadcast_apply]
  refine congrArg₂ (· * ·) ((row_of_vec _ t).trans ((red_cols_add _ t _ _).trans (Finset.sum_congr rfl fun c _ => ?_))) rfl
  rw [mulf_apply, broadcastTo_1b_ab_apply]

/-- The result row at frame t: the squashed sum of the second perceptron's two outputs and twice the bias
    (the mean branch's hidden layer arrives computed, the maximum branch's is computed here). -/
theorem pay1_apply (pm : FVec Ideal S1x16 .f32) (X5 : Vec Ideal S8x16 .f32) (b1t ha : FVec Ideal S1x8 .f32)
    (X7 : Vec Ideal S8x16 .f32) (X8 : Vec Ideal S1x16 .f32) (t : Fin 16) :
    k0_pay1 (F := Ideal) pm X5 b1t ha (constant S1x8 .f32 0x00000000#32) X7 X8 (ix3 (0 : Fin 1) (0 : Fin 1) t)
      = Ideal.logistic ((∑ k : Fin 8, ha (ix2 (0 : Fin 1) k) * X7 (ix2 k t))
          + Cert.Gates.mlp2 (fun k t => X5 (ix2 k t)) (fun k => b1t (ix2 (0 : Fin 1) k)) (fun t k => X7 (ix2 k t))
              (fun t => pm (ix2 (0 : Fin 1) t)) t
          + Cert.Gates.two * X8 (ix2 (0 : Fin 1) t)) := by
  unfold k0_pay1
  refine (shapeCast_ab_1ab_apply _ _ (0 : Fin 1) (0 : Fin 1) t).trans ?_
  refine congrArg Ideal.logistic ?_
  rw [addf_apply, addf_apply, mulf_apply, broadcast_apply, matmul_hid_frame, matmul_hid_frame, shapeCast_self, shapeCast_self]
  unfold Cert.Gates.mlp2 Cert.Gates.hidden2
  refine congrArg₂ (· + ·) (congrArg₂ (· + ·) rfl (Finset.sum_congr rfl fun k _ => congrArg (· * _) ?_)) rfl
  rw [maximumf_apply, addf_apply, broadcast_apply, matmul_row_frame]
  exact congrArg (max _) Ideal.ofBits_zero_f32

end Cert.KernelIdeal.Body
-- ==== Proof.KernelBody.lean ====
/-
  The kernel's body is the specification, as a pure statement over the nine input blocks.

  The body's one store is read with its accumulators named (the ten parts of the plane reduction) and its
  whole-buffer loads read through; the pooled rows, the scale row and the second gate's two branches are then
  identified, layer by layer, with the specification's functions of the slab's plane sums and maxima.
-/
import proofs.«171221_g2000003629944382_pallasbulk_706_19_alg».proof.Proof.KernelBodyAcc
import proofs.«171221_g2000003629944382_pallasbulk_706_19_alg».proof.Proof.KernelBodyGate

noncomputable section

namespace Cert.KernelIdeal.Body

open Idealize.ShloMosaic Idealize.ShloMosaic.ValueIdx Cert.KernelIdeal Cert.KernelIdeal.Gen

/-- The plane sums of the slab, by channel and frame. -/
def planeS (x0 : Vec Ideal S1x784x16x256 .f32) (c : Fin 256) (t' : Fin 16) : EReal := ∑ p : Fin 784, x0 (ix4 (0 : Fin 1) p t' c)
/-- The plane maxima of the slab, by channel and frame. -/
def planeM (x0 : Vec Ideal S1x784x16x256 .f32) (c : Fin 256) (t' : Fin 16) : EReal := Finset.univ.sup fun p : Fin 784 => x0 (ix4 (0 : Fin 1) p t' c)

/-- The body's mean row over the frames. -/
def meanRow (x0 : Vec Ideal S1x784x16x256 .f32) : FVec Ideal S1x256 .f32 := k0_pay71 (accS8 x0) (View.ld x0 r0_45) (View.ld x0 r0_46) (View.ld x0 r0_47) (View.ld x0 r0_48)
/-- The body's maximum row over the frames. -/
def maxRow (x0 : Vec Ideal S1x784x16x256 .f32) : FVec Ideal S1x256 .f32 := k0_pay72 (accM8 x0) (View.ld x0 r0_45) (View.ld x0 r0_46) (View.ld x0 r0_47) (View.ld x0 r0_48)

/-- The body's one store, with its accumulators and pooled rows named and the whole-buffer loads read. -/
theorem out_named (x0 : Vec Ideal S1x784x16x256 .f32) (x1 : Vec Ideal S16x256 .f32) (x2 : Vec Ideal S1x16 .f32) (x3 : Vec Ideal S16x256 .f32) (x4 : Vec Ideal S1x256 .f32) (x5 : Vec Ideal S8x16 .f32) (x6 : Vec Ideal S1x8 .f32) (x7 : Vec Ideal S8x16 .f32) (x8 : Vec Ideal S1x16 .f32) :
    out0_9 (F := Ideal) x0 x1 x2 x3 x4 x5 x6 x7 x8
      = k0_pay1 (k0_pay75 (accM9 x0) (meanRow x0) (maxRow x0) x1 x2 x3 x4) x5 x6
          (k0_pay77 (accS9 x0) (meanRow x0) (maxRow x0) x1 x2 x3 x4 x5 x6) (constant S1x8 .f32 0x00000000#32) x7 x8 := by
  have hz3 : (![0, 0, 0] : Fin 3 → ℕ) = fun _ => 0 :=
    funext fun a => by match a with | ⟨0, _⟩ => rfl | ⟨1, _⟩ => rfl | ⟨2, _⟩ => rfl
  have hz2 : (![0, 0] : Fin 2 → ℕ) = fun _ => 0 :=
    funext fun a => by match a with | ⟨0, _⟩ => rfl | ⟨1, _⟩ => rfl
  unfold out0_9
  rw [View.canon_unit_zero hz3,
    View.ld_unit_zero (S := S16x256) hz2 _ x1, View.ld_unit_zero (S := S1x16) hz2 _ x2, View.ld_unit_zero (S := S16x256) hz2 _ x3,
    View.ld_unit_zero (S := S1x256) hz2 _ x4, View.ld_unit_zero (S := S8x16) hz2 _ x5, View.ld_unit_zero (S := S1x8) hz2 _ x6,
    View.ld_unit_zero (S := S8x16) hz2 _ x7, View.ld_unit_zero (S := S1x16) hz2 _ x8, pay73_eq, pay76_eq]
  rfl

/-- The mean row is the specification's mean over frames and plane. -/
theorem meanRow_apply (x0 : Vec Ideal S1x784x16x256 .f32) (c : Fin 256) : meanRow x0 (ix2 (0 : Fin 1) c) = Cert.Gates.avgT (planeS x0) c := by
  unfold meanRow Cert.Gates.avgT
  rw [pay71_apply]
  exact congrArg (· * _) (Finset.sum_congr rfl fun t _ => planeS_apply x0 t c)

/-- The maximum row is the specification's maximum over frames and plane. -/
theorem maxRow_apply (x0 : Vec Ideal S1x784x16x256 .f32) (c : Fin 256) : maxRow x0 (ix2 (0 : Fin 1) c) = Cert.Gates.maxT (planeM x0) c := by
  unfold maxRow Cert.Gates.maxT
  rw [pay72_apply]
  exact congrArg Finset.univ.sup (funext fun t => planeM_apply x0 t c)

/-- The body's scale row is gate 1. -/
theorem scale_apply (x0 : Vec Ideal S1x784x16x256 .f32) (x1 : Vec Ideal S16x256 .f32) (x2 : Vec Ideal S1x16 .f32) (x3 : Vec Ideal S16x256 .f32) (x4 : Vec Ideal S1x256 .f32) (c : Fin 256) :
    k0_pay74 (F := Ideal) (meanRow x0) (maxRow x0) x1 x2 x3 x4 (ix2 (0 : Fin 1) c) = Cert.Gates.scale (planeS x0) (planeM x0) (fun c j => x1 (ix2 j c)) (fun j => x2 (ix2 (0 : Fin 1) j)) (fun j c => x3 (ix2 j c)) (fun c => x4 (ix2 (0 : Fin 1) c)) c := by
  have e1 : (fun c => meanRow x0 (ix2 (0 : Fin 1) c)) = Cert.Gates.avgT (planeS x0) := funext (meanRow_apply x0)
  have e2 : (fun c => maxRow x0 (ix2 (0 : Fin 1) c)) = Cert.Gates.maxT (planeM x0) := funext (maxRow_apply x0)
  rw [pay74_apply, e1, e2]
  rfl

/-- The body's pooled maximum over the channels is the specification's. -/
theorem pmRow_apply (x0 : Vec Ideal S1x784x16x256 .f32) (x1 : Vec Ideal S16x256 .f32) (x2 : Vec Ideal S1x16 .f32) (x3 : Vec Ideal S16x256 .f32) (x4 : Vec Ideal S1x256 .f32) (t : Fin 16) :
    k0_pay75 (F := Ideal) (accM9 x0) (meanRow x0) (maxRow x0) x1 x2 x3 x4 (ix2 (0 : Fin 1) t) = Cert.Gates.maxC (planeS x0) (planeM x0) (fun c j => x1 (ix2 j c)) (fun j => x2 (ix2 (0 : Fin 1) j)) (fun j c => x3 (ix2 j c)) (fun c => x4 (ix2 (0 : Fin 1) c)) t := by
  rw [pay75_apply]
  unfold Cert.Gates.maxC
  exact congrArg Finset.univ.sup (funext fun c => congrArg₂ (· * ·) (planeM_apply x0 t c) (scale_apply x0 x1 x2 x3 x4 c))

/-- The body's hidden layer of the mean branch is the specification's, on the pooled mean over the channels. -/
theorem haRow_apply (x0 : Vec Ideal S1x784x16x256 .f32) (x1 : Vec Ideal S16x256 .f32) (x2 : Vec Ideal S1x16 .f32) (x3 : Vec Ideal S16x256 .f32) (x4 : Vec Ideal S1x256 .f32) (x5 : Vec Ideal S8x16 .f32) (x6 : Vec Ideal S1x8 .f32) (k : Fin 8) :
    k0_pay77 (F := Ideal) (accS9 x0) (meanRow x0) (maxRow x0) x1 x2 x3 x4 x5 x6 (ix2 (0 : Fin 1) k)
      = Cert.Gates.hidden2 (fun k t' => x5 (ix2 k t')) (fun k => x6 (ix2 (0 : Fin 1) k)) (Cert.Gates.avgC (planeS x0) (planeM x0) (fun c j => x1 (ix2 j c)) (fun j => x2 (ix2 (0 : Fin 1) j)) (fun j c => x3 (ix2 j c)) (fun c => x4 (ix2 (0 : Fin 1) c))) k := by
  rw [pay77_apply]
  refine congrArg (fun v => Cert.Gates.hidden2 _ _ v k) (funext fun t => ?_)
  unfold Cert.Gates.avgC
  exact congrArg (· * _) (Finset.sum_congr rfl fun c _ => congrArg₂ (· * ·) (planeS_apply x0 t c) (scale_apply x0 x1 x2 x3 x4 c))

/-- THE BODY IS THE SPECIFICATION: entry t of the one stored block is gate 2 of the slab's plane statistics at frame t. -/
theorem out_eq (x0 : Vec Ideal S1x784x16x256 .f32) (x1 : Vec Ideal S16x256 .f32) (x2 : Vec Ideal S1x16 .f32) (x3 : Vec Ideal S16x256 .f32) (x4 : Vec Ideal S1x256 .f32) (x5 : Vec Ideal S8x16 .f32) (x6 : Vec Ideal S1x8 .f32) (x7 : Vec Ideal S8x16 .f32) (x8 : Vec Ideal S1x16 .f32) (t : Fin 16) :
    out0_9 (F := Ideal) x0 x1 x2 x3 x4 x5 x6 x7 x8 (ix3 (0 : Fin 1) (0 : Fin 1) t)
      = Cert.Gates.gate (fun c t' => ∑ p : Fin 784, x0 (ix4 (0 : Fin 1) p t' c)) (fun c t' => Finset.univ.sup fun p : Fin 784 => x0 (ix4 (0 : Fin 1) p t' c))
          (fun c j => x1 (ix2 j c)) (fun j => x2 (ix2 (0 : Fin 1) j)) (fun j c => x3 (ix2 j c)) (fun c => x4 (ix2 (0 : Fin 1) c))
          (fun k t' => x5 (ix2 k t')) (fun k => x6 (ix2 (0 : Fin 1) k)) (fun t' k => x7 (ix2 k t')) (fun t' => x8 (ix2 (0 : Fin 1) t')) t := by
  rw [out_named, pay1_apply]
  show _ = Cert.Gates.gate (planeS x0) (planeM x0) (fun c j => x1 (ix2 j c)) (fun j => x2 (ix2 (0 : Fin 1) j)) (fun j c => x3 (ix2 j c)) (fun c => x4 (ix2 (0 : Fin 1) c)) (fun k t' => x5 (ix2 k t')) (fun k => x6 (ix2 (0 : Fin 1) k)) (fun t' k => x7 (ix2 k t')) (fun t' => x8 (ix2 (0 : Fin 1) t')) t
  unfold Cert.Gates.gate
  refine congrArg Ideal.logistic (congrArg₂ (· + ·) (congrArg₂ (· + ·) ?_ ?_) rfl)
  · unfold Cert.Gates.mlp2
    exact Finset.sum_congr rfl fun k _ => congrArg (· * _) (haRow_apply x0 x1 x2 x3 x4 x5 x6 k)
  · exact congrArg (fun v => Cert.Gates.mlp2 _ _ _ v t) (funext fun t' => pmRow_apply x0 x1 x2 x3 x4 t')

end Cert.KernelIdeal.Body
-- ==== Proof.RefRunKept.lean ====
/-
  The reference's run with its result kept.

  The reference's @main is four segments: a reshape of the input to 32768 rows of 784 lanes, the plane-statistics
  kernel over 64 blocks of 512 rows, six layout operations (two reshapes to 8 × 256 × 16 and four transposes of the
  second gate's parameters), and the gate kernel at one point.  At every segment boundary the TensorCore's unscoped
  buffers are a known function of the launch memory (`Gen.W0` … `Gen.W4`).  Here the run is stated once more with the
  result's buffer read at the last boundary's contents, beside the nine arguments ending as launched.
-/
import proofs.«171221_g2000003629944382_pallasbulk_706_19_alg».proof.Proof.Gen.ReferenceIdeal.Frame

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends, nothing faulting, with the result's buffer at the last boundary's
    contents of that buffer and the nine arguments as launched. -/
theorem run_kept : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.ReferenceIdeal.RefValue

end
-- ==== Proof.RefRunGateRegion.lean ====
/-
  The gate kernel's region: one point, every window its whole array.

  The reference's second pallas_call has no grid.  Each of its ten operands is staged whole, so the block the body
  loads from a window is that window's array as the region finds it, and the one block the body stores is the whole
  8 × 16 result.  Given that the body computes, at entry (b, t), gate 2 of batch b's plane statistics at frame t
  (the hypothesis `GateFact`), the result array after the region is that function of the ten arrays at entry.
-/
import proofs.«171221_g2000003629944382_pallasbulk_706_19_alg».proof.Proof.Gen.ReferenceIdeal.Frame
import proofs.«171221_g2000003629944382_pallasbulk_706_19_alg».proof.Proof.Gates
import Idealize.ShloMosaic.Lib.Pipeline.Value

set_option maxRecDepth 16384

noncomputable section

namespace Cert.ReferenceIdeal.RefValue

open Idealize.ShloMosaic Idealize.ShloMosaic.ValueIdx Idealize.ShloMosaic.TcCoe Idealize.SL.Sem
open Idealize.ShloMosaic.Pipeline (Dat)
open Cert.ReferenceIdeal Cert.ReferenceIdeal.Gen

/-- the second kernel's body is the specification (proved elsewhere) -/
def GateFact : Prop := ∀ (x0 x1 : Vec Ideal S8x256x16 .f32) (x2 : Vec Ideal S256x16 .f32) (x3 : Vec Ideal S1x16 .f32) (x4 : Vec Ideal S16x256 .f32) (x5 : Vec Ideal S1x256 .f32) (x6 : Vec Ideal S16x8 .f32) (x7 : Vec Ideal S1x8 .f32) (x8 : Vec Ideal S8x16 .f32) (x9 : Vec Ideal S1x16 .f32) (b : Fin 8) (t : Fin 16),
      out1_10 (F := Ideal) x0 x1 x2 x3 x4 x5 x6 x7 x8 x9 (ix2 b t)
        = Cert.Gates.gate (fun c t' => x0 (ix3 b c t')) (fun c t' => x1 (ix3 b c t')) (fun c j => x2 (ix2 c j)) (fun j => x3 (ix2 (0 : Fin 1) j))
            (fun j c => x4 (ix2 j c)) (fun c => x5 (ix2 (0 : Fin 1) c)) (fun k t' => x6 (ix2 t' k)) (fun k => x7 (ix2 (0 : Fin 1) k))
            (fun t' k => x8 (ix2 k t')) (fun t' => x9 (ix2 (0 : Fin 1) t')) t

/-- Both gates for one batch and one frame, from the stacked statistics and the parameters as the gate kernel holds
    them (the second perceptron's parameters transposed). -/
def gateAt (x0 x1 : Vec Ideal S8x256x16 .f32) (x2 : Vec Ideal S256x16 .f32) (x3 : Vec Ideal S1x16 .f32) (x4 : Vec Ideal S16x256 .f32) (x5 : Vec Ideal S1x256 .f32) (x6 : Vec Ideal S16x8 .f32) (x7 : Vec Ideal S1x8 .f32) (x8 : Vec Ideal S8x16 .f32) (x9 : Vec Ideal S1x16 .f32) (b : Fin 8) (t : Fin 16) : EReal :=
  Cert.Gates.gate (fun c t' => x0 (ix3 b c t')) (fun c t' => x1 (ix3 b c t')) (fun c j => x2 (ix2 c j)) (fun j => x3 (ix2 (0 : Fin 1) j))
            (fun j c => x4 (ix2 j c)) (fun c => x5 (ix2 (0 : Fin 1) c)) (fun k t' => x6 (ix2 t' k)) (fun k => x7 (ix2 (0 : Fin 1) k))
            (fun t' k => x8 (ix2 k t')) (fun t' => x9 (ix2 (0 : Fin 1) t')) t

/-- Both gates for all eight batches: the 8 × 16 array whose entry (b, t) is `gateAt` there. -/
def gateAll (x0 x1 : Vec Ideal S8x256x16 .f32) (x2 : Vec Ideal S256x16 .f32) (x3 : Vec Ideal S1x16 .f32) (x4 : Vec Ideal S16x256 .f32) (x5 : Vec Ideal S1x256 .f32) (x6 : Vec Ideal S16x8 .f32) (x7 : Vec Ideal S1x8 .f32) (x8 : Vec Ideal S8x16 .f32) (x9 : Vec Ideal S1x16 .f32) : Vec Ideal S8x16 .f32 :=
  fun i => gateAt x0 x1 x2 x3 x4 x5 x6 x7 x8 x9 (i 0) (i 1)

/-- Under the hypothesis the body's one store leaves `gateAll` of its ten loaded blocks. -/
theorem out1_10_eq (hgate : GateFact) (x0 x1 : Vec Ideal S8x256x16 .f32) (x2 : Vec Ideal S256x16 .f32) (x3 : Vec Ideal S1x16 .f32) (x4 : Vec Ideal S16x256 .f32) (x5 : Vec Ideal S1x256 .f32) (x6 : Vec Ideal S16x8 .f32) (x7 : Vec Ideal S1x8 .f32) (x8 : Vec Ideal S8x16 .f32) (x9 : Vec Ideal S1x16 .f32) :
    out1_10 (F := Ideal) x0 x1 x2 x3 x4 x5 x6 x7 x8 x9 = gateAll x0 x1 x2 x3 x4 x5 x6 x7 x8 x9 := by
  funext i
  obtain ⟨b, t, rfl⟩ : ∃ (b : Fin 8) (t : Fin 16), i = ix2 b t := ⟨i 0, i 1, eq_ix2 i⟩
  exact hgate x0 x1 x2 x3 x4 x5 x6 x7 x8 x9 b t

section Blocks

variable {F : FTy → Type} [FloatOps F]
variable (V : (c : Dev nD) → (b : Ref sig .tc) → Buf (Elt F) ((c : Thread nD τ).loc b))

/-- Window 0's one block starts at the array's origin. -/
theorem origin1_0 : (fun a : Fin 3 => win1_0.index t1_0 a * main_v2.ty.shape.size a) = fun _ => 0 :=
  funext fun a => by fin_cases a <;> rfl
/-- Window 1's one block starts at the array's origin. -/
theorem origin1_1 : (fun a : Fin 3 => win1_1.index t1_0 a * main_v3.ty.shape.size a) = fun _ => 0 :=
  funext fun a => by fin_cases a <;> rfl
/-- Window 2's one block starts at the array's origin. -/
theorem origin1_2 : (fun a : Fin 2 => win1_2.index t1_0 a * main_arg1.ty.shape.size a) = fun _ => 0 :=
  funext fun a => by fin_cases a <;> rfl
/-- Window 3's one block starts at the array's origin. -/
theorem origin1_3 : (fun a : Fin 2 => win1_3.index t1_0 a * main_arg2.ty.shape.size a) = fun _ => 0 :=
  funext fun a => by fin_cases a <;> rfl
/-- Window 4's one block starts at the array's origin. -/
theorem origin1_4 : (fun a : Fin 2 => win1_4.index t1_0 a * main_arg3.ty.shape.size a) = fun _ => 0 :=
  funext fun a => by fin_cases a <;> rfl
/-- Window 5's one block starts at the array's origin. -/
theorem origin1_5 : (fun a : Fin 2 => win1_5.index t1_0 a * main_arg4.ty.shape.size a) = fun _ => 0 :=
  funext fun a => by fin_cases a <;> rfl
/-- Window 6's one block starts at the array's origin. -/
theorem origin1_6 : (fun a : Fin 2 => win1_6.index t1_0 a * main_v4.ty.shape.size a) = fun _ => 0 :=
  funext fun a => by fin_cases a <;> rfl
/-- Window 7's one block starts at the array's origin. -/
theorem origin1_7 : (fun a : Fin 2 => win1_7.index t1_0 a * main_v5.ty.shape.size a) = fun _ => 0 :=
  funext fun a => by fin_cases a <;> rfl
/-- Window 8's one block starts at the array's origin. -/
theorem origin1_8 : (fun a : Fin 2 => win1_8.index t1_0 a * main_v6.ty.shape.size a) = fun _ => 0 :=
  funext fun a => by fin_cases a <;> rfl
/-- Window 9's one block starts at the array's origin. -/
theorem origin1_9 : (fun a : Fin 2 => win1_9.index t1_0 a * main_v7.ty.shape.size a) = fun _ => 0 :=
  funext fun a => by fin_cases a <;> rfl
/-- Window 10's one block starts at the array's origin. -/
theorem origin1_10 : (fun a : Fin 2 => win1_10.index t1_0 a * main_v8.ty.shape.size a) = fun _ => 0 :=
  funext fun a => by fin_cases a <;> rfl

/-! Each input window's block at the one point is its whole array: a read through the array's own sizes at zero offsets. -/

theorem iblk1_0_eq (c : Dev nD) (t : Fin cfg1.N) : (iblk1 V c 0 t : Vec F S8x256x16 .f32) = V c main_v2 := by
  obtain rfl := fin_N1 t
  unfold iblk1
  exact Memref.read_access_unit_zero (Elt F) main_v2 origin1_0 (fun a => by rw [congrFun origin1_0 a]; simp) (V c main_v2)
theorem iblk1_1_eq (c : Dev nD) (t : Fin cfg1.N) : (iblk1 V c 1 t : Vec F S8x256x16 .f32) = V c main_v3 := by
  obtain rfl := fin_N1 t
  unfold iblk1
  exact Memref.read_access_unit_zero (Elt F) main_v3 origin1_1 (fun a => by rw [congrFun origin1_1 a]; simp) (V c main_v3)
theorem iblk1_2_eq (c : Dev nD) (t : Fin cfg1.N) : (iblk1 V c 2 t : Vec F S256x16 .f32) = V c main_arg1 := by
  obtain rfl := fin_N1 t
  unfold iblk1
  exact Memref.read_access_unit_zero (Elt F) main_arg1 origin1_2 (fun a => by rw [congrFun origin1_2 a]; simp) (V c main_arg1)
theorem iblk1_3_eq (c : Dev nD) (t : Fin cfg1.N) : (iblk1 V c 3 t : Vec F S1x16 .f32) = V c main_arg2 := by
  obtain rfl := fin_N1 t
  unfold iblk1
  exact Memref.read_access_unit_zero (Elt F) main_arg2 origin1_3 (fun a => by rw [congrFun origin1_3 a]; simp) (V c main_arg2)
theorem iblk1_4_eq (c : Dev nD) (t : Fin cfg1.N) : (iblk1 V c 4 t : Vec F S16x256 .f32) = V c main_arg3 := by
  obtain rfl := fin_N1 t
  unfold iblk1
  exact Memref.read_access_unit_zero (Elt F) main_arg3 origin1_4 (fun a => by rw [congrFun origin1_4 a]; simp) (V c main_arg3)
theorem iblk1_5_eq (c : Dev nD) (t : Fin cfg1.N) : (iblk1 V c 5 t : Vec F S1x256 .f32) = V c main_arg4 := by
  obtain rfl := fin_N1 t
  unfold iblk1
  exact Memref.read_access_unit_zero (Elt F) main_arg4 origin1_5 (fun a => by rw [congrFun origin1_5 a]; simp) (V c main_arg4)
theorem iblk1_6_eq (c : Dev nD) (t : Fin cfg1.N) : (iblk1 V c 6 t : Vec F S16x8 .f32) = V c main_v4 := by
  obtain rfl := fin_N1 t
  unfold iblk1
  exact Memref.read_access_unit_zero (Elt F) main_v4 origin1_6 (fun a => by rw [congrFun origin1_6 a]; simp) (V c main_v4)
theorem iblk1_7_eq (c : Dev nD) (t : Fin cfg1.N) : (iblk1 V c 7 t : Vec F S1x8 .f32) = V c main_v5 := by
  obtain rfl := fin_N1 t
  unfold iblk1
  exact Memref.read_access_unit_zero (Elt F) main_v5 origin1_7 (fun a => by rw [congrFun origin1_7 a]; simp) (V c main_v5)
theorem iblk1_8_eq (c : Dev nD) (t : Fin cfg1.N) : (iblk1 V c 8 t : Vec F S8x16 .f32) = V c main_v6 := by
  obtain rfl := fin_N1 t
  unfold iblk1
  exact Memref.read_access_unit_zero (Elt F) main_v6 origin1_8 (fun a => by rw [congrFun origin1_8 a]; simp) (V c main_v6)
theorem iblk1_9_eq (c : Dev nD) (t : Fin cfg1.N) : (iblk1 V c 9 t : Vec F S1x16 .f32) = V c main_v7 := by
  obtain rfl := fin_N1 t
  unfold iblk1
  exact Memref.read_access_unit_zero (Elt F) main_v7 origin1_9 (fun a => by rw [congrFun origin1_9 a]; simp) (V c main_v7)

end Blocks

section Result

variable (V : (c : Dev nD) → (b : Ref sig .tc) → Buf (Elt Ideal) ((c : Thread nD τ).loc b))

/-- What the one point writes back is the one block of `gateAll` of the ten arrays at entry. -/
theorem flushed1_10_eq (hgate : GateFact) (c : Dev nD) (t : Fin cfg1.N) :
    (dat1 V c).flushed 10 t = ((cfg1.win 10).blk t).view.read (Elt Ideal) (gateAll (V c main_v2) (V c main_v3) (V c main_arg1) (V c main_arg2) (V c main_arg3) (V c main_arg4) (V c main_v4) (V c main_v5) (V c main_v6) (V c main_v7)) := by
  obtain rfl := fin_N1 t
  show (cfg1.win 10).cut (grid1.coords t1_0) ((dat1 V c).after 10 t1_0) = _
  rw [after1_10, iblk1_0_eq V c, iblk1_1_eq V c, iblk1_2_eq V c, iblk1_3_eq V c, iblk1_4_eq V c, iblk1_5_eq V c, iblk1_6_eq V c,
    iblk1_7_eq V c, iblk1_8_eq V c, iblk1_9_eq V c, out1_10_eq hgate]
  exact (Memref.read_access_unit_zero (Elt Ideal) main_v8 origin1_10 (fun a => by rw [congrFun origin1_10 a]; simp) _).symm

/-- The one block covers the result array. -/
theorem cover1_10_all (i : S8x16.Idx) : ∃ t : Fin cfg1.N, (cfg1.win 10).flush t = true ∧ i ∈ ((cfg1.win 10).blk t).view.set := by
  refine ⟨t1_0, flush1_10 t1_0, ?_⟩
  show i ∈ ((View.whole main_v8).slice (win1_10.rect t1_0)).set
  rw [View.set_slice_whole]
  exact View.mem_set_unit_zero origin1_10 _ i

/-- THE RESULT ARRAY after the gate kernel's region: `gateAll` of the ten arrays the region finds. -/
theorem final1_10 (hgate : GateFact) (c : Dev nD) :
    (dat1 V c).arrAt 10 cfg1.N = gateAll (V c main_v2) (V c main_v3) (V c main_arg1) (V c main_arg2) (V c main_arg3) (V c main_arg4) (V c main_v4) (V c main_v5) (V c main_v6) (V c main_v7) :=
  (dat1 V c).arrAt_eq_of_cover 10 (gateAll (V c main_v2) (V c main_v3) (V c main_arg1) (V c main_arg2) (V c main_arg3) (V c main_arg4) (V c main_v4) (V c main_v5) (V c main_v6) (V c main_v7))
    (fun t _ => flushed1_10_eq V hgate c t) cover1_10_all

end Result

end Cert.ReferenceIdeal.RefValue

end
-- ==== Proof.RefRunHost.lean ====
/-
  The layout operations between the reference's two kernels, read at an index.

  After the plane-statistics kernel @main reshapes each of its two 32768 × 1 columns to 8 × 256 × 16 — entry (b, c, t)
  is row (b·256 + c)·16 + t, the same row-major position — and transposes the second perceptron's four parameter
  arrays.  No operation before the gate kernel writes an argument, so the first perceptron's parameters reach the gate
  kernel as launched, and each transposed array at (j, i) is the launched one at (i, j).
-/
import proofs.«171221_g2000003629944382_pallasbulk_706_19_alg».proof.Proof.Gen.ReferenceIdeal.Frame
import Idealize.ShloMosaic.Lib.Pipeline.Value
import Idealize.ShloMosaic.Lib.ValueLayout

set_option maxRecDepth 16384

noncomputable section

namespace Cert.ReferenceIdeal.RefValue

open Idealize.ShloMosaic Idealize.ShloMosaic.ValueIdx Idealize.ShloMosaic.TcCoe Idealize.SL.Sem
open Idealize.ShloMosaic.Pipeline (Dat)
open Cert.ReferenceIdeal Cert.ReferenceIdeal.Gen

open Idealize.ShloMosaic.Tactic

variable {F : FTy → Type} [FloatOps F]
variable (m : (ℓ : Loc nD τ sig) → Buf (Elt F) ℓ) (ρ : Dev nD → PrngReg)

/-! ## The arguments at the plane-statistics kernel's exit: as launched (neither the first reshape nor that kernel writes one) -/

theorem W2_main_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem W2_main_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
theorem W2_main_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem W2_main_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
theorem W2_main_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results
theorem W2_main_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
theorem W2_main_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
theorem W2_main_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

/-! ## The first perceptron's parameters at the gate kernel's entry: as launched -/

theorem V3_main_arg1 (c : Dev nD) : V3 m ρ c main_arg1 = m ((c : Thread nD τ).loc main_arg1) := by
  refine Eq.trans ?_ (W2_main_arg1 m ρ c)
  show StableHlo.after hostOps1 (W2 m ρ c) (Proc.devRef .tc main_arg1) = _
  after_results
theorem V3_main_arg2 (c : Dev nD) : V3 m ρ c main_arg2 = m ((c : Thread nD τ).loc main_arg2) := by
  refine Eq.trans ?_ (W2_main_arg2 m ρ c)
  show StableHlo.after hostOps1 (W2 m ρ c) (Proc.devRef .tc main_arg2) = _
  after_results
theorem V3_main_arg3 (c : Dev nD) : V3 m ρ c main_arg3 = m ((c : Thread nD τ).loc main_arg3) := by
  refine Eq.trans ?_ (W2_main_arg3 m ρ c)
  show StableHlo.after hostOps1 (W2 m ρ c) (Proc.devRef .tc main_arg3) = _
  after_results
theorem V3_main_arg4 (c : Dev nD) : V3 m ρ c main_arg4 = m ((c : Thread nD τ).loc main_arg4) := by
  refine Eq.trans ?_ (W2_main_arg4 m ρ c)
  show StableHlo.after hostOps1 (W2 m ρ c) (Proc.devRef .tc main_arg4) = _
  after_results

/-! ## The second perceptron's parameters at the gate kernel's entry: the launched arrays transposed -/

/-- `main_v4` is the transpose of `main_arg5` as launched. -/
theorem V3_main_v4 (c : Dev nD) : (V3 m ρ c main_v4 : S16x8.Idx → Elt F .f32)
    = transpose S16x8 [1, 0] (m ((c : Thread nD τ).loc main_arg5) : S8x16.Idx → Elt F .f32) transposes_S8x16_S16x8_1_0 := by
  refine Eq.trans ?_ (congrArg (fun x : S8x16.Idx → Elt F .f32 => transpose S16x8 [1, 0] x transposes_S8x16_S16x8_1_0) (W2_main_arg5 m ρ c))
  show StableHlo.after hostOps1 (W2 m ρ c) (Proc.devRef .tc main_v4) = _
  after_results
/-- Entry (j, i) of `main_v4` is entry (i, j) of `main_arg5`. -/
theorem V3_main_v4_apply (c : Dev nD) (j : Fin 16) (i : Fin 8) :
    (V3 m ρ c main_v4 : S16x8.Idx → Elt F .f32) (ix2 j i) = (m ((c : Thread nD τ).loc main_arg5) : S8x16.Idx → Elt F .f32) (ix2 i j) := by
  rw [V3_main_v4 m ρ c]
  exact transpose_ix2_apply _ _ j i

/-- `main_v5` is the transpose of `main_arg6` as launched. -/
theorem V3_main_v5 (c : Dev nD) : (V3 m ρ c main_v5 : S1x8.Idx → Elt F .f32)
    = transpose S1x8 [1, 0] (m ((c : Thread nD τ).loc main_arg6) : S8x1.Idx → Elt F .f32) transposes_S8x1_S1x8_1_0 := by
  refine Eq.trans ?_ (congrArg (fun x : S8x1.Idx → Elt F .f32 => transpose S1x8 [1, 0] x transposes_S8x1_S1x8_1_0) (W2_main_arg6 m ρ c))
  show StableHlo.after hostOps1 (W2 m ρ c) (Proc.devRef .tc main_v5) = _
  after_results
/-- Entry (j, i) of `main_v5` is entry (i, j) of `main_arg6`. -/
theorem V3_main_v5_apply (c : Dev nD) (j : Fin 1) (i : Fin 8) :
    (V3 m ρ c main_v5 : S1x8.Idx → Elt F .f32) (ix2 j i) = (m ((c : Thread nD τ).loc main_arg6) : S8x1.Idx → Elt F .f32) (ix2 i j) := by
  rw [V3_main_v5 m ρ c]
  exact transpose_ix2_apply _ _ j i

/-- `main_v6` is the transpose of `main_arg7` as launched. -/
theorem V3_main_v6 (c : Dev nD) : (V3 m ρ c main_v6 : S8x16.Idx → Elt F .f32)
    = transpose S8x16 [1, 0] (m ((c : Thread nD τ).loc main_arg7) : S16x8.Idx → Elt F .f32) transposes_S16x8_S8x16_1_0 := by
  refine Eq.trans ?_ (congrArg (fun x : S16x8.Idx → Elt F .f32 => transpose S8x16 [1, 0] x transposes_S16x8_S8x16_1_0) (W2_main_arg7 m ρ c))
  show StableHlo.after hostOps1 (W2 m ρ c) (Proc.devRef .tc main_v6) = _
  after_results
/-- Entry (j, i) of `main_v6` is entry (i, j) of `main_arg7`. -/
theorem V3_main_v6_apply (c : Dev nD) (j : Fin 8) (i : Fin 16) :
    (V3 m ρ c main_v6 : S8x16.Idx → Elt F .f32) (ix2 j i) = (m ((c : Thread nD τ).loc main_arg7) : S16x8.Idx → Elt F .f32) (ix2 i j) := by
  rw [V3_main_v6 m ρ c]
  exact transpose_ix2_apply _ _ j i

/-- `main_v7` is the transpose of `main_arg8` as launched. -/
theorem V3_main_v7 (c : Dev nD) : (V3 m ρ c main_v7 : S1x16.Idx → Elt F .f32)
    = transpose S1x16 [1, 0] (m ((c : Thread nD τ).loc main_arg8) : S16x1.Idx → Elt F .f32) transposes_S16x1_S1x16_1_0 := by
  refine Eq.trans ?_ (congrArg (fun x : S16x1.Idx → Elt F .f32 => transpose S1x16 [1, 0] x transposes_S16x1_S1x16_1_0) (W2_main_arg8 m ρ c))
  show StableHlo.after hostOps1 (W2 m ρ c) (Proc.devRef .tc main_v7) = _
  after_results
/-- Entry (j, i) of `main_v7` is entry (i, j) of `main_arg8`. -/
theorem V3_main_v7_apply (c : Dev nD) (j : Fin 1) (i : Fin 16) :
    (V3 m ρ c main_v7 : S1x16.Idx → Elt F .f32) (ix2 j i) = (m ((c : Thread nD τ).loc main_arg8) : S16x1.Idx → Elt F .f32) (ix2 i j) := by
  rw [V3_main_v7 m ρ c]
  exact transpose_ix2_apply _ _ j i

/-! ## The stacked statistics at the gate kernel's entry: the plane-statistics kernel's columns, reshaped -/

/-- `main_v2` is the reshape of region 0's output `main_v1_0` as region 0 leaves it. -/
theorem V3_main_v2 (c : Dev nD) : (V3 m ρ c main_v2 : S8x256x16.Idx → Elt F .f32)
    = shapeCast S8x256x16 (W2 m ρ c (Proc.devRef .tc main_v1_0) : S32768x1.Idx → Elt F .f32) shapeCasts_S32768x1_S8x256x16 := by
  show StableHlo.after hostOps1 (W2 m ρ c) (Proc.devRef .tc main_v2) = _
  after_results
  rfl
/-- Entry (b, ch, t) of `main_v2` is row (b·256 + ch)·16 + t of the column region 0 leaves in `main_v1_0`. -/
theorem V3_main_v2_apply (c : Dev nD) (b : Fin 8) (ch : Fin 256) (t : Fin 16) :
    (V3 m ρ c main_v2 : S8x256x16.Idx → Elt F .f32) (ix3 b ch t)
      = ((dat0 (V1 m ρ) c).arrAt 1 cfg0.N : S32768x1.Idx → Elt F .f32)
          (ix2 (⟨(b.val * 256 + ch.val) * 16 + t.val, by have := b.isLt; have := ch.isLt; have := t.isLt; omega⟩ : Fin 32768) (0 : Fin 1)) := by
  rw [V3_main_v2 m ρ c]
  refine (shapeCast_apply _ _ (ix3 b ch t) (ix2 (⟨(b.val * 256 + ch.val) * 16 + t.val, by have := b.isLt; have := ch.isLt; have := t.isLt; omega⟩ : Fin 32768) (0 : Fin 1)) ?_).trans ?_
  · rw [Shape.rowMajor_val_two, Shape.rowMajor_val_three]
    show ((b.val * 256 + ch.val) * 16 + t.val) * 1 + 0 = (b.val * 256 + ch.val) * 16 + t.val
    omega
  · exact congrFun (W2_arr m ρ c 1) _

/-- `main_v3` is the reshape of region 0's output `main_v1_1` as region 0 leaves it. -/
theorem V3_main_v3 (c : Dev nD) : (V3 m ρ c main_v3 : S8x256x16.Idx → Elt F .f32)
    = shapeCast S8x256x16 (W2 m ρ c (Proc.devRef .tc main_v1_1) : S32768x1.Idx → Elt F .f32) shapeCasts_S32768x1_S8x256x16 := by
  show StableHlo.after hostOps1 (W2 m ρ c) (Proc.devRef .tc main_v3) = _
  after_results
  rfl
/-- Entry (b, ch, t) of `main_v3` is row (b·256 + ch)·16 + t of the column region 0 leaves in `main_v1_1`. -/
theorem V3_main_v3_apply (c : Dev nD) (b : Fin 8) (ch : Fin 256) (t : Fin 16) :
    (V3 m ρ c main_v3 : S8x256x16.Idx → Elt F .f32) (ix3 b ch t)
      = ((dat0 (V1 m ρ) c).arrAt 2 cfg0.N : S32768x1.Idx → Elt F .f32)
          (ix2 (⟨(b.val * 256 + ch.val) * 16 + t.val, by have := b.isLt; have := ch.isLt; have := t.isLt; omega⟩ : Fin 32768) (0 : Fin 1)) := by
  rw [V3_main_v3 m ρ c]
  refine (shapeCast_apply _ _ (ix3 b ch t) (ix2 (⟨(b.val * 256 + ch.val) * 16 + t.val, by have := b.isLt; have := ch.isLt; have := t.isLt; omega⟩ : Fin 32768) (0 : Fin 1)) ?_).trans ?_
  · rw [Shape.rowMajor_val_two, Shape.rowMajor_val_three]
    show ((b.val * 256 + ch.val) * 16 + t.val) * 1 + 0 = (b.val * 256 + ch.val) * 16 + t.val
    omega
  · exact congrFun (W2_arr m ρ c 2) _

end Cert.ReferenceIdeal.RefValue

end
-- ==== Proof.RefRunAssemble.lean ====
/-
  The gate kernel's result array is the specification's result.

  At the gate kernel's entry the two stacked statistics are the plane-statistics kernel's columns reshaped, the first
  perceptron's parameters are the launched arrays and the second perceptron's are the launched arrays transposed.
  Given that row (b·256 + c)·16 + t of the two columns is the sum and the supremum of the input over the plane of
  batch b, channel c and frame t, the ten arrays the gate kernel reads give, entry by entry, the ten arguments the
  specification's per-batch function is applied to.
-/
import proofs.«171221_g2000003629944382_pallasbulk_706_19_alg».proof.Proof.RefRunGateRegion
import proofs.«171221_g2000003629944382_pallasbulk_706_19_alg».proof.Proof.RefRunHost

set_option maxRecDepth 16384

noncomputable section

namespace Cert.ReferenceIdeal.RefValue

open Idealize.ShloMosaic Idealize.ShloMosaic.ValueIdx Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The per-batch function respects entrywise equality of its ten arguments. -/
theorem gate_congr {S S' M M' : Fin 256 → Fin 16 → EReal} {w1 w1' : Fin 256 → Fin 16 → EReal} {b1 b1' : Fin 16 → EReal}
    {w2 w2' : Fin 16 → Fin 256 → EReal} {b2 b2' : Fin 256 → EReal} {w1t w1t' : Fin 8 → Fin 16 → EReal} {b1t b1t' : Fin 8 → EReal}
    {w2t w2t' : Fin 16 → Fin 8 → EReal} {b2t b2t' : Fin 16 → EReal}
    (hS : ∀ c t, S c t = S' c t) (hM : ∀ c t, M c t = M' c t) (hw1 : ∀ c j, w1 c j = w1' c j) (hb1 : ∀ j, b1 j = b1' j)
    (hw2 : ∀ j c, w2 j c = w2' j c) (hb2 : ∀ c, b2 c = b2' c) (hw1t : ∀ k t, w1t k t = w1t' k t) (hb1t : ∀ k, b1t k = b1t' k)
    (hw2t : ∀ t k, w2t t k = w2t' t k) (hb2t : ∀ t, b2t t = b2t' t) (t : Fin 16) :
    Cert.Gates.gate S M w1 b1 w2 b2 w1t b1t w2t b2t t = Cert.Gates.gate S' M' w1' b1' w2' b2' w1t' b1t' w2t' b2t' t := by
  obtain rfl : S = S' := funext fun c => funext (hS c)
  obtain rfl : M = M' := funext fun c => funext (hM c)
  obtain rfl : w1 = w1' := funext fun c => funext (hw1 c)
  obtain rfl : b1 = b1' := funext hb1
  obtain rfl : w2 = w2' := funext fun j => funext (hw2 j)
  obtain rfl : b2 = b2' := funext hb2
  obtain rfl : w1t = w1t' := funext fun k => funext (hw1t k)
  obtain rfl : b1t = b1t' := funext hb1t
  obtain rfl : w2t = w2t' := funext fun t => funext (hw2t t)
  obtain rfl : b2t = b2t' := funext hb2t
  rfl

/-- THE RESULT ARRAY of the gate kernel's region, from the ten arrays at its entry, is the specification's result of
    the nine launched arguments — given the plane-statistics kernel's two columns row by row (`hsum`, `hmax`). -/
theorem gateAll_eq_result (c : Dev nD)
    (hsum : ∀ (b : Fin 8) (ch : Fin 256) (t : Fin 16),
      ((dat0 (V1 m ρ) c).arrAt 1 cfg0.N : S32768x1.Idx → EReal)
          (ix2 (⟨(b.val * 256 + ch.val) * 16 + t.val, by have := b.isLt; have := ch.isLt; have := t.isLt; omega⟩ : Fin 32768) (0 : Fin 1))
        = Cert.Gates.planeSum (m ((c.tc : Thread nD τ).loc main_arg0)) b ch t)
    (hmax : ∀ (b : Fin 8) (ch : Fin 256) (t : Fin 16),
      ((dat0 (V1 m ρ) c).arrAt 2 cfg0.N : S32768x1.Idx → EReal)
          (ix2 (⟨(b.val * 256 + ch.val) * 16 + t.val, by have := b.isLt; have := ch.isLt; have := t.isLt; omega⟩ : Fin 32768) (0 : Fin 1))
        = Cert.Gates.planeMax (m ((c.tc : Thread nD τ).loc main_arg0)) b ch t) :
    gateAll (V3 m ρ c main_v2) (V3 m ρ c main_v3) (V3 m ρ c main_arg1) (V3 m ρ c main_arg2) (V3 m ρ c main_arg3) (V3 m ρ c main_arg4) (V3 m ρ c main_v4) (V3 m ρ c main_v5) (V3 m ρ c main_v6) (V3 m ρ c main_v7)
      = Cert.Gates.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  unfold gateAll gateAt Cert.Gates.result
  refine gate_congr ?_ ?_ ?_ ?_ ?_ ?_ ?_ ?_ ?_ ?_ _
  · exact fun ch t' => (V3_main_v2_apply m ρ c (i 0) ch t').trans (hsum (i 0) ch t')
  · exact fun ch t' => (V3_main_v3_apply m ρ c (i 0) ch t').trans (hmax (i 0) ch t')
  · exact fun ch j => congrFun (V3_main_arg1 m ρ c) (ix2 ch j)
  · exact fun j => congrFun (V3_main_arg2 m ρ c) (ix2 (0 : Fin 1) j)
  · exact fun j ch => congrFun (V3_main_arg3 m ρ c) (ix2 j ch)
  · exact fun ch => congrFun (V3_main_arg4 m ρ c) (ix2 (0 : Fin 1) ch)
  · exact fun k t' => V3_main_v4_apply m ρ c t' k
  · exact fun k => V3_main_v5_apply m ρ c (0 : Fin 1) k
  · exact fun t' k => V3_main_v6_apply m ρ c k t'
  · exact fun t' => V3_main_v7_apply m ρ c (0 : Fin 1) t'

/-- The result's buffer at the last boundary is the specification's result, under the body fact and the two columns' rows. -/
theorem W4_result (hgate : GateFact) (c : Dev nD)
    (hsum : ∀ (b : Fin 8) (ch : Fin 256) (t : Fin 16),
      ((dat0 (V1 m ρ) c).arrAt 1 cfg0.N : S32768x1.Idx → EReal)
          (ix2 (⟨(b.val * 256 + ch.val) * 16 + t.val, by have := b.isLt; have := ch.isLt; have := t.isLt; omega⟩ : Fin 32768) (0 : Fin 1))
        = Cert.Gates.planeSum (m ((c.tc : Thread nD τ).loc main_arg0)) b ch t)
    (hmax : ∀ (b : Fin 8) (ch : Fin 256) (t : Fin 16),
      ((dat0 (V1 m ρ) c).arrAt 2 cfg0.N : S32768x1.Idx → EReal)
          (ix2 (⟨(b.val * 256 + ch.val) * 16 + t.val, by have := b.isLt; have := ch.isLt; have := t.isLt; omega⟩ : Fin 32768) (0 : Fin 1))
        = Cert.Gates.planeMax (m ((c.tc : Thread nD τ).loc main_arg0)) b ch t) :
    W4 m ρ c (Proc.devRef .tc main_v8)
      = Cert.Gates.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W4_arr m ρ c 10).trans ((final1_10 (V3 m ρ) hgate c).trans (gateAll_eq_result m ρ c hsum hmax))

end Cert.ReferenceIdeal.RefValue

end
-- ==== Proof.RefRunPlanePayload.lean ====
/-
  The plane-statistics kernel's two payloads at an index.

  The reference's first pallas_call works on blocks of 512 rows of 784 lanes (a row is one 28 × 28 plane, flattened).
  Its body reduces each row over the lanes twice — by addition from zero and by maximum from minus infinity — and keeps
  each result as a 512 × 1 column.  On the extended reals entry (r, ·) of the first column is the finite sum of row r
  and entry (r, ·) of the second is the supremum of row r.
-/
import proofs.«171221_g2000003629944382_pallasbulk_706_19_alg».proof.Proof.Gen.ReferenceIdeal.Skeleton
import proofs.«171221_g2000003629944382_pallasbulk_706_19_alg».proof.Proof.Gates
import Idealize.ShloMosaic.Lib.Pipeline.Value

set_option maxRecDepth 16384

noncomputable section

namespace Cert.ReferenceIdeal.RefValue

open Idealize.ShloMosaic Idealize.ShloMosaic.ValueIdx Idealize.ShloMosaic.TcCoe Idealize.SL.Sem
open Idealize.ShloMosaic.Pipeline (Dat)
open Cert.ReferenceIdeal Cert.ReferenceIdeal.Gen

/-- Row r of a 512 × 784 block with lane p put back on the reduced axis is entry (r, p). -/
theorem lift_row (r : Fin 512) (p : Fin 784) : reduces_S512x784_S512.lift (ix1 r) p = ix2 r p :=
  funext fun a => Fin.ext (by match a with | ⟨0, _⟩ => rfl | ⟨1, _⟩ => rfl)

/-- Entry (r, ·) of a column made from a 512-vector is the vector's entry r: the same row-major position. -/
theorem column_position (r : Fin 512) (u : Fin 1) : (S512.rowMajor (ix1 r)).val = (S512x1.rowMajor (ix2 r u)).val := by
  rw [Shape.rowMajor_val_one, Shape.rowMajor_val_two]
  show r.val = r.val * 1 + u.val
  omega

/-- The lane sum kept as a column: entry (r, ·) is the sum of row r. -/
theorem laneSum_apply (x : Vec Ideal S512x784 .f32) (r : Fin 512) (u : Fin 1) :
    k0_pay2 (F := Ideal) x (ix2 r u) = ∑ p : Fin 784, x (ix2 r p) := by
  unfold k0_pay2 k0_pay1
  refine (shapeCast_apply _ _ (ix2 r u) (ix1 r) (column_position r u)).trans ?_
  refine (Ideal.multiReduction_add_single _ _ _ _ _ _).trans ?_
  refine Finset.sum_congr rfl fun p _ => ?_
  rw [shapeCast_self]
  exact congrArg x (lift_row r p)

/-- The lane maximum kept as a column: entry (r, ·) is the supremum of row r. -/
theorem laneMax_apply (x : Vec Ideal S512x784 .f32) (r : Fin 512) (u : Fin 1) :
    k0_pay3 (F := Ideal) x (ix2 r u) = Finset.univ.sup fun p : Fin 784 => x (ix2 r p) := by
  unfold k0_pay3 k0_pay1
  refine (shapeCast_apply _ _ (ix2 r u) (ix1 r) (column_position r u)).trans ?_
  refine (Ideal.multiReduction_maximumf_single _ _ _ _ _ _).trans ?_
  refine (Cert.Gates.fold_max_eq_sup _).trans ?_
  refine congrArg (Finset.univ.sup) (funext fun p => ?_)
  show shapeCast S512x784 x shapeCasts_S512x784_S512x784 (reduces_S512x784_S512.lift (ix1 r) p) = _
  rw [shapeCast_self]
  exact congrArg x (lift_row r p)

end Cert.ReferenceIdeal.RefValue

end
-- ==== Proof.RefRunPlane.lean ====
/-
  The reference's first pallas_call, read: the input is laid out as 32768 rows (one per batch, channel and frame) of 784
  lanes (the flattened plane); grid point i stages rows 512·i … 512·i + 511 and writes back, for each row, the sum and the
  maximum of its lanes.  The 64 blocks cover the two 32768×1 result arrays, so row (b·256 + c)·16 + t of the first holds the
  plane sum and of the second the plane maximum of (b, c, t).
-/
import proofs.«171221_g2000003629944382_pallasbulk_706_19_alg».proof.Proof.Gen.ReferenceIdeal.Frame
import proofs.«171221_g2000003629944382_pallasbulk_706_19_alg».proof.Proof.Gates
import proofs.«171221_g2000003629944382_pallasbulk_706_19_alg».proof.Proof.RefRunPlanePayload
import Idealize.ShloMosaic.Lib.Pipeline.Value
import Idealize.ShloMosaic.Lib.ValueIdx
import Idealize.ShloMosaic.Lib.StableHlo.Run
import Idealize.ShloMosaic.Lib.Tactic

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- The rows array is the input with its five axes read as two. -/
theorem V1_rows (c : Dev nD) : (V1 m ρ c main_v0 : S32768x784.Idx → EReal)
    = shapeCast S32768x784 (m ((c : Thread nD τ).loc main_arg0) : S8x256x16x28x28.Idx → EReal) shapeCasts_S8x256x16x28x28_S32768x784 := by
  show StableHlo.after hostOps0 (W0 m ρ c) (Proc.devRef .tc main_v0) = _
  after_results
  rfl

/-- Row (b·256 + ch)·16 + t at lane p is the input at (b, ch, t) and plane position p. -/
theorem rows_apply (c : Dev nD) (b : Fin 8) (ch : Fin 256) (t : Fin 16) (p : Fin 784) (n : Fin 32768)
    (hn : n.val = (b.val * 256 + ch.val) * 16 + t.val) :
    (V1 m ρ c main_v0 : S32768x784.Idx → EReal) (ix2 n p) = Cert.Gates.planeAt (m ((c : Thread nD τ).loc main_arg0)) b ch t p := by
  rw [V1_rows]
  have hp := p.isLt
  refine (shapeCast_apply _ _ (ix2 n p) (ix5 b ch t (⟨p.val / 28, by omega⟩ : Fin 28) (⟨p.val % 28, by omega⟩ : Fin 28)) ?_).trans rfl
  rw [Shape.rowMajor_val_five, Shape.rowMajor_val_two]
  show (((b.val * 256 + ch.val) * 16 + t.val) * 28 + p.val / 28) * 28 + p.val % 28 = n.val * 784 + p.val
  omega

/-- The index maps over the 64 points: every window's block moves down the rows with the point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem lt64 (t : Fin cfg0.N) : t.val < 64 := lt_of_lt_of_eq t.isLt (N_0 : cfg0.N = 64)

/-- Point t's input block is rows 512·t … of the rows array. -/
theorem iblk0_apply (c : Dev nD) (t : Fin cfg0.N) (r : Fin 512) (p : Fin 784) :
    (iblk0 (V1 m ρ) c 0 t : Vec Ideal S512x784 .f32) (ix2 r p)
      = (V1 m ρ c main_v0 : S32768x784.Idx → EReal) (ix2 (⟨512 * t.val + r.val, by have := lt64 t; have := r.isLt; omega⟩ : Fin 32768) p) := by
  obtain ⟨e0, e1, -⟩ := idx_facts0 t
  unfold iblk0
  rw [View.read_apply]
  show V1 m ρ c main_v0 _ = V1 m ρ c main_v0 _
  congr 1
  funext a
  apply Fin.ext
  match a with
  | ⟨0, _⟩ => show win0_0.index t (0 : Fin 2) * 512 + 1 * r.val = 512 * t.val + r.val; omega
  | ⟨1, _⟩ => show win0_0.index t (1 : Fin 2) * 784 + 1 * p.val = p.val; omega

/-- The two result arrays, as functions of the row: the sum and the maximum of the row's lanes. -/
def rowSums (c : Dev nD) : S32768x1.Idx → EReal := fun i =>
  ∑ p : Fin 784, (V1 m ρ c main_v0 : S32768x784.Idx → EReal) (ix2 (⟨(i 0).val, (i 0).isLt⟩ : Fin 32768) p)
def rowMaxs (c : Dev nD) : S32768x1.Idx → EReal := fun i =>
  Finset.univ.sup fun p : Fin 784 => (V1 m ρ c main_v0 : S32768x784.Idx → EReal) (ix2 (⟨(i 0).val, (i 0).isLt⟩ : Fin 32768) p)

/-- What point t's body leaves in the sums' staging buffer, row by row. -/
theorem point_sums (c : Dev nD) (t : Fin cfg0.N) (y : S512x1.Idx) :
    out0_1 (F := Ideal) (iblk0 (V1 m ρ) c 0 t) y
      = rowSums m ρ c (ix2 (⟨512 * t.val + (y 0).val, by have := lt64 t; have : (y 0).val < 512 := (y 0).isLt; omega⟩ : Fin 32768) (0 : Fin 1)) := by
  obtain ⟨r, u, rfl⟩ : ∃ (r : Fin 512) (u : Fin 1), y = ix2 r u := ⟨y 0, y 1, eq_ix2 y⟩
  unfold out0_1
  rw [View.canon_unit_zero hz2, View.ld_unit_zero (S := S512x784) hz2]
  refine (laneSum_apply (iblk0 (V1 m ρ) c 0 t) r u).trans ?_
  exact Finset.sum_congr rfl fun p _ => iblk0_apply m ρ c t r p

/-- What point t's body leaves in the maxima's staging buffer, row by row. -/
theorem point_maxs (c : Dev nD) (t : Fin cfg0.N) (y : S512x1.Idx) :
    out0_2 (F := Ideal) (iblk0 (V1 m ρ) c 0 t) y
      = rowMaxs m ρ c (ix2 (⟨512 * t.val + (y 0).val, by have := lt64 t; have : (y 0).val < 512 := (y 0).isLt; omega⟩ : Fin 32768) (0 : Fin 1)) := by
  obtain ⟨r, u, rfl⟩ : ∃ (r : Fin 512) (u : Fin 1), y = ix2 r u := ⟨y 0, y 1, eq_ix2 y⟩
  unfold out0_2
  rw [View.canon_unit_zero hz2, View.ld_unit_zero (S := S512x784) hz2]
  refine (laneMax_apply (iblk0 (V1 m ρ) c 0 t) r u).trans ?_
  exact congrArg (Finset.univ.sup) (funext fun p => iblk0_apply m ρ c t r p)

/-- WHAT POINT t WRITES BACK to the sums is block t of `rowSums`. -/
theorem flushed0_1_eq (c : Dev nD) (t : Fin cfg0.N) :
    (dat0 (V1 m ρ) c).flushed 1 t = ((cfg0.win 1).blk t).view.read (Elt Ideal) (rowSums m ρ c) := by
  obtain ⟨-, -, e0, e1, -⟩ := idx_facts0 t
  show (cfg0.win 1).cut (grid0.coords t) ((dat0 (V1 m ρ) c).after 1 t) = _
  rw [after0_1]
  funext y
  show out0_1 (F := Ideal) (iblk0 (V1 m ρ) c 0 t) y = rowSums m ρ c (((cfg0.win 1).blk t).view.emb y)
  rw [point_sums m ρ c t y]
  congr 1
  funext a
  apply Fin.ext
  have h1 : (y 1).val < 1 := (y 1).isLt
  match a with
  | ⟨0, _⟩ => show 512 * t.val + (y 0).val = win0_1.index t (0 : Fin 2) * 512 + 1 * (y 0).val; omega
  | ⟨1, _⟩ => show 0 = win0_1.index t (1 : Fin 2) * 1 + 1 * (y 1).val; omega

/-- WHAT POINT t WRITES BACK to the maxima is block t of `rowMaxs`. -/
theorem flushed0_2_eq (c : Dev nD) (t : Fin cfg0.N) :
    (dat0 (V1 m ρ) c).flushed 2 t = ((cfg0.win 2).blk t).view.read (Elt Ideal) (rowMaxs m ρ c) := by
  obtain ⟨-, -, -, -, e0, e1⟩ := idx_facts0 t
  show (cfg0.win 2).cut (grid0.coords t) ((dat0 (V1 m ρ) c).after 2 t) = _
  rw [after0_2]
  funext y
  show out0_2 (F := Ideal) (iblk0 (V1 m ρ) c 0 t) y = rowMaxs m ρ c (((cfg0.win 2).blk t).view.emb y)
  rw [point_maxs m ρ c t y]
  congr 1
  funext a
  apply Fin.ext
  have h1 : (y 1).val < 1 := (y 1).isLt
  match a with
  | ⟨0, _⟩ => show 512 * t.val + (y 0).val = win0_2.index t (0 : Fin 2) * 512 + 1 * (y 0).val; omega
  | ⟨1, _⟩ => show 0 = win0_2.index t (1 : Fin 2) * 1 + 1 * (y 1).val; omega

theorem mem_blk0_1 (t : Fin cfg0.N) (i : S32768x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v1_0).slice (win0_1.rect t)).set ↔ _
  rw [View.set_slice_whole, Rect.mem_set_unit]
  exact Iff.rfl

theorem mem_blk0_2 (t : Fin cfg0.N) (i : S32768x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1_1).slice (win0_2.rect t)).set ↔ _
  rw [View.set_slice_whole, Rect.mem_set_unit]
  exact Iff.rfl

/-- Row n lies in the block of point n / 512: the 64 blocks cover each result array. -/
theorem cover0_1_all (i : S32768x1.Idx) : ∃ t : Fin cfg0.N, (cfg0.win 1).flush t = true ∧ i ∈ ((cfg0.win 1).blk t).view.set := by
  have h0 : (i 0).val < 32768 := (i 0).isLt
  have h1 : (i 1).val < 1 := (i 1).isLt
  let t : Fin cfg0.N := ⟨(i 0).val / 512, lt_of_lt_of_eq (by omega : (i 0).val / 512 < 64) (N_0 : cfg0.N = 64).symm⟩
  obtain ⟨-, -, e0, e1, -⟩ := idx_facts0 t
  refine ⟨t, flush0_1 t, ?_⟩
  rw [mem_blk0_1]
  intro a
  match a with
  | ⟨0, _⟩ => show win0_1.index t (0 : Fin 2) * 512 ≤ (i 0).val ∧ (i 0).val < win0_1.index t (0 : Fin 2) * 512 + 512; rw [e0]; show (i 0).val / 512 * 512 ≤ (i 0).val ∧ (i 0).val < (i 0).val / 512 * 512 + 512; omega
  | ⟨1, _⟩ => show win0_1.index t (1 : Fin 2) * 1 ≤ (i 1).val ∧ (i 1).val < win0_1.index t (1 : Fin 2) * 1 + 1; omega

theorem cover0_2_all (i : S32768x1.Idx) : ∃ t : Fin cfg0.N, (cfg0.win 2).flush t = true ∧ i ∈ ((cfg0.win 2).blk t).view.set := by
  have h0 : (i 0).val < 32768 := (i 0).isLt
  have h1 : (i 1).val < 1 := (i 1).isLt
  let t : Fin cfg0.N := ⟨(i 0).val / 512, lt_of_lt_of_eq (by omega : (i 0).val / 512 < 64) (N_0 : cfg0.N = 64).symm⟩
  obtain ⟨-, -, -, -, e0, e1⟩ := idx_facts0 t
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; rw [e0]; show (i 0).val / 512 * 512 ≤ (i 0).val ∧ (i 0).val < (i 0).val / 512 * 512 + 512; omega
  | ⟨1, _⟩ => show win0_2.index t (1 : Fin 2) * 1 ≤ (i 1).val ∧ (i 1).val < win0_2.index t (1 : Fin 2) * 1 + 1; omega

/-- THE TWO RESULT ARRAYS after the first pallas_call. -/
theorem final0_1 (c : Dev nD) : (dat0 (V1 m ρ) c).arrAt 1 cfg0.N = rowSums m ρ c :=
  (dat0 (V1 m ρ) c).arrAt_eq_of_cover 1 (rowSums m ρ c) (fun t _ => flushed0_1_eq m ρ c t) cover0_1_all
theorem final0_2 (c : Dev nD) : (dat0 (V1 m ρ) c).arrAt 2 cfg0.N = rowMaxs m ρ c :=
  (dat0 (V1 m ρ) c).arrAt_eq_of_cover 2 (rowMaxs m ρ c) (fun t _ => flushed0_2_eq m ρ c t) cover0_2_all

/-- Row (b·256 + ch)·16 + t of the sums is the plane sum of (b, ch, t). -/
theorem rowSums_apply (c : Dev nD) (b : Fin 8) (ch : Fin 256) (t : Fin 16) :
    ((dat0 (V1 m ρ) c).arrAt 1 cfg0.N : S32768x1.Idx → EReal)
        (ix2 (⟨(b.val * 256 + ch.val) * 16 + t.val, by have := b.isLt; have := ch.isLt; have := t.isLt; omega⟩ : Fin 32768) (0 : Fin 1))
      = Cert.Gates.planeSum (m ((c : Thread nD τ).loc main_arg0)) b ch t := by
  refine (congrFun (final0_1 m ρ c) _).trans ?_
  show ((∑ p : Fin 784, (V1 m ρ c main_v0 : S32768x784.Idx → EReal) (ix2 _ p) : EReal)) = ∑ p : Fin 784, Cert.Gates.planeAt _ b ch t p
  exact Finset.sum_congr rfl (by intro p _; exact rows_apply m ρ c b ch t p _ rfl)

/-- Row (b·256 + ch)·16 + t of the maxima is the plane maximum of (b, ch, t). -/
theorem rowMaxs_apply (c : Dev nD) (b : Fin 8) (ch : Fin 256) (t : Fin 16) :
    ((dat0 (V1 m ρ) c).arrAt 2 cfg0.N : S32768x1.Idx → EReal)
        (ix2 (⟨(b.val * 256 + ch.val) * 16 + t.val, by have := b.isLt; have := ch.isLt; have := t.isLt; omega⟩ : Fin 32768) (0 : Fin 1))
      = Cert.Gates.planeMax (m ((c : Thread nD τ).loc main_arg0)) b ch t := by
  refine (congrFun (final0_2 m ρ c) _).trans ?_
  show ((Finset.univ.sup fun p : Fin 784 => (V1 m ρ c main_v0 : S32768x784.Idx → EReal) (ix2 _ p) : EReal)) = Finset.univ.sup fun p : Fin 784 => Cert.Gates.planeAt _ b ch t p
  exact congrArg (Finset.univ.sup) (funext (by intro p; exact rows_apply m ρ c b ch t p _ rfl))

end Cert.ReferenceIdeal.RefValue

end
-- ==== Proof.RefRun.lean ====
/-
  The reference's run, read: its result is the specification's.

  Every weakly fair execution of the reference's @main ends with its result's buffer holding, entry (b, t), gate 2 of
  batch b's plane statistics at frame t — the specification's `Cert.Gates.result` of the nine launched arguments — and
  with the arguments as launched.  The plane-statistics kernel leaves the 32768 row sums and row suprema (row
  (b·256 + c)·16 + t is the plane of batch b, channel c, frame t); the reshapes and transposes between the kernels
  re-index them and the second perceptron's parameters; the gate kernel, whose body is the per-batch specification
  (the hypothesis), turns them into the result.
-/
import proofs.«171221_g2000003629944382_pallasbulk_706_19_alg».proof.Proof.RefRunKept
import proofs.«171221_g2000003629944382_pallasbulk_706_19_alg».proof.Proof.RefRunAssemble
import proofs.«171221_g2000003629944382_pallasbulk_706_19_alg».proof.Proof.RefRunPlane

set_option maxRecDepth 16384

noncomputable section

namespace Cert.ReferenceIdeal.RefValue

open Idealize.ShloMosaic Idealize.ShloMosaic.ValueIdx Idealize.ShloMosaic.TcCoe Idealize.SL.Sem
open Idealize.ShloMosaic.Pipeline (Dat)
open Cert.ReferenceIdeal Cert.ReferenceIdeal.Gen

/-- THE REFERENCE'S RUN: the result is the specification's result of the launched arguments, which end unchanged. -/
theorem run (hgate : GateFact) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v8)
          = Cert.Gates.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run defs _ _).mono
    (fun r h c => ⟨(h c).1.trans (W4_result m ρ hgate c (rowSums_apply m ρ c) (rowMaxs_apply m ρ c)), (h c).2⟩)
    (run_kept m ρ)

end Cert.ReferenceIdeal.RefValue

end
-- ==== Proof.LibGateOps.lean ====
/-
  Layout, reduction and product operations of a vector program read at one entry, at the ideal values: a plain
  matrix product into the zero splat as the sum over the contracted coordinate; the sum and the maximum down the
  columns of a matrix; the rows b and b + 8 of a stack of sixteen; sixteen one-row matrices stacked into one matrix, read row by row; a column broadcast along
  the rows; and one slab of a stack of matrices loaded through its unit-stride rectangle.  Each lemma is stated at
  an index written by its coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

namespace Cert.GateOps

open Idealize.ShloMosaic Idealize.ShloMosaic.ValueIdx

/-! ## Two rows of a stack of sixteen -/

/-- Row `b` of a stack of sixteen rows (the first half). -/
def lo (b : Fin 8) : Fin 16 := ⟨b.val, by omega⟩
/-- Row `b + 8` of a stack of sixteen rows (the second half). -/
def hi (b : Fin 8) : Fin 16 := ⟨8 + b.val, by omega⟩

/-! ## A plain matrix product -/

/-- A product of an m×k by a k×n matrix (contracting the left operand's columns with the right operand's rows),
    accumulated into the zero splat, read at entry (a, b): the sum over the contracted coordinate. -/
theorem matmul_plain_apply {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Reductions down the columns of a matrix -/

/-- The source index over column `c` with row `k` inserted is (k, c). -/
theorem lift_rows {n m : ℕ} (h : Shape.Reduces ⟨2, ![n, m]⟩ [0] ⟨1, ![m]⟩) (c : Fin m) (k : Fin n) :
    h.lift (ix1 c) k = ix2 k c := by
  funext ax; apply Fin.ext
  match ax with
  | ⟨0, _⟩ => rfl
  | ⟨1, _⟩ => rfl

/-- The sum down column `c` of an n×m matrix, accumulated from the zero word. -/
theorem colSum_apply {n m : ℕ} (src : FVec Ideal ⟨2, ![n, m]⟩ .f32) (h : Shape.Reduces ⟨2, ![n, m]⟩ [0] ⟨1, ![m]⟩)
    (hφ : FKind.Formats .f32) (hacc : (0x00000000#32 : BitVec 32) = 0x00000000#32) (c : Fin m) :
    multiReduction .add [0] ⟨1, ![m]⟩ src 0x00000000#32 h hφ hacc (ix1 c) = ∑ k : Fin n, src (ix2 k c) := by
  refine (Ideal.multiReduction_add_single src 0x00000000#32 h hφ hacc (ix1 c)).trans ?_
  exact Finset.sum_congr rfl fun k _ => congrArg src (lift_rows h c k)

/-- The maximum down column `c` of an n×m matrix: the fold of `max` from minus infinity's word. -/
theorem colMax_apply {n m : ℕ} (src : FVec Ideal ⟨2, ![n, m]⟩ .f32) (h : Shape.Reduces ⟨2, ![n, m]⟩ [0] ⟨1, ![m]⟩)
    (hφ : FKind.Formats .f32) (hacc : (0xFF800000#32 : BitVec 32) = 0xFF800000#32) (c : Fin m) :
    multiReduction .maximumf [0] ⟨1, ![m]⟩ src 0xFF800000#32 h hφ hacc (ix1 c)
      = (Finset.univ : Finset (Fin n)).fold max (Ideal.ofBits .f32 0xFF800000#32) fun k => src (ix2 k c) := by
  refine (Ideal.multiReduction_maximumf_single src 0xFF800000#32 h hφ hacc (ix1 c)).trans ?_
  exact congrArg (Finset.fold max _ · Finset.univ) (funext fun k => congrArg src (lift_rows h c k))

/-! ## Sixteen rows stacked -/

/-- Sixteen 1×n matrices concatenated along the rows: row `r` of the result is the one row of piece `r`. -/
theorem stack16_apply {α : Type} {n : ℕ}
    (v0 v1 v2 v3 v4 v5 v6 v7 v8 v9 v10 v11 v12 v13 v14 v15 : (⟨2, ![1, n]⟩ : Shape).Idx → α)
    (h : Shape.Concatenates [(⟨2, ![1, n]⟩ : Shape), ⟨2, ![1, n]⟩, ⟨2, ![1, n]⟩, ⟨2, ![1, n]⟩, ⟨2, ![1, n]⟩, ⟨2, ![1, n]⟩,
      ⟨2, ![1, n]⟩, ⟨2, ![1, n]⟩, ⟨2, ![1, n]⟩, ⟨2, ![1, n]⟩, ⟨2, ![1, n]⟩, ⟨2, ![1, n]⟩, ⟨2, ![1, n]⟩, ⟨2, ![1, n]⟩,
      ⟨2, ![1, n]⟩, ⟨2, ![1, n]⟩] ⟨2, ![16, n]⟩ 0)
    (r : Fin 16) (c : Fin n) :
    concatenate ⟨2, ![16, n]⟩ 0 [⟨⟨2, ![1, n]⟩, v0⟩, ⟨⟨2, ![1, n]⟩, v1⟩, ⟨⟨2, ![1, n]⟩, v2⟩, ⟨⟨2, ![1, n]⟩, v3⟩,
        ⟨⟨2, ![1, n]⟩, v4⟩, ⟨⟨2, ![1, n]⟩, v5⟩, ⟨⟨2, ![1, n]⟩, v6⟩, ⟨⟨2, ![1, n]⟩, v7⟩, ⟨⟨2, ![1, n]⟩, v8⟩,
        ⟨⟨2, ![1, n]⟩, v9⟩, ⟨⟨2, ![1, n]⟩, v10⟩, ⟨⟨2, ![1, n]⟩, v11⟩, ⟨⟨2, ![1, n]⟩, v12⟩, ⟨⟨2, ![1, n]⟩, v13⟩,
        ⟨⟨2, ![1, n]⟩, v14⟩, ⟨⟨2, ![1, n]⟩, v15⟩] h (ix2 r c)
      = ![v0, v1, v2, v3, v4, v5, v6, v7, v8, v9, v10, v11, v12, v13, v14, v15] r (ix2 (0 : Fin 1) c) :=
  concatenate_ofFn_unit_apply (t := ⟨2, ![16, n]⟩) (s₁ := ⟨2, ![1, n]⟩) 0
    ![v0, v1, v2, v3, v4, v5, v6, v7, v8, v9, v10, v11, v12, v13, v14, v15] h rfl rfl (ix2 r c) r rfl
    (ix2 (0 : Fin 1) c) (fun b hb => by
      match b with
      | ⟨0, _⟩ => exact absurd rfl hb
      | ⟨1, _⟩ => rfl)

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One slab of a stack of matrices -/

/-- A load of slab `o` (one matrix) of a stack of `N` matrices through its unit-stride rectangle reads, at
    `(0, c, t)`, the stack at `(o, c, t)`. -/
theorem ld_slab {Val : EltTy → Type} {e : EltTy} {N a b : ℕ} (x : (⟨3, ![N, a, b]⟩ : Shape).Idx → Val e) (o : ℕ)
    (inb : ∀ ax, (![o, 0, 0] : Fin 3 → ℕ) ax + (![1, a, b] : Fin 3 → ℕ) ax ≤ (⟨3, ![N, a, b]⟩ : Shape).size ax)
    (k : Fin N) (hk : k.val = o) (c : Fin a) (t : Fin b) :
    View.ld x (Rect.unit (s := ⟨3, ![N, a, b]⟩) ![o, 0, 0] ![1, a, b] inb) (ix3 (0 : Fin 1) c t) = x (ix3 k c t) := by
  show x _ = x _
  refine congrArg x (funext fun ax => Fin.ext ?_)
  match ax with
  | ⟨0, _⟩ => show o + 1 * 0 = k.val; omega
  | ⟨1, _⟩ => show 0 + 1 * c.val = c.val; omega
  | ⟨2, _⟩ => show 0 + 1 * t.val = t.val; omega

end Cert.GateOps

end
-- ==== Proof.RefGate1.lean ====
/-
  Gate 1 of the stacked program, read entry by entry.

  The program stacks, for the eight batches, the row of channel means over the frames (rows 0–7) and the row of
  channel maxima over the frames (rows 8–15) into one 16 × 256 matrix, sends all sixteen rows through the first
  perceptron at once, and adds row b to row b + 8 before squashing: row b of the result is batch b's scale.
-/
import proofs.«171221_g2000003629944382_pallasbulk_706_19_alg».proof.Proof.Gen.ReferenceIdeal.Frame
import proofs.«171221_g2000003629944382_pallasbulk_706_19_alg».proof.Proof.Gates
import proofs.«171221_g2000003629944382_pallasbulk_706_19_alg».proof.Proof.LibGateOps

noncomputable section

namespace Cert.ReferenceIdeal.GateBody

open Idealize.ShloMosaic Idealize.ShloMosaic.ValueIdx Cert.ReferenceIdeal Cert.ReferenceIdeal.Gen Cert.GateOps

/-! ## The pooled rows of one batch -/

/-- The mean row of one batch's 256 × 16 slab of plane sums: at channel `c` the sum over the frames times the
    word for 1/(16·784). -/
theorem meanRow_apply (v : Vec Ideal S1x256x16 .f32) (c : Fin 256) :
    k1_pay1 v (ix2 (0 : Fin 1) c) = (∑ t : Fin 16, v (ix3 (0 : Fin 1) c t)) * Cert.Gates.invTHW := by
  unfold k1_pay1 Cert.Gates.invTHW
  dsimp only
  rw [mulf_apply, broadcast_apply, shapeCast_a_1a_apply, colSum_apply]
  refine congrArg (· * _) (Finset.sum_congr rfl fun t _ => ?_)
  rw [transpose_ix2_apply, shapeCast_1ab_ab_apply]

/-- The eight mean payloads are one function. -/
theorem meanRow_eq : @k1_pay2 Ideal _ = k1_pay1 ∧ @k1_pay3 Ideal _ = k1_pay1 ∧ @k1_pay4 Ideal _ = k1_pay1
    ∧ @k1_pay5 Ideal _ = k1_pay1 ∧ @k1_pay6 Ideal _ = k1_pay1 ∧ @k1_pay7 Ideal _ = k1_pay1 ∧ @k1_pay8 Ideal _ = k1_pay1 :=
  ⟨rfl, rfl, rfl, rfl, rfl, rfl, rfl⟩

/-- The maximum row of one batch's 256 × 16 slab of plane maxima: at channel `c` the supremum over the frames. -/
theorem maxRow_apply (v : Vec Ideal S1x256x16 .f32) (c : Fin 256) :
    k1_pay9 v (ix2 (0 : Fin 1) c) = Finset.univ.sup fun t : Fin 16 => v (ix3 (0 : Fin 1) c t) := by
  unfold k1_pay9
  dsimp only
  rw [shapeCast_a_1a_apply, colMax_apply, Cert.Gates.fold_max_eq_sup]
  refine congrArg (Finset.sup Finset.univ) (funext fun t => ?_)
  rw [transpose_ix2_apply, shapeCast_1ab_ab_apply]

/-- A slab transposed reads, at (t, c), the slab at (0, c, t). -/
theorem slabT_apply (v : Vec Ideal S1x256x16 .f32) (t : Fin 16) (c : Fin 256) :
    k1_pay11 v (ix2 t c) = v (ix3 (0 : Fin 1) c t) := by
  unfold k1_pay11
  dsimp only
  rw [transpose_ix2_apply, shapeCast_1ab_ab_apply]

/-! ## The stack of sixteen pooled rows through the first layer -/

/-- The maximum down the columns of a 16 × 256 matrix, as a one-row matrix. -/
theorem maxRowT_apply (T : FVec Ideal S16x256 .f32) (c : Fin 256) :
    shapeCast S1x256 (multiReduction .maximumf [0] S256 T 0xFF800000#32 reduces_S16x256_S256 (.inl rfl) rfl)
        shapeCasts_S256_S1x256 (ix2 (0 : Fin 1) c)
      = Finset.univ.sup fun t : Fin 16 => T (ix2 t c) := by
  rw [shapeCast_a_1a_apply, colMax_apply, Cert.Gates.fold_max_eq_sup]

/-- The sixteen pooled rows as the program stacks them: eight mean rows and two maximum rows it is handed, the
    maximum row of a slab it is handed transposed, and the maximum rows of five slabs it is handed whole. -/
def rows16 (m0 m1 m2 m3 m4 m5 m6 m7 M0 M1 : FVec Ideal S1x256 .f32) (T2 : FVec Ideal S16x256 .f32)
    (v3 v4 v5 v6 v7 : Vec Ideal S1x256x16 .f32) : Fin 16 → Fin 256 → EReal :=
  ![fun c => m0 (ix2 (0 : Fin 1) c), fun c => m1 (ix2 (0 : Fin 1) c), fun c => m2 (ix2 (0 : Fin 1) c),
    fun c => m3 (ix2 (0 : Fin 1) c), fun c => m4 (ix2 (0 : Fin 1) c), fun c => m5 (ix2 (0 : Fin 1) c),
    fun c => m6 (ix2 (0 : Fin 1) c), fun c => m7 (ix2 (0 : Fin 1) c), fun c => M0 (ix2 (0 : Fin 1) c),
    fun c => M1 (ix2 (0 : Fin 1) c), fun c => Finset.univ.sup fun t : Fin 16 => T2 (ix2 t c),
    fun c => Finset.univ.sup fun t : Fin 16 => v3 (ix3 (0 : Fin 1) c t),
    fun c => Finset.univ.sup fun t : Fin 16 => v4 (ix3 (0 : Fin 1) c t),
    fun c => Finset.univ.sup fun t : Fin 16 => v5 (ix3 (0 : Fin 1) c t),
    fun c => Finset.univ.sup fun t : Fin 16 => v6 (ix3 (0 : Fin 1) c t),
    fun c => Finset.univ.sup fun t : Fin 16 => v7 (ix3 (0 : Fin 1) c t)]

/-- The first layer before its ramp, on all sixteen rows at once: entry (r, j) is row r of the stack against
    column j of the weights, plus the bias. -/
theorem stack1_apply (m0 m1 m2 m3 m4 m5 m6 m7 M0 M1 : FVec Ideal S1x256 .f32) (T2 : FVec Ideal S16x256 .f32)
    (v3 v4 v5 v6 v7 : Vec Ideal S1x256x16 .f32) (w1 : Vec Ideal S256x16 .f32) (b1 : Vec Ideal S1x16 .f32)
    (r j : Fin 16) :
    k1_pay12 m0 m1 m2 m3 m4 m5 m6 m7 M0 M1 T2 v3 v4 v5 v6 v7 w1 b1 (ix2 r j)
      = (∑ c : Fin 256, rows16 m0 m1 m2 m3 m4 m5 m6 m7 M0 M1 T2 v3 v4 v5 v6 v7 r c * w1 (ix2 c j))
        + b1 (ix2 (0 : Fin 1) j) := by
  unfold k1_pay12
  dsimp only
  rw [addf_apply, broadcastTo_1b_ab_apply]
  refine congrArg (· + _) ((matmul_plain_apply _ _ _ r j).trans
    (Finset.sum_congr rfl fun c _ => congrArg (· * _) ?_))
  rw [stack16_apply]
  fin_cases r
  · rfl
  · rfl
  · rfl
  · rfl
  · rfl
  · rfl
  · rfl
  · rfl
  · rfl
  · rfl
  · exact maxRowT_apply T2 c
  · exact maxRow_apply v3 c
  · exact maxRow_apply v4 c
  · exact maxRow_apply v5 c
  · exact maxRow_apply v6 c
  · exact maxRow_apply v7 c

/-! ## The second layer, the two branches added, the squash -/

/-- Gate 1 on the stack: row `b` of the result squashes the second layer of row `b` (the mean branch) plus that of
    row `b + 8` (the maximum branch), each ramped first; the two copies of the bias are twice the bias. -/
theorem scaleRows_apply (v101 : FVec Ideal S16x16 .f32) (w2 : Vec Ideal S16x256 .f32) (b2 : Vec Ideal S1x256 .f32)
    (b : Fin 8) (c : Fin 256) :
    k1_pay13 v101 (Scalar.ofBits .f32 0x00000000#32) w2 b2 (ix2 b c)
      = Ideal.logistic ((∑ j : Fin 16, max (v101 (ix2 (lo b) j)) 0 * w2 (ix2 j c))
          + (∑ j : Fin 16, max (v101 (ix2 (hi b) j)) 0 * w2 (ix2 j c)) + Cert.Gates.two * b2 (ix2 (0 : Fin 1) c)) := by
  unfold k1_pay13
  show Ideal.logistic _ = _
  refine congrArg Ideal.logistic ?_
  rw [addf_apply, slice2_axis0_apply 0 _ _ b c (lo b) (Nat.zero_add _).symm, slice2_axis0_apply 8 _ _ b c (hi b) rfl,
    addf_apply, addf_apply, broadcastTo_1b_ab_apply, broadcastTo_1b_ab_apply, Cert.Gates.pair_bias]
  have hrow : ∀ r : Fin 16,
      matmul dot_S16x16_S16x256_S16x256_1_0_0_1_n_n none
          (maximumf v101 (broadcast S16x16 (Scalar.ofBits (F := Ideal) .f32 0x00000000#32))) w2
          (constant S16x256 .f32 0x00000000#32) (ix2 r c)
        = ∑ j : Fin 16, max (v101 (ix2 r j)) 0 * w2 (ix2 j c) := fun r =>
    (matmul_plain_apply _ _ _ r c).trans (Finset.sum_congr rfl fun j _ => by
      rw [maximumf_apply, broadcast_apply]
      show max _ (Ideal.ofBits .f32 0x00000000#32) * _ = _
      rw [Ideal.ofBits_zero_f32])
  rw [hrow, hrow]

end Cert.ReferenceIdeal.GateBody

end
-- ==== Proof.RefGate2.lean ====
/-
  Gate 2 of the stacked program, read entry by entry.

  For each batch the program takes row b of the scales (a 1 × 256 matrix), multiplies it into the batch's 256 × 16
  slab of plane sums (the mean branch, times the word for 1/(256·784)) and, transposed to a column and broadcast
  along the frames, into the slab of plane maxima, whose column maxima it takes (the maximum branch).  The sixteen
  rows are stacked, sent through the second perceptron at once, and row b is added to row b + 8 before the squash.
-/
import proofs.«171221_g2000003629944382_pallasbulk_706_19_alg».proof.Proof.Gen.ReferenceIdeal.Frame
import proofs.«171221_g2000003629944382_pallasbulk_706_19_alg».proof.Proof.Gates
import proofs.«171221_g2000003629944382_pallasbulk_706_19_alg».proof.Proof.LibGateOps

noncomputable section

namespace Cert.ReferenceIdeal.GateBody

open Idealize.ShloMosaic Idealize.ShloMosaic.ValueIdx Cert.ReferenceIdeal Cert.ReferenceIdeal.Gen Cert.GateOps

/-! ## The two pooled rows of one batch -/

/-- The mean branch of one batch: row `k` of the scales against the batch's slab of plane sums, at frame `t` the sum
    over the channels of scale times plane sum, times the word for 1/(256·784). -/
theorem meanC_apply (o : ℕ) (hs : S8x256.Slices ![o, 0] S1x256) (sc : FVec Ideal S8x256 .f32)
    (v : FVec Ideal S1x256x16 .f32) (k : Fin 8) (hk : k.val = o + (0 : Fin 1).val) (t : Fin 16) :
    mulf (matmul dot_S1x256_S256x16_S1x16_1_0_0_1_n_n none (extractStridedSlice S1x256 ![o, 0] sc hs)
          (shapeCast S256x16 v shapeCasts_S1x256x16_S256x16) (constant S1x16 .f32 0x00000000#32))
        (broadcast S1x16 (Scalar.ofBits (F := Ideal) .f32 0x36A72F05#32)) (ix2 (0 : Fin 1) t)
      = (∑ c : Fin 256, sc (ix2 k c) * v (ix3 (0 : Fin 1) c t)) * Cert.Gates.invCHW := by
  unfold Cert.Gates.invCHW
  rw [mulf_apply, broadcast_apply]
  refine congrArg (· * _) ((matmul_plain_apply _ _ _ (0 : Fin 1) t).trans (Finset.sum_congr rfl fun c _ => ?_))
  rw [slice2_axis0_apply o sc hs (0 : Fin 1) c k hk, shapeCast_1ab_ab_apply]

/-- The maximum branch of one batch: row `k` of the scales, as a column along the frames, times the batch's slab of
    plane maxima; at frame `t` the supremum over the channels of plane maximum times scale. -/
theorem maxC_apply (o : ℕ) (hs : S8x256.Slices ![o, 0] S1x256) (sc : FVec Ideal S8x256 .f32)
    (v : FVec Ideal S1x256x16 .f32) (k : Fin 8) (hk : k.val = o + (0 : Fin 1).val) (t : Fin 16) :
    shapeCast S1x16 (multiReduction .maximumf [0] S16
          (mulf (shapeCast S256x16 v shapeCasts_S1x256x16_S256x16)
            (broadcastTo S256x16 (transpose S256x1 [1, 0] (extractStridedSlice S1x256 ![o, 0] sc hs)
              transposes_S1x256_p1_0_S256x1) broadcasts_S256x1_S256x16))
          0xFF800000#32 reduces_S256x16_S16 (.inl rfl) rfl) shapeCasts_S16_S1x16 (ix2 (0 : Fin 1) t)
      = Finset.univ.sup fun c : Fin 256 => v (ix3 (0 : Fin 1) c t) * sc (ix2 k c) := by
  rw [shapeCast_a_1a_apply, colMax_apply, Cert.Gates.fold_max_eq_sup]
  refine congrArg (Finset.sup Finset.univ) (funext fun c => ?_)
  rw [mulf_apply, shapeCast_1ab_ab_apply, broadcastTo_a1_ab_apply, transpose_ix2_apply,
    slice2_axis0_apply o sc hs (0 : Fin 1) c k hk]

/-! ## The stack of sixteen pooled rows -/

/-- The stack of gate 2: fourteen rows it is handed, and the column maxima of two 256 × 16 products. -/
theorem stack2_apply (a0 a1 a2 a3 a4 a5 a6 a7 a8 a9 a10 a11 a12 a13 : FVec Ideal S1x16 .f32)
    (P Q : FVec Ideal S256x16 .f32) (r t : Fin 16) :
    k1_pay32 a0 a1 a2 a3 a4 a5 a6 a7 a8 a9 a10 a11 a12 a13 P Q (ix2 r t)
      = ![a0, a1, a2, a3, a4, a5, a6, a7, a8, a9, a10, a11, a12, a13,
          shapeCast S1x16 (multiReduction .maximumf [0] S16 P 0xFF800000#32 reduces_S256x16_S16 (.inl rfl) rfl)
            shapeCasts_S16_S1x16,
          shapeCast S1x16 (multiReduction .maximumf [0] S16 Q 0xFF800000#32 reduces_S256x16_S16 (.inl rfl) rfl)
            shapeCasts_S16_S1x16] r (ix2 (0 : Fin 1) t) := by
  unfold k1_pay32
  dsimp only
  rw [stack16_apply]

/-! ## The second perceptron on the stack, the two branches added, the squash -/

/-- Gate 2 on the stack: row `b` of the result squashes the perceptron's output on row `b` (the mean branch) plus
    that on row `b + 8` (the maximum branch); the two copies of the output bias are twice the bias. -/
theorem gate2Rows_apply (v225 : FVec Ideal S16x16 .f32) (w1t : Vec Ideal S16x8 .f32) (b1t : Vec Ideal S1x8 .f32)
    (w2t : Vec Ideal S8x16 .f32) (b2t : Vec Ideal S1x16 .f32) (b : Fin 8) (t : Fin 16) :
    k1_pay33 v225 w1t b1t w2t b2t (ix2 b t)
      = Ideal.logistic
          ((∑ k : Fin 8, max ((∑ t' : Fin 16, v225 (ix2 (lo b) t') * w1t (ix2 t' k)) + b1t (ix2 (0 : Fin 1) k)) 0
              * w2t (ix2 k t))
            + (∑ k : Fin 8, max ((∑ t' : Fin 16, v225 (ix2 (hi b) t') * w1t (ix2 t' k)) + b1t (ix2 (0 : Fin 1) k)) 0
              * w2t (ix2 k t))
            + Cert.Gates.two * b2t (ix2 (0 : Fin 1) t)) := by
  unfold k1_pay33
  simp only [shapeCast_self]
  show Ideal.logistic _ = _
  refine congrArg Ideal.logistic ?_
  rw [addf_apply, slice2_axis0_apply 0 _ _ b t (lo b) (Nat.zero_add _).symm, slice2_axis0_apply 8 _ _ b t (hi b) rfl,
    addf_apply, addf_apply, broadcastTo_1b_ab_apply, broadcastTo_1b_ab_apply, Cert.Gates.pair_bias]
  have hrow : ∀ r : Fin 16,
      matmul dot_S16x8_S8x16_S16x16_1_0_0_1_n_n none
          (maximumf (addf (matmul dot_S16x16_S16x8_S16x8_1_0_0_1_n_n none v225 w1t (constant S16x8 .f32 0x00000000#32))
              (broadcastTo S16x8 b1t broadcasts_S1x8_S16x8))
            (broadcast S16x8 (Scalar.ofBits (F := Ideal) .f32 0x00000000#32))) w2t
          (constant S16x16 .f32 0x00000000#32) (ix2 r t)
        = ∑ k : Fin 8, max ((∑ t' : Fin 16, v225 (ix2 r t') * w1t (ix2 t' k)) + b1t (ix2 (0 : Fin 1) k)) 0
            * w2t (ix2 k t) := fun r =>
    (matmul_plain_apply _ _ _ r t).trans (Finset.sum_congr rfl fun k _ => by
      rw [maximumf_apply, broadcast_apply, addf_apply, broadcastTo_1b_ab_apply]
      show max (_ + _) (Ideal.ofBits .f32 0x00000000#32) * _ = _
      rw [Ideal.ofBits_zero_f32]
      exact congrArg (fun z => max (z + _) 0 * _) (matmul_plain_apply _ _ _ r k))
  rw [hrow, hrow]

end Cert.ReferenceIdeal.GateBody

end
-- ==== Proof.RefGate.lean ====
/-
  The stacked program's store is the two gates of each batch's plane statistics.

  The body loads batch b's 256 × 16 slabs of plane sums and plane maxima through unit-stride rectangles of the two
  8 × 256 × 16 buffers and the eight parameter arrays whole, and stores one 8 × 16 value.  Row b of gate 1's stack is
  the first layer on batch b's mean row, row b + 8 that on its maximum row; row b of the scales is batch b's scale;
  row b of gate 2's stack is batch b's scaled mean over channels, row b + 8 its scaled maximum; entry (b, t) of the
  store is gate 2 of batch b at frame t.  Three places differ from the specification only in spelling, each an
  identity on all extended reals: the bias is added to each branch before the branches are summed
  ((A + β) + (B + β) = A + B + 2β), the mean branch multiplies scale · sum where the specification has
  sum · scale, and the branches of one batch sit eight rows apart in a stack of sixteen.
-/
import proofs.«171221_g2000003629944382_pallasbulk_706_19_alg».proof.Proof.Gen.ReferenceIdeal.Frame
import proofs.«171221_g2000003629944382_pallasbulk_706_19_alg».proof.Proof.Gates
import proofs.«171221_g2000003629944382_pallasbulk_706_19_alg».proof.Proof.LibGateOps
import proofs.«171221_g2000003629944382_pallasbulk_706_19_alg».proof.Proof.RefGate1
import proofs.«171221_g2000003629944382_pallasbulk_706_19_alg».proof.Proof.RefGate2

noncomputable section

namespace Cert.ReferenceIdeal.GateBody

open Idealize.ShloMosaic Idealize.ShloMosaic.ValueIdx Cert.ReferenceIdeal Cert.ReferenceIdeal.Gen Cert.GateOps

/-- The offsets of a whole rank-2 rectangle. -/
theorem zero2 : (![0, 0] : Fin 2 → ℕ) = fun _ => 0 := by funext a; fin_cases a <;> rfl

/-! ## One batch's slab through the pooling payloads -/

section Slab
variable (x : Vec Ideal S8x256x16 .f32) (o : ℕ)
  (inb : ∀ a, (![o, 0, 0] : Fin 3 → ℕ) a + S1x256x16.size a ≤ S8x256x16.size a) (k : Fin 8) (hk : k.val = o)
include hk

/-- The mean row of slab `k` of the plane sums is batch `k`'s mean over frames and plane. -/
theorem meanRow_slab (c : Fin 256) :
    k1_pay1 (View.ld x (Rect.unit (s := S8x256x16) ![o, 0, 0] S1x256x16.size inb)) (ix2 (0 : Fin 1) c)
      = Cert.Gates.avgT (fun c t => x (ix3 k c t)) c := by
  rw [meanRow_apply]
  exact congrArg (· * _) (Finset.sum_congr rfl fun t _ => ld_slab x o inb k hk c t)

/-- The maximum row of slab `k` of the plane maxima is batch `k`'s maximum over frames and plane. -/
theorem maxRow_slab (c : Fin 256) :
    k1_pay9 (View.ld x (Rect.unit (s := S8x256x16) ![o, 0, 0] S1x256x16.size inb)) (ix2 (0 : Fin 1) c)
      = Cert.Gates.maxT (fun c t => x (ix3 k c t)) c := by
  rw [maxRow_apply]
  exact congrArg (Finset.sup Finset.univ) (funext fun t => ld_slab x o inb k hk c t)

/-- The same from the slab handed over transposed. -/
theorem maxRowT_slab (c : Fin 256) :
    (Finset.univ.sup fun t : Fin 16 =>
        k1_pay11 (View.ld x (Rect.unit (s := S8x256x16) ![o, 0, 0] S1x256x16.size inb)) (ix2 t c))
      = Cert.Gates.maxT (fun c t => x (ix3 k c t)) c :=
  congrArg (Finset.sup Finset.univ) (funext fun t => (slabT_apply _ t c).trans (ld_slab x o inb k hk c t))

/-- The same from the slab handed over whole. -/
theorem maxRowW_slab (c : Fin 256) :
    (Finset.univ.sup fun t : Fin 16 =>
        View.ld x (Rect.unit (s := S8x256x16) ![o, 0, 0] S1x256x16.size inb) (ix3 (0 : Fin 1) c t))
      = Cert.Gates.maxT (fun c t => x (ix3 k c t)) c :=
  congrArg (Finset.sup Finset.univ) (funext fun t => ld_slab x o inb k hk c t)

variable (sc : FVec Ideal S8x256 .f32) (hs : S8x256.Slices ![o, 0] S1x256)

/-- Row `k` of the scales into slab `k` of the plane sums: batch `k`'s scaled mean over channels and plane. -/
theorem meanC_slab (t : Fin 16) :
    mulf (matmul (φ₂ := .f32) dot_S1x256_S256x16_S1x16_1_0_0_1_n_n none (extractStridedSlice S1x256 ![o, 0] sc hs)
          (shapeCast S256x16 (View.ld x (Rect.unit (s := S8x256x16) ![o, 0, 0] S1x256x16.size inb) : FVec Ideal S1x256x16 .f32)
            shapeCasts_S1x256x16_S256x16) (constant S1x16 .f32 0x00000000#32))
        (broadcast S1x16 (Scalar.ofBits (F := Ideal) .f32 0x36A72F05#32)) (ix2 (0 : Fin 1) t)
      = (∑ c : Fin 256, x (ix3 k c t) * sc (ix2 k c)) * Cert.Gates.invCHW := by
  rw [meanC_apply o hs sc _ k hk t]
  exact congrArg (· * _) (Finset.sum_congr rfl fun c _ => by rw [ld_slab x o inb k hk c t, mul_comm])

/-- Row `k` of the scales against slab `k` of the plane maxima: batch `k`'s scaled maximum over channels and plane. -/
theorem maxC_slab (t : Fin 16) :
    shapeCast S1x16 (multiReduction .maximumf [0] S16
          (mulf (shapeCast S256x16 (View.ld x (Rect.unit (s := S8x256x16) ![o, 0, 0] S1x256x16.size inb) : FVec Ideal S1x256x16 .f32)
              shapeCasts_S1x256x16_S256x16)
            (broadcastTo S256x16 (transpose S256x1 [1, 0] (extractStridedSlice S1x256 ![o, 0] sc hs)
              transposes_S1x256_p1_0_S256x1) broadcasts_S256x1_S256x16))
          0xFF800000#32 reduces_S256x16_S16 (.inl rfl) rfl) shapeCasts_S16_S1x16 (ix2 (0 : Fin 1) t)
      = Finset.univ.sup fun c : Fin 256 => x (ix3 k c t) * sc (ix2 k c) := by
  rw [maxC_apply o hs sc _ k hk t]
  exact congrArg (Finset.sup Finset.univ) (funext fun c => by rw [ld_slab x o inb k hk c t])

end Slab

/-! ## The body's intermediate values, named -/

section Body
variable (x0 x1 : Vec Ideal S8x256x16 .f32) (x2 : Vec Ideal S256x16 .f32) (x3 : Vec Ideal S1x16 .f32)
  (x4 : Vec Ideal S16x256 .f32) (x5 : Vec Ideal S1x256 .f32)

/-- The first layer, before its ramp, on the sixteen pooled rows. -/
def stack1 : FVec Ideal S16x16 .f32 :=
  k1_pay12 (k1_pay1 (View.ld x0 r1_0)) (k1_pay2 (View.ld x0 r1_1)) (k1_pay3 (View.ld x0 r1_2)) (k1_pay4 (View.ld x0 r1_3)) (k1_pay5 (View.ld x0 r1_4)) (k1_pay6 (View.ld x0 r1_5)) (k1_pay7 (View.ld x0 r1_6)) (k1_pay8 (View.ld x0 r1_7)) (k1_pay9 (View.ld x1 r1_0)) (k1_pay10 (View.ld x1 r1_1)) (k1_pay11 (View.ld x1 r1_2)) (View.ld x1 r1_3) (View.ld x1 r1_4) (View.ld x1 r1_5) (View.ld x1 r1_6) (View.ld x1 r1_7) (View.ld x2 r1_8) (View.ld x3 r1_9)

/-- The eight batches' scales. -/
def scales : FVec Ideal S8x256 .f32 :=
  k1_pay13 (stack1 x0 x1 x2 x3) (Scalar.ofBits .f32 0x00000000#32) (View.ld x4 r1_10) (View.ld x5 r1_11)

/-- The sixteen pooled rows of gate 2. -/
def stack2 : FVec Ideal S16x16 .f32 :=
  k1_pay32 (k1_pay14 (stack1 x0 x1 x2 x3) (Scalar.ofBits .f32 0x00000000#32) (View.ld x4 r1_10) (View.ld x5 r1_11) (View.ld x0 r1_0)) (k1_pay15 (stack1 x0 x1 x2 x3) (Scalar.ofBits .f32 0x00000000#32) (View.ld x4 r1_10) (View.ld x5 r1_11) (View.ld x0 r1_1)) (k1_pay16 (stack1 x0 x1 x2 x3) (Scalar.ofBits .f32 0x00000000#32) (View.ld x4 r1_10) (View.ld x5 r1_11) (View.ld x0 r1_2)) (k1_pay17 (stack1 x0 x1 x2 x3) (Scalar.ofBits .f32 0x00000000#32) (View.ld x4 r1_10) (View.ld x5 r1_11) (View.ld x0 r1_3)) (k1_pay18 (scales x0 x1 x2 x3 x4 x5) (View.ld x0 r1_4)) (k1_pay19 (scales x0 x1 x2 x3 x4 x5) (View.ld x0 r1_5)) (k1_pay20 (scales x0 x1 x2 x3 x4 x5) (View.ld x0 r1_6)) (k1_pay21 (scales x0 x1 x2 x3 x4 x5) (View.ld x0 r1_7)) (k1_pay22 (scales x0 x1 x2 x3 x4 x5) (View.ld x1 r1_0)) (k1_pay24 (k1_pay23 (scales x0 x1 x2 x3 x4 x5)) (View.ld x1 r1_1)) (k1_pay25 (scales x0 x1 x2 x3 x4 x5) (View.ld x1 r1_2)) (k1_pay26 (scales x0 x1 x2 x3 x4 x5) (View.ld x1 r1_3)) (k1_pay27 (scales x0 x1 x2 x3 x4 x5) (View.ld x1 r1_4)) (k1_pay28 (scales x0 x1 x2 x3 x4 x5) (View.ld x1 r1_5)) (k1_pay30 (k1_pay29 (scales x0 x1 x2 x3 x4 x5)) (View.ld x1 r1_6)) (k1_pay31 (scales x0 x1 x2 x3 x4 x5) (View.ld x1 r1_7))

/-- The one covering store leaves its payload: the second perceptron on gate 2's stack. -/
theorem out_unfold (x6 : Vec Ideal S16x8 .f32) (x7 : Vec Ideal S1x8 .f32) (x8 : Vec Ideal S8x16 .f32)
    (x9 : Vec Ideal S1x16 .f32) :
    out1_10 (F := Ideal) x0 x1 x2 x3 x4 x5 x6 x7 x8 x9
      = k1_pay33 (stack2 x0 x1 x2 x3 x4 x5) (View.ld x6 r1_12) (View.ld x7 r1_13) (View.ld x8 r1_14) (View.ld x9 r1_9) := by
  unfold out1_10 stack2 scales stack1
  exact View.canon_unit_zero zero2 _ _

/-! ## Gate 1 -/

/-- Row `b` of the first stack: the first layer on batch `b`'s mean row. -/
theorem stack1_lo (b : Fin 8) (j : Fin 16) :
    stack1 x0 x1 x2 x3 (ix2 (lo b) j)
      = (∑ c : Fin 256, Cert.Gates.avgT (fun c t => x0 (ix3 b c t)) c * x2 (ix2 c j)) + x3 (ix2 (0 : Fin 1) j) := by
  unfold stack1
  rw [stack1_apply, View.ld_unit_zero (S := S256x16) zero2, View.ld_unit_zero (S := S1x16) zero2]
  refine congrArg (· + _) (Finset.sum_congr rfl fun c _ => congrArg (· * _) ?_)
  fin_cases b
  · exact meanRow_slab x0 0 _ 0 rfl c
  · exact meanRow_slab x0 1 _ 1 rfl c
  · exact meanRow_slab x0 2 _ 2 rfl c
  · exact meanRow_slab x0 3 _ 3 rfl c
  · exact meanRow_slab x0 4 _ 4 rfl c
  · exact meanRow_slab x0 5 _ 5 rfl c
  · exact meanRow_slab x0 6 _ 6 rfl c
  · exact meanRow_slab x0 7 _ 7 rfl c

/-- Row `b + 8` of the first stack: the first layer on batch `b`'s maximum row. -/
theorem stack1_hi (b : Fin 8) (j : Fin 16) :
    stack1 x0 x1 x2 x3 (ix2 (hi b) j)
      = (∑ c : Fin 256, Cert.Gates.maxT (fun c t => x1 (ix3 b c t)) c * x2 (ix2 c j)) + x3 (ix2 (0 : Fin 1) j) := by
  unfold stack1
  rw [stack1_apply, View.ld_unit_zero (S := S256x16) zero2, View.ld_unit_zero (S := S1x16) zero2]
  refine congrArg (· + _) (Finset.sum_congr rfl fun c _ => congrArg (· * _) ?_)
  fin_cases b
  · exact maxRow_slab x1 0 _ 0 rfl c
  · exact maxRow_slab x1 1 _ 1 rfl c
  · exact maxRowT_slab x1 2 _ 2 rfl c
  · exact maxRowW_slab x1 3 _ 3 rfl c
  · exact maxRowW_slab x1 4 _ 4 rfl c
  · exact maxRowW_slab x1 5 _ 5 rfl c
  · exact maxRowW_slab x1 6 _ 6 rfl c
  · exact maxRowW_slab x1 7 _ 7 rfl c

/-- Row `b` of the scales is batch `b`'s scale. -/
theorem scales_apply (b : Fin 8) (c : Fin 256) :
    scales x0 x1 x2 x3 x4 x5 (ix2 b c)
      = Cert.Gates.scale (fun c t => x0 (ix3 b c t)) (fun c t => x1 (ix3 b c t)) (fun c j => x2 (ix2 c j))
          (fun j => x3 (ix2 (0 : Fin 1) j)) (fun j c => x4 (ix2 j c)) (fun c => x5 (ix2 (0 : Fin 1) c)) c := by
  unfold scales
  rw [scaleRows_apply, View.ld_unit_zero (S := S16x256) zero2, View.ld_unit_zero (S := S1x256) zero2]
  simp only [stack1_lo, stack1_hi]
  rfl

/-! ## Gate 2's stack -/

/-- Row `b` of the second stack is batch `b`'s scaled mean over channels and plane. -/
theorem stack2_lo (b : Fin 8) (t : Fin 16) :
    stack2 x0 x1 x2 x3 x4 x5 (ix2 (lo b) t)
      = Cert.Gates.avgC (fun c t => x0 (ix3 b c t)) (fun c t => x1 (ix3 b c t)) (fun c j => x2 (ix2 c j))
          (fun j => x3 (ix2 (0 : Fin 1) j)) (fun j c => x4 (ix2 j c)) (fun c => x5 (ix2 (0 : Fin 1) c)) t := by
  have key : stack2 x0 x1 x2 x3 x4 x5 (ix2 (lo b) t)
      = (∑ c : Fin 256, x0 (ix3 b c t) * scales x0 x1 x2 x3 x4 x5 (ix2 b c)) * Cert.Gates.invCHW := by
    unfold stack2
    rw [stack2_apply]
    fin_cases b
    · exact meanC_slab x0 0 _ 0 rfl (scales x0 x1 x2 x3 x4 x5) _ t
    · exact meanC_slab x0 1 _ 1 rfl (scales x0 x1 x2 x3 x4 x5) _ t
    · exact meanC_slab x0 2 _ 2 rfl (scales x0 x1 x2 x3 x4 x5) _ t
    · exact meanC_slab x0 3 _ 3 rfl (scales x0 x1 x2 x3 x4 x5) _ t
    · exact meanC_slab x0 4 _ 4 rfl (scales x0 x1 x2 x3 x4 x5) _ t
    · exact meanC_slab x0 5 _ 5 rfl (scales x0 x1 x2 x3 x4 x5) _ t
    · exact meanC_slab x0 6 _ 6 rfl (scales x0 x1 x2 x3 x4 x5) _ t
    · exact meanC_slab x0 7 _ 7 rfl (scales x0 x1 x2 x3 x4 x5) _ t
  rw [key]
  simp only [scales_apply]
  rfl

/-- Row `b + 8` of the second stack is batch `b`'s scaled maximum over channels and plane. -/
theorem stack2_hi (b : Fin 8) (t : Fin 16) :
    stack2 x0 x1 x2 x3 x4 x5 (ix2 (hi b) t)
      = Cert.Gates.maxC (fun c t => x0 (ix3 b c t)) (fun c t => x1 (ix3 b c t)) (fun c j => x2 (ix2 c j))
          (fun j => x3 (ix2 (0 : Fin 1) j)) (fun j c => x4 (ix2 j c)) (fun c => x5 (ix2 (0 : Fin 1) c)) t := by
  have key : stack2 x0 x1 x2 x3 x4 x5 (ix2 (hi b) t)
      = Finset.univ.sup fun c : Fin 256 => x1 (ix3 b c t) * scales x0 x1 x2 x3 x4 x5 (ix2 b c) := by
    unfold stack2
    rw [stack2_apply]
    fin_cases b
    · exact maxC_slab x1 0 _ 0 rfl (scales x0 x1 x2 x3 x4 x5) _ t
    · exact maxC_slab x1 1 _ 1 rfl (scales x0 x1 x2 x3 x4 x5) _ t
    · exact maxC_slab x1 2 _ 2 rfl (scales x0 x1 x2 x3 x4 x5) _ t
    · exact maxC_slab x1 3 _ 3 rfl (scales x0 x1 x2 x3 x4 x5) _ t
    · exact maxC_slab x1 4 _ 4 rfl (scales x0 x1 x2 x3 x4 x5) _ t
    · exact maxC_slab x1 5 _ 5 rfl (scales x0 x1 x2 x3 x4 x5) _ t
    · exact maxC_slab x1 6 _ 6 rfl (scales x0 x1 x2 x3 x4 x5) _ t
    · exact maxC_slab x1 7 _ 7 rfl (scales x0 x1 x2 x3 x4 x5) _ t
  rw [key]
  simp only [scales_apply]
  rfl

end Body

/-! ## The store -/

/-- Entry (b, t) of what the body stores is gate 2 of batch `b`'s plane statistics at frame `t`. -/
theorem out_eq (x0 x1 : Vec Ideal S8x256x16 .f32) (x2 : Vec Ideal S256x16 .f32) (x3 : Vec Ideal S1x16 .f32)
    (x4 : Vec Ideal S16x256 .f32) (x5 : Vec Ideal S1x256 .f32) (x6 : Vec Ideal S16x8 .f32) (x7 : Vec Ideal S1x8 .f32)
    (x8 : Vec Ideal S8x16 .f32) (x9 : Vec Ideal S1x16 .f32) (b : Fin 8) (t : Fin 16) :
    out1_10 (F := Ideal) x0 x1 x2 x3 x4 x5 x6 x7 x8 x9 (ix2 b t)
      = Cert.Gates.gate (fun c t' => x0 (ix3 b c t')) (fun c t' => x1 (ix3 b c t')) (fun c j => x2 (ix2 c j))
          (fun j => x3 (ix2 (0 : Fin 1) j)) (fun j c => x4 (ix2 j c)) (fun c => x5 (ix2 (0 : Fin 1) c))
          (fun k t' => x6 (ix2 t' k)) (fun k => x7 (ix2 (0 : Fin 1) k)) (fun t' k => x8 (ix2 k t'))
          (fun t' => x9 (ix2 (0 : Fin 1) t')) t := by
  rw [out_unfold, gate2Rows_apply, View.ld_unit_zero (S := S16x8) zero2, View.ld_unit_zero (S := S1x8) zero2,
    View.ld_unit_zero (S := S8x16) zero2, View.ld_unit_zero (S := S1x16) zero2]
  simp only [stack2_lo, stack2_hi]
  rfl

end Cert.ReferenceIdeal.GateBody

end
-- ==== Proof.lean ====
/-
  Both programs compute, for an input x : f32[8, 256, 16, 28, 28] and the weights of two small perceptrons, the 8 × 16
  array whose entry (b, t) is gate 2 of batch b at frame t (Proof/Gates.lean): the sums and maxima of x over each 28 × 28
  plane, pooled over frames, pushed through the first perceptron and squashed into a scale per channel; the scaled
  statistics pooled over channels, pushed through the second perceptron and squashed.

  The kernel does it in one pallas_call over the 8 batches: point b sums and maximises batch b's plane in 49 segments of
  16 positions and runs both gates on that batch alone (Proof/KernelBody*.lean for the arithmetic, Proof/KernelHost.lean
  and Proof/KernelRun.lean for the operand arrays, the eight blocks and the run).  The reference does the plane sums and
  maxima in a first pallas_call, row by row over 32768 rows of 784 lanes (Proof/RefRunPlane*.lean), and both gates for all
  batches at once in a second one, on the eight mean rows stacked over the eight maximum rows (Proof/RefGate*.lean for
  the arithmetic, Proof/RefRun*.lean for the arrays in between and the run).  On the extended reals the two agree entry by
  entry with no appeal to finiteness: a finite sum or supremum may be taken in any grouping, a product in either order,
  and (A + b) + (B + b) = A + B + 2·b because 2 = 1 + 1 with both summands non-negative.

  The three frames are the generated ones; the idealization rewrote nothing, so `preserves` is `True`.
-/
import proofs.«171221_g2000003629944382_pallasbulk_706_19_alg».proof.Defs
import proofs.«171221_g2000003629944382_pallasbulk_706_19_alg».proof.Proof.Gen.Kernel
import proofs.«171221_g2000003629944382_pallasbulk_706_19_alg».proof.Proof.Gen.Kernel.Frame
import proofs.«171221_g2000003629944382_pallasbulk_706_19_alg».proof.Proof.Gen.KernelIdeal
import proofs.«171221_g2000003629944382_pallasbulk_706_19_alg».proof.Proof.Gen.KernelIdeal.Frame
import proofs.«171221_g2000003629944382_pallasbulk_706_19_alg».proof.Proof.Gen.ReferenceIdeal
import proofs.«171221_g2000003629944382_pallasbulk_706_19_alg».proof.Proof.Gen.ReferenceIdeal.Frame
import proofs.«171221_g2000003629944382_pallasbulk_706_19_alg».proof.Proof.Gen.Pre_finite_inputs
import proofs.«171221_g2000003629944382_pallasbulk_706_19_alg».proof.Proof.KernelRun
import proofs.«171221_g2000003629944382_pallasbulk_706_19_alg».proof.Proof.KernelBody
import proofs.«171221_g2000003629944382_pallasbulk_706_19_alg».proof.Proof.RefRun
import proofs.«171221_g2000003629944382_pallasbulk_706_19_alg».proof.Proof.RefGate

noncomputable section

namespace Cert.Proof

open Idealize.ShloMosaic Idealize.ShloMosaic.TcCoe Idealize.SL.Sem

/-- From memories that agree on the nine arguments both runs end with the result buffer at ONE function of those
    arguments, `Cert.Gates.result`: the kernel's by its run read block by block, the reference's by its two regions. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.Gates.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run m ρ Cert.KernelIdeal.Body.out_eq, ?_⟩
  refine (θ_run Cert.ReferenceIdeal.defs _ _).mono (fun _ h c => ⟨(h c).1.trans ?_, (h c).2⟩)
    (Cert.ReferenceIdeal.RefValue.run Cert.ReferenceIdeal.GateBody.out_eq m' ρ')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
